-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192 : Shape := ⟨1, ![8192]⟩
abbrev S512x16x4096 : Shape := ⟨3, ![512, 16, 4096]⟩
abbrev S512x4096 : Shape := ⟨2, ![512, 4096]⟩
abbrev S64x16x4096 : Shape := ⟨3, ![64, 16, 4096]⟩
abbrev S64x4096 : Shape := ⟨2, ![64, 4096]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x16 : Shape := ⟨2, ![512, 16]⟩
abbrev S8192x1 : Shape := ⟨2, ![8192, 1]⟩
abbrev S1x1 : Shape := ⟨2, ![1, 1]⟩
abbrev S512x512 : Shape := ⟨2, ![512, 512]⟩
abbrev S1 : Shape := ⟨1, ![1]⟩

abbrev nBuf : Space → Nat
  | .hbm => 23
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S512x16x4096, .f32⟩
  | .hbm, ⟨3, _⟩ => ⟨S512x4096, .f32⟩
  | .hbm, ⟨4, _⟩ => ⟨S512x4096, .bf16⟩
  | .hbm, ⟨5, _⟩ => ⟨S512x4096, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S1x512, .f32⟩
  | .hbm, ⟨10, _⟩ => ⟨S512x16, .i32⟩
  | .hbm, ⟨11, _⟩ => ⟨S512x1, .i32⟩
  | .hbm, ⟨12, _⟩ => ⟨S512, .i32⟩
  | .hbm, ⟨13, _⟩ => ⟨S1x512, .i32⟩
  | .hbm, ⟨14, _⟩ => ⟨S8192x1, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i32⟩
  | .hbm, ⟨20, _⟩ => ⟨S8192x1, .i32⟩
  | .hbm, ⟨21, _⟩ => ⟨S1x1, .f32⟩
  | .hbm, ⟨22, _⟩ => ⟨S_, .f32⟩
  | .local _ .vmem, ⟨0, _⟩ => ⟨S64x16x4096, .f32⟩
  | .local _ .vmem, ⟨1, _⟩ => ⟨S64x16x4096, .f32⟩
  | .local _ .vmem, ⟨2, _⟩ => ⟨S64x4096, .f32⟩
  | .local _ .vmem, ⟨3, _⟩ => ⟨S64x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S1x512, .f32⟩
  | .local _ .vmem, ⟨8, _⟩ => ⟨S1x512, .i32⟩
  | .local _ .vmem, ⟨9, _⟩ => ⟨S512x1, .i32⟩
  | .local _ .vmem, ⟨10, _⟩ => ⟨S512x1, .i32⟩
  | .local _ .vmem, ⟨11, _⟩ => ⟨S512x1, .i32⟩
  | .local _ .vmem, ⟨12, _⟩ => ⟨S512x1, .i32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v88 : BitVec 1 := Scalar.cmpi .eq arg0 c15_i32
  let v89 : BitVec 32 := Scalar.extui v88
  let c0_i32_44 : BitVec 32 := 0#32
  let v90 : BitVec 1 := Scalar.cmpi .ne v89 c0_i32_44
  v90

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  shapeCasts_S8192x4096_S512x16x4096 : S8192x4096.ShapeCasts S512x16x4096
  inb_S64x16x4096_S64x16x4096_0_0_0 : ∀ a, (![0, 0, 0] : Fin 3 → Nat) a + S64x16x4096.size a ≤ S64x16x4096.size a
  h_S64x16x4096 : 0 < S64x16x4096.numel
  shapeCasts_S64x16x4096_S64x16x4096 : S64x16x4096.ShapeCasts S64x16x4096
  reduces_S64x16x4096_S64x4096 : S64x16x4096.Reduces [1] S64x4096
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  reducesTo_S512x4096_S512_d1 : S512x4096.ReducesTo [1] S512
  h_S_ : 0 < S_.numel
  bcast_S512_S512x1_0 : S512.BroadcastsInDim S512x1 (![0] : Fin 1 → Fin S512x1.rank)
  shapeCasts_S512x1_S1x512 : S512x1.ShapeCasts S1x512
  shapeCasts_S8192_S512x16 : S8192.ShapeCasts S512x16
  slices_S512x16_S512x1_0_0 : S512x16.Slices ![0, 0] S512x1
  shapeCasts_S512x1_S512 : S512x1.ShapeCasts S512
  shapeCasts_S512_S1x512 : S512.ShapeCasts S1x512
  shapeCasts_S8192_S8192x1 : S8192.ShapeCasts S8192x1
  bcast_S_S8192 : S_.BroadcastsInDim S8192 (![] : Fin 0 → Fin S8192.rank)
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x512_d1_w32 : S1x512.Iotas .tc 32 [1]
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x4096.size a ≤ S512x16x4096.size a
  hwx0_0 : ∀ i : grid0.Coords, EltTy.bits .f32 = 32 ∨ (Rect.block (s := S512x16x4096) S64x16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S512x4096.size a
  hwx0_1 : ∀ i : grid0.Coords, EltTy.bits .f32 = 32 ∨ (Rect.block (s := S512x4096) S64x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x4096.size a
  hwx1_1 : ∀ i : grid1.Coords, EltTy.bits .bf16 = 32 ∨ (Rect.block (s := S512x4096) S512x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .i32 = 32 ∨ (Rect.block (s := S1x512) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .i32 = 32 ∨ (Rect.block (s := S8192x1) S512x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .i32 = 32 ∨ (Rect.block (s := S8192x1) S512x1.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S64x16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S512x16 : Shape := ⟨2, ![512, 16]⟩
abbrev S512x1 : Shape := ⟨2, ![512, 1]⟩
abbrev S512 : Shape := ⟨1, ![512]⟩
abbrev S512x16x4096 : Shape := ⟨3, ![512, 16, 4096]⟩
abbrev S_ : Shape := ⟨0, ![]⟩
abbrev S512x4096 : Shape := ⟨2, ![512, 4096]⟩
abbrev S8192x1 : Shape := ⟨2, ![8192, 1]⟩
abbrev S1x512 : Shape := ⟨2, ![1, 512]⟩
abbrev S8192x512 : Shape := ⟨2, ![8192, 512]⟩
abbrev S4096x512 : Shape := ⟨2, ![4096, 512]⟩

abbrev nBuf : Space → Nat
  | .hbm => 82
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S512x16, .i32⟩
  | .hbm, ⟨3, _⟩ => ⟨S512x1, .i32⟩
  | .hbm, ⟨4, _⟩ => ⟨S512, .i32⟩
  | .hbm, ⟨5, _⟩ => ⟨S512x16x4096, .f32⟩
  | .hbm, ⟨6, _⟩ => ⟨S_, .f32⟩
  | .hbm, ⟨7, _⟩ => ⟨S512x4096, .f32⟩
  | .hbm, ⟨8, _⟩ => ⟨S_, .f32⟩
  | .hbm, ⟨9, _⟩ => ⟨S512x4096, .f32⟩
  | .hbm, ⟨10, _⟩ => ⟨S512x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S512x4096, .f32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S4096x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x1, .i32⟩
  | .hbm, ⟨34, _⟩ => ⟨S1x512, .i32⟩
  | .hbm, ⟨35, _⟩ => ⟨S8192x512, .i32⟩
  | .hbm, ⟨36, _⟩ => ⟨S8192x512, .i32⟩
  | .hbm, ⟨37, _⟩ => ⟨S8192x512, .i1⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S8192x1, .i1⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S1x512, .i1⟩
  | .hbm, ⟨48, _⟩ => ⟨S8192x512, .i1⟩
  | .hbm, ⟨49, _⟩ => ⟨S8192x512, .i1⟩
  | .hbm, ⟨50, _⟩ => ⟨S8192x512, .i1⟩
  | .hbm, ⟨51, _⟩ => ⟨S8192x512, .i1⟩
  | .hbm, ⟨52, _⟩ => ⟨S_, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S_, .f32⟩
  | .hbm, ⟨58, _⟩ => ⟨S8192x512, .i32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S8192x512, .i1⟩
  | .hbm, ⟨64, _⟩ => ⟨S_, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S_, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S_, .f32⟩
  | .hbm, ⟨76, _⟩ => ⟨S8192x512, .i32⟩
  | .hbm, ⟨77, _⟩ => ⟨S_, .i32⟩
  | .hbm, ⟨78, _⟩ => ⟨S_, .i32⟩
  | .hbm, ⟨79, _⟩ => ⟨S_, .f32⟩
  | .hbm, ⟨80, _⟩ => ⟨S_, .f32⟩
  | .hbm, ⟨81, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_call2_v0 : Ref sig .tc := ⟨.hbm, 71, rfl⟩
abbrev main_call2_v1 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  shapeCasts_S8192_S512x16 : S8192.ShapeCasts S512x16
  slices_S512x16_S512x1_0_0 : S512x16.Slices ![0, 0] S512x1
  shapeCasts_S512x1_S512 : S512x1.ShapeCasts S512
  shapeCasts_S8192x4096_S512x16x4096 : S8192x4096.ShapeCasts S512x16x4096
  reducesTo_S512x16x4096_S512x4096_d1 : S512x16x4096.ReducesTo [1] S512x4096
  h_S_ : 0 < S_.numel
  bcast_S_S512x4096 : S_.BroadcastsInDim S512x4096 (![] : Fin 0 → Fin S512x4096.rank)
  reducesTo_S8192x4096_S8192_d1 : S8192x4096.ReducesTo [1] S8192
  bcast_S8192_S8192x1_0 : S8192.BroadcastsInDim S8192x1 (![0] : Fin 1 → Fin S8192x1.rank)
  reducesTo_S512x4096_S512_d1 : S512x4096.ReducesTo [1] S512
  bcast_S512_S1x512_1 : S512.BroadcastsInDim S1x512 (![1] : Fin 1 → Fin S1x512.rank)
  bcast_S8192x1_S8192x512_0_1 : S8192x1.BroadcastsInDim S8192x512 (![0, 1] : Fin 2 → Fin S8192x512.rank)
  bcast_S1x512_S8192x512_0_1 : S1x512.BroadcastsInDim S8192x512 (![0, 1] : Fin 2 → Fin S8192x512.rank)
  transposes_S512x4096_S4096x512_1_0 : S512x4096.Transposes [1, 0] S4096x512
  bcast_S_S8192x512 : S_.BroadcastsInDim S8192x512 (![] : Fin 0 → Fin S8192x512.rank)
  bcast_S_S8192 : S_.BroadcastsInDim S8192 (![] : Fin 0 → Fin S8192.rank)
  bcast_S_S512 : S_.BroadcastsInDim S512 (![] : Fin 0 → Fin S512.rank)
  reducesTo_S8192x512_S_d0_1 : S8192x512.ReducesTo [0, 1] S_
  natLt_1_32 : 1 < 32
  dot_S8192x4096_S4096x512_S8192x512_1_0_0_1_n_n_wf : DotDims.WF S8192x4096 S4096x512 S8192x512 [1] [0] [0] [1] [] []

variable [Facts₀]

def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf

class Facts : Prop extends Facts₀ where

variable [Facts]
-- ==== Proof.K.Region0.lean ====
/-
  The first kernel region, the group means: at grid point `t` the body reads the block of 64 groups × 16 rows × 4096
  features of the regrouped input and stores, into the block of 64 centers × 4096 features, the sum over the 16 rows
  divided by sixteen. Stated at a parameter `V`, the buffers' contents when the region is entered: the block of each
  window at a point, what the body leaves in the output's staging buffer as a function of the input block, the
  body's triple, and the proof data the pipeline's launch takes.
-/
import proofs.«115993_j5600637353990_1_alg».proof.Proof.Gen.Kernel.Launch
import proofs.«115993_j5600637353990_1_alg».proof.Proof.Gen.Kernel.Skeleton
import proofs.«115993_j5600637353990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block of the input and of the output. -/
abbrev r0_in : Rect S64x16x4096 := Rect.unit (s := S64x16x4096) ![0, 0, 0] S64x16x4096.size inb_S64x16x4096_S64x16x4096_0_0_0
abbrev r0_out : Rect S64x4096 := Rect.unit (s := S64x4096) ![0, 0] S64x4096.size inb_S64x4096_S64x4096_0_0

/-- What the body leaves in the output's staging buffer: its one store, of the means of the input block. -/
def out0_1 (x0 : Vec F S64x16x4096 .f32) : Vec F S64x4096 .f32 :=
  View.canon [⟨r0_out, k0_pay1 (View.ld x0 r0_in)⟩]

/-- The one store covers the buffer. -/
theorem cover0_1 (p0 : Vec F S64x4096 .f32) (y : S64x4096.Idx) :
    ∃ pc ∈ ([⟨r0_out, p0⟩] : List (View.Piece (Elt F) S64x4096 .f32)), y ∈ pc.1.set :=
  View.cover_of_tiled [⟨r0_out, p0⟩] S64x4096.size (by rfl) y

set_option maxHeartbeats 1000000 in
/-- The body on whole staging memrefs, the input's at contents `x0` and the output's at anything, runs to the
    continuation with the input's as it was and the output's at `out0_1 x0`. -/
theorem sound_kernel0 (c : Dev nD) (i : grid0.Coords) (E : Set ℕ) (arg1 : Memref sig .tc .vmem S64x16x4096 .f32) (harg1 : arg1.IsWhole) (arg2 : Memref sig .tc .vmem S64x4096 .f32) (harg2 : arg2.IsWhole)
    (x0 : Vec F S64x16x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__center_kernel i arg1 harg1 arg2 harg2) K := by
  simp only [cc0__center_kernel_eq_skeleton]; unfold cc0__center_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the pipeline on core `c`: the arrays as the region finds them; after the body at point `t`
    the input's buffer at its block and the output's at the means of the input block; the class's invariant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c _ Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Defs.lean ====
/-
  The second kernel region, the loss accumulation over 16 blocks of 512 rows: what its runs share. The body resets
  four one-element accumulators at the first grid point, adds the block's four partial totals into them at every
  point, and at the last point stores the two quotients' sum into the one-element output. Stated at a parameter `V`,
  the buffers' contents when the region is entered: each window's block at a point; the two branch conditions of the
  body in closed form over the grid; where the output window is idle; the staging and scratch memrefs by name.
-/
import proofs.«115993_j5600637353990_1_alg».proof.Proof.Gen.Kernel.Launch
import proofs.«115993_j5600637353990_1_alg».proof.Proof.Gen.Kernel.Skeleton
import proofs.«115993_j5600637353990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's first branch (the reset): taken when the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The body's second branch (the final quotients): taken at the last grid coordinate. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, except at the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- One staging buffer of the output window, through which its contents are stated. -/
abbrev VO1_6 : View sig .tc .vmem S1x1 .f32 := (Memref.whole cc1_stg6_0 : Memref sig .tc .vmem S1x1 .f32).view
/-- Each window's current staging memref at point `t`, and its wholeness. -/
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
/-- The four accumulators: whole scoped buffers of the kernel's own. -/
abbrev scM1_0 : Memref sig .tc .vmem S1x1 .f32 := Memref.whole cc1_scratch0
abbrev VS1_0 : View sig .tc .vmem S1x1 .f32 := scM1_0.view
abbrev scM1_1 : Memref sig .tc .vmem S1x1 .f32 := Memref.whole cc1_scratch1
abbrev VS1_1 : View sig .tc .vmem S1x1 .f32 := scM1_1.view
abbrev scM1_2 : Memref sig .tc .vmem S1x1 .f32 := Memref.whole cc1_scratch2
abbrev VS1_2 : View sig .tc .vmem S1x1 .f32 := scM1_2.view
abbrev scM1_3 : Memref sig .tc .vmem S1x1 .f32 := Memref.whole cc1_scratch3
abbrev VS1_3 : View sig .tc .vmem S1x1 .f32 := scM1_3.view

/-- The class's invariant with the four accumulators owned at some contents, beside the scoped rest's other
    buffers and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Region1

end Cert.Kernel.Hand

end
-- ==== Proof.K.R1RunA.lean ====
/-
  The body of the loss accumulation at the first grid point (the reset branch taken, the final branch not): on whole staging memrefs, the inputs' at their
  contents, the accumulators at anything, it runs to the continuation with the inputs' as they were and each
  buffer it stores into with its stores written, as a list of pieces, last first. The pieces are found by running
  the body symbolically.
-/
import proofs.«115993_j5600637353990_1_alg».proof.Proof.Gen.Kernel.Launch
import proofs.«115993_j5600637353990_1_alg».proof.Proof.Gen.Kernel.Skeleton
import proofs.«115993_j5600637353990_1_alg».proof.Proof.Gen.Kernel.Points
import proofs.«115993_j5600637353990_1_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) :
    Σ' (L6 : List (View.Piece (Elt F) S1x1 .f32)) (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_main_kernel i arg1 harg1 arg2 harg2 arg3 harg3 arg4 harg4 arg5 harg5 arg6 harg6 arg7 harg7 arg8 harg8 arg9 harg9 arg10 harg10 arg11 harg11) K } := by
  refine ⟨[], ?_, ?_, ?_, ?_, fun xi6 E K => ?run⟩
  case run =>
    simp only [cc1_main_kernel_eq_skeleton]; unfold cc1_main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    iexists _; iexact HS3

end Cert.Kernel.Hand

end
-- ==== Proof.K.R1RunB.lean ====
/-
  The body of the loss accumulation at a middle grid point (neither branch taken): on whole staging memrefs, the inputs' at their
  contents, the accumulators at what the point before left, it runs to the continuation with the inputs' as they were and each
  buffer it stores into with its stores written, as a list of pieces, last first. The pieces are found by running
  the body symbolically.
-/
import proofs.«115993_j5600637353990_1_alg».proof.Proof.Gen.Kernel.Launch
import proofs.«115993_j5600637353990_1_alg».proof.Proof.Gen.Kernel.Skeleton
import proofs.«115993_j5600637353990_1_alg».proof.Proof.Gen.Kernel.Points
import proofs.«115993_j5600637353990_1_alg».proof.Proof.K.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    Σ' (L6 : List (View.Piece (Elt F) S1x1 .f32)) (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_main_kernel i arg1 harg1 arg2 harg2 arg3 harg3 arg4 harg4 arg5 harg5 arg6 harg6 arg7 harg7 arg8 harg8 arg9 harg9 arg10 harg10 arg11 harg11) K } := by
  refine ⟨[], ?_, ?_, ?_, ?_, fun xi6 E K => ?run⟩
  case run =>
    simp only [cc1_main_kernel_eq_skeleton]; unfold cc1_main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    iexists _; iexact HS3

end Cert.Kernel.Hand

end
-- ==== Proof.K.R1RunC.lean ====
/-
  The body of the loss accumulation at the last grid point (the final branch taken, the reset not): on whole staging memrefs, the inputs' at their
  contents, the accumulators at what the point before left, it runs to the continuation with the inputs' as they were and each
  buffer it stores into with its stores written, as a list of pieces, last first. The pieces are found by running
  the body symbolically.
-/
import proofs.«115993_j5600637353990_1_alg».proof.Proof.Gen.Kernel.Launch
import proofs.«115993_j5600637353990_1_alg».proof.Proof.Gen.Kernel.Skeleton
import proofs.«115993_j5600637353990_1_alg».proof.Proof.Gen.Kernel.Points
import proofs.«115993_j5600637353990_1_alg».proof.Proof.K.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    Σ' (L6 : List (View.Piece (Elt F) S1x1 .f32)) (LS0 : List (View.Piece (Elt F) S1x1 .f32)) (LS1 : List (View.Piece (Elt F) S1x1 .f32)) (LS2 : List (View.Piece (Elt F) S1x1 .f32)), { LS3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_main_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1_main_kernel_eq_skeleton]; unfold cc1_main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.Kernel.Hand

end
-- ==== Proof.K.Region1.lean ====
/-
  The loss accumulation region: what each case of the body leaves in the four accumulators and in the output's
  staging buffer, what they hold after each grid point by recursion on the point (the first point resets and adds, a
  middle point adds to what the point before left, the last point adds and stores the output), the invariant that
  carries the accumulators from one point to the next, the proof data the launch takes, and the body obligation.
-/
import proofs.«115993_j5600637353990_1_alg».proof.Proof.Gen.Kernel.Launch
import proofs.«115993_j5600637353990_1_alg».proof.Proof.Gen.Kernel.Skeleton
import proofs.«115993_j5600637353990_1_alg».proof.Proof.Gen.Kernel.Points
import proofs.«115993_j5600637353990_1_alg».proof.Proof.K.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The output's staging buffer after the body in case A: its pieces read back (none: the window is idle there, and nothing consults this). -/
def out1_A_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1)
theorem scover1_A_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x1.size (by sl_kernel_rfl) y
/-- Accumulator 0 after the body in case A: its pieces read back. -/
def sout1_A_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1)
theorem scover1_A_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x1.size (by sl_kernel_rfl) y
/-- Accumulator 1 after the body in case A: its pieces read back. -/
def sout1_A_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
theorem scover1_A_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x1.size (by sl_kernel_rfl) y
/-- Accumulator 2 after the body in case A: its pieces read back. -/
def sout1_A_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VS1_2.read (Elt F) (VS1_2.writes (Elt F) VS1_2.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)
theorem scover1_A_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x1.size (by sl_kernel_rfl) y
/-- Accumulator 3 after the body in case A: its pieces read back. -/
def sout1_A_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VS1_3.read (Elt F) (VS1_3.writes (Elt F) VS1_3.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- The output's staging buffer after the body in case B: its pieces read back (none: the window is idle there, and nothing consults this). -/
def out1_B_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1)
theorem scover1_B_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1 S1x1.size (by sl_kernel_rfl) y
/-- Accumulator 0 after the body in case B: its pieces read back. -/
def sout1_B_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1)
theorem scover1_B_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1 S1x1.size (by sl_kernel_rfl) y
/-- Accumulator 1 after the body in case B: its pieces read back. -/
def sout1_B_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1)
theorem scover1_B_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1 S1x1.size (by sl_kernel_rfl) y
/-- Accumulator 2 after the body in case B: its pieces read back. -/
def sout1_B_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_2.read (Elt F) (VS1_2.writes (Elt F) VS1_2.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1)
theorem scover1_B_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1 S1x1.size (by sl_kernel_rfl) y
/-- Accumulator 3 after the body in case B: its pieces read back. -/
def sout1_B_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_3.read (Elt F) (VS1_3.writes (Elt F) VS1_3.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1)

theorem cover1_C_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1 S1x1.size (by sl_kernel_rfl) y
/-- The output's staging buffer after the body in case C: its pieces read back. -/
def out1_C_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1)
theorem scover1_C_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1 S1x1.size (by sl_kernel_rfl) y
/-- Accumulator 0 after the body in case C: its pieces read back. -/
def sout1_C_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1)
theorem scover1_C_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1 S1x1.size (by sl_kernel_rfl) y
/-- Accumulator 1 after the body in case C: its pieces read back. -/
def sout1_C_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1)
theorem scover1_C_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1 S1x1.size (by sl_kernel_rfl) y
/-- Accumulator 2 after the body in case C: its pieces read back. -/
def sout1_C_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_2.read (Elt F) (VS1_2.writes (Elt F) VS1_2.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1)
theorem scover1_C_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1 S1x1.size (by sl_kernel_rfl) y
/-- Accumulator 3 after the body in case C: its pieces read back. -/
def sout1_C_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_3.read (Elt F) (VS1_3.writes (Elt F) VS1_3.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1)

/-- What the output's staging buffer and the four accumulators hold after the body at position `n`. -/
def outsAt1 (c : Dev nD) : (n : ℕ) → n < cfg1.N → Vec F S1x1 .f32 × Vec F S1x1 .f32 × Vec F S1x1 .f32 × Vec F S1x1 .f32 × Vec F S1x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : (n + 1) % 16 = 15 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2)
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2)

theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (by exfalso; have hN : n + 1 < 16 := lt_of_lt_of_eq hn (show cfg1.N = 16 from N_1); (try dsimp only at h0); omega)

theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2) := by
  obtain ⟨n, hn⟩ := t
  cases n with
  | zero => exact (by exfalso; (try dsimp only at h0); exact absurd (Nat.zero_mod _) h0)
  | succ n => exact (dif_pos h1).trans rfl

/-- The region's invariant before position `n`: before the first point the class's (every accumulator at anything);
    afterwards the scoped rest with each accumulator at what the point before left in it, and the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in;
    the invariant hands the body the accumulators at what the point before left (at anything at the first point) and
    takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 16 = 0
  · have h1 : ¬t.val % 16 = 15 := by omega
    have hz : t.val = 0 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A_0 sout1_A_1 sout1_A_2 sout1_A_3; (try dsimp only)
    rw [PhiS_castSucc V c t, PhiS_zero V c _ _ hz, PhiA1_eq]
    iintro ⟨⟨⟨HR0, HR1, HR2, HR3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HR0 HR1 HR2 HR3 HS0 HS1 HS2 HS3 Hg]
    · isplitr [Hg]
      swap; · iexact Hg
      isplitl [HR0]; · iexact HR0
      isplitl [HR1]; · iexact HR1
      isplitl [HR2]; · iexact HR2
      isplitl [HR3]; · iexact HR3
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ _ _ _ _ _)
      · unfold owns; iexists _; isplitr
        swap; · iexact HS3
        ipureintro; exact View.read_writes_of_cover _ _ _ _ _ (scover1_A_3 c _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    by_cases h1 : t.val % 16 = 15
    ·
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0 sout1_C_1 sout1_C_2 sout1_C_3; (try dsimp only)
      rw [PhiS_castSucc V c t, PhiS_pos V c _ _ hz]
      iintro ⟨⟨⟨HR0, HR1, HR2, HR3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, ⟨%es1, HS1⟩, ⟨%es2, HS2⟩, ⟨%es3, HS3⟩⟩
      isplitl [HR0 HR1 HR2 HR3 HS0 HS1 HS2 HS3 Hg]
      · isplitr [Hg]
        swap; · iexact Hg
        isplitl [HR0]; · iexact HR0
        isplitl [HR1]; · iexact HR1
        isplitl [HR2]; · iexact HR2
        isplitl [HR3]; · iexact HR3
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _ _ _ _)
        · unfold owns; iexists _; isplitr
          swap; · iexact HS3
          ipureintro; exact View.read_writes_of_cover _ _ _ _ _ (scover1_C_3 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _ _ _ _ _ _)
    ·
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0 sout1_B_1 sout1_B_2 sout1_B_3; (try dsimp only)
      rw [PhiS_castSucc V c t, PhiS_pos V c _ _ hz]
      iintro ⟨⟨⟨HR0, HR1, HR2, HR3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HR0 HR1 HR2 HR3 HS0 HS1 HS2 HS3 Hg]
      · isplitr [Hg]
        swap; · iexact Hg
        isplitl [HR0]; · iexact HR0
        isplitl [HR1]; · iexact HR1
        isplitl [HR2]; · iexact HR2
        isplitl [HR3]; · iexact HR3
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _ _ _ _)
        · unfold owns; iexists _; isplitr
          swap; · iexact HS3
          ipureintro; exact View.read_writes_of_cover _ _ _ _ _ (scover1_B_3 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  iintro ⟨⟨HR0, HR1, HR2, HR3, HS0, HS1, HS2, HS3⟩, Hg⟩
  isplitr [Hg]
  swap; · iexact Hg
  isplitl [HR0]; · iexact HR0
  isplitl [HR1]; · iexact HR1
  isplitl [HR2]; · iexact HR2
  isplitl [HR3]; · iexact HR3
  isplitl [HS0]; · iexists _; iexact HS0
  isplitl [HS1]; · iexists _; iexact HS1
  isplitl [HS2]; · iexists _; iexact HS2
  iexists _; iexact HS3

end Region1

end Cert.Kernel.Hand

end
-- ==== Proof.K.Frame.lean ====
/-
  The whole run of the program: its five items in order — a reshape of the input, the group-means region, the host
  operations that prepare the second region's operands, the loss-accumulation region, a reshape of its one-element
  result — with the buffers' contents at each boundary as a fold from the launch memory. Every weakly fair execution
  terminates, and every unscoped buffer ends at the last boundary's contents.
-/
import proofs.«115993_j5600637353990_1_alg».proof.Proof.Gen.Kernel.Launch
import proofs.«115993_j5600637353990_1_alg».proof.Proof.Gen.Kernel.Skeleton
import proofs.«115993_j5600637353990_1_alg».proof.Proof.Gen.Kernel.Points
import proofs.«115993_j5600637353990_1_alg».proof.Proof.Gen.Kernel.Regions
import proofs.«115993_j5600637353990_1_alg».proof.Proof.K.Region0
import proofs.«115993_j5600637353990_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the input's reshape (the first region's entry). -/
abbrev W1 : Dev nD → Valuation τ sig (Elt F) := fun c => StableHlo.after hostOps0 (W0 m ρ c)
abbrev Vb1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (Vb1 m ρ) c).arrAt w cfg0.N
theorem W2_arr (c : Dev nD) (w : Fin cfg0.W) :
    W2 m ρ c (Proc.devRef .tc (Pipeline.arrRef spec0 w)) = (dat0 (Vb1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vb2 : (c : Dev nD) → (b : Ref sig .tc) → Buf (Elt F) ((c : Thread nD τ).loc b) := fun c b => W2 m ρ c b
theorem hF0 (c : Dev nD) (w : Fin cfg0.W) : (dat0 (Vb1 m ρ) c).arrAt w cfg0.N = Vb2 m ρ c (Pipeline.arrRef spec0 w) :=
  (W2_arr m ρ c w).symm
theorem hrest0 (c : Dev nD) : ∀ b, b ∉ Finset.univ.image (Pipeline.arrRef spec0) → Vb2 m ρ c b = Vb1 m ρ c b :=
  fun b hb => W2_of_ne m ρ c b fun w e => hb (Finset.mem_image.mpr ⟨w, Finset.mem_univ _, e⟩)

/-- After the middle host operations (the second region's entry). -/
abbrev W3 : Dev nD → Valuation τ sig (Elt F) := fun c => StableHlo.after hostOps1 (W2 m ρ c)
abbrev Vb3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (Vb3 m ρ) c).arrAt w cfg1.N
theorem W4_arr (c : Dev nD) (w : Fin cfg1.W) :
    W4 m ρ c (Proc.devRef .tc (Pipeline.arrRef spec1 w)) = (dat1 (Vb3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vb4 : (c : Dev nD) → (b : Ref sig .tc) → Buf (Elt F) ((c : Thread nD τ).loc b) := fun c b => W4 m ρ c b
theorem hF1 (c : Dev nD) (w : Fin cfg1.W) : (dat1 (Vb3 m ρ) c).arrAt w cfg1.N = Vb4 m ρ c (Pipeline.arrRef spec1 w) :=
  (W4_arr m ρ c w).symm
theorem hrest1 (c : Dev nD) : ∀ b, b ∉ Finset.univ.image (Pipeline.arrRef spec1) → Vb4 m ρ c b = Vb3 m ρ c b :=
  fun b hb => W4_of_ne m ρ c b fun w e => hb (Finset.mem_image.mpr ⟨w, Finset.mem_univ _, e⟩)
/-- After the result's reshape: the end. -/
abbrev W5 : Dev nD → Valuation τ sig (Elt F) := fun c => StableHlo.after hostOps2 (W4 m ρ c)

/-- No host stretch writes an argument, and no region may change one (a region reads it through an input window or
    bypasses it): the fold at an argument's buffer walks back to the launch memory. -/
theorem W1_of_not_written (c : Dev nD) (b : Ref sig .tc) (hb : b ∉ ([main_v0] : List (Ref sig .tc))) :
    W1 m ρ c (Proc.devRef .tc b) = W0 m ρ c (Proc.devRef .tc b) :=
  StableHlo.after_of_writes_sub hostOps0 _ hostOps0_writes hb
theorem W3_of_not_written (c : Dev nD) (b : Ref sig .tc) (hb : b ∉ hostOps1_W) :
    W3 m ρ c (Proc.devRef .tc b) = W2 m ρ c (Proc.devRef .tc b) :=
  StableHlo.after_of_writes_sub hostOps1 _ hostOps1_writes hb
theorem W5_of_not_written (c : Dev nD) (b : Ref sig .tc) (hb : b ∉ ([main_v18] : List (Ref sig .tc))) :
    W5 m ρ c (Proc.devRef .tc b) = W4 m ρ c (Proc.devRef .tc b) :=
  StableHlo.after_of_writes_sub hostOps2 _ hostOps2_writes hb

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_not_written m ρ c main_arg0 (by decide)
    _ = W3 m ρ c (Proc.devRef .tc main_arg0) := (W4_arr m ρ c 0).trans (((dat1 (Vb3 m ρ) c).arrAt_in 0 rfl _).trans (A_eq1 (Vb3 m ρ) c 0))
    _ = W2 m ρ c (Proc.devRef .tc main_arg0) := W3_of_not_written m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_not_written m ρ c main_arg1 (by decide)
    _ = W3 m ρ c (Proc.devRef .tc main_arg1) := W4_of_ne m ρ c main_arg1 (by decide)
    _ = W2 m ρ c (Proc.devRef .tc main_arg1) := W3_of_not_written m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the thread state: entered from every unscoped buffer at the contents before it, left at the
    contents after it; its arrays split out of the unscoped buffers and put back; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m ρ 1 c).Φ (Fin.last _) ⊢ Pipeline.ΦA spec1 c := hout1 (Vb3 m ρ) c
    refine entails_trans h1 ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev segsAll : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segsAll m ρ) := (main_chain c).trans (by chain_rfl)

set_option backward.isDefEq.respectTransparency.types false in
/-- THE RUN: from any memory with zero counters every weakly fair execution of the program on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

end Cert.Kernel.Hand

end
-- ==== Proof.KI.Region0.lean ====
/-
  The first kernel region, the group means: at grid point `t` the body reads the block of 64 groups × 16 rows × 4096
  features of the regrouped input and stores, into the block of 64 centers × 4096 features, the sum over the 16 rows
  divided by sixteen. Stated at a parameter `V`, the buffers' contents when the region is entered: the block of each
  window at a point, what the body leaves in the output's staging buffer as a function of the input block, the
  body's triple, and the proof data the pipeline's launch takes.
-/
import proofs.«115993_j5600637353990_1_alg».proof.Proof.Gen.KernelIdeal.Launch
import proofs.«115993_j5600637353990_1_alg».proof.Proof.Gen.KernelIdeal.Skeleton
import proofs.«115993_j5600637353990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block of the input and of the output. -/
abbrev r0_in : Rect S64x16x4096 := Rect.unit (s := S64x16x4096) ![0, 0, 0] S64x16x4096.size inb_S64x16x4096_S64x16x4096_0_0_0
abbrev r0_out : Rect S64x4096 := Rect.unit (s := S64x4096) ![0, 0] S64x4096.size inb_S64x4096_S64x4096_0_0

/-- What the body leaves in the output's staging buffer: its one store, of the means of the input block. -/
def out0_1 (x0 : Vec F S64x16x4096 .f32) : Vec F S64x4096 .f32 :=
  View.canon [⟨r0_out, k0_pay1 (View.ld x0 r0_in)⟩]

/-- The one store covers the buffer. -/
theorem cover0_1 (p0 : Vec F S64x4096 .f32) (y : S64x4096.Idx) :
    ∃ pc ∈ ([⟨r0_out, p0⟩] : List (View.Piece (Elt F) S64x4096 .f32)), y ∈ pc.1.set :=
  View.cover_of_tiled [⟨r0_out, p0⟩] S64x4096.size (by rfl) y

set_option maxHeartbeats 1000000 in
/-- The body on whole staging memrefs, the input's at contents `x0` and the output's at anything, runs to the
    continuation with the input's as it was and the output's at `out0_1 x0`. -/
theorem sound_kernel0 (c : Dev nD) (i : grid0.Coords) (E : Set ℕ) (arg1 : Memref sig .tc .vmem S64x16x4096 .f32) (harg1 : arg1.IsWhole) (arg2 : Memref sig .tc .vmem S64x4096 .f32) (harg2 : arg2.IsWhole)
    (x0 : Vec F S64x16x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__center_kernel i arg1 harg1 arg2 harg2) K := by
  simp only [cc0__center_kernel_eq_skeleton]; unfold cc0__center_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the pipeline on core `c`: the arrays as the region finds them; after the body at point `t`
    the input's buffer at its block and the output's at the means of the input block; the class's invariant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c _ Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Defs.lean ====
/-
  The second kernel region, the loss accumulation over 16 blocks of 512 rows: what its runs share. The body resets
  four one-element accumulators at the first grid point, adds the block's four partial totals into them at every
  point, and at the last point stores the two quotients' sum into the one-element output. Stated at a parameter `V`,
  the buffers' contents when the region is entered: each window's block at a point; the two branch conditions of the
  body in closed form over the grid; where the output window is idle; the staging and scratch memrefs by name.
-/
import proofs.«115993_j5600637353990_1_alg».proof.Proof.Gen.KernelIdeal.Launch
import proofs.«115993_j5600637353990_1_alg».proof.Proof.Gen.KernelIdeal.Skeleton
import proofs.«115993_j5600637353990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's first branch (the reset): taken when the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The body's second branch (the final quotients): taken at the last grid coordinate. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, except at the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- One staging buffer of the output window, through which its contents are stated. -/
abbrev VO1_6 : View sig .tc .vmem S1x1 .f32 := (Memref.whole cc1_stg6_0 : Memref sig .tc .vmem S1x1 .f32).view
/-- Each window's current staging memref at point `t`, and its wholeness. -/
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
/-- The four accumulators: whole scoped buffers of the kernel's own. -/
abbrev scM1_0 : Memref sig .tc .vmem S1x1 .f32 := Memref.whole cc1_scratch0
abbrev VS1_0 : View sig .tc .vmem S1x1 .f32 := scM1_0.view
abbrev scM1_1 : Memref sig .tc .vmem S1x1 .f32 := Memref.whole cc1_scratch1
abbrev VS1_1 : View sig .tc .vmem S1x1 .f32 := scM1_1.view
abbrev scM1_2 : Memref sig .tc .vmem S1x1 .f32 := Memref.whole cc1_scratch2
abbrev VS1_2 : View sig .tc .vmem S1x1 .f32 := scM1_2.view
abbrev scM1_3 : Memref sig .tc .vmem S1x1 .f32 := Memref.whole cc1_scratch3
abbrev VS1_3 : View sig .tc .vmem S1x1 .f32 := scM1_3.view

/-- The class's invariant with the four accumulators owned at some contents, beside the scoped rest's other
    buffers and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Region1

end Cert.KernelIdeal.Hand

end
-- ==== Proof.KI.R1RunA.lean ====
/-
  The body of the loss accumulation at the first grid point (the reset branch taken, the final branch not): on whole staging memrefs, the inputs' at their
  contents, the accumulators at anything, it runs to the continuation with the inputs' as they were and each
  buffer it stores into with its stores written, as a list of pieces, last first. The pieces are found by running
  the body symbolically.
-/
import proofs.«115993_j5600637353990_1_alg».proof.Proof.Gen.KernelIdeal.Launch
import proofs.«115993_j5600637353990_1_alg».proof.Proof.Gen.KernelIdeal.Skeleton
import proofs.«115993_j5600637353990_1_alg».proof.Proof.Gen.KernelIdeal.Points
import proofs.«115993_j5600637353990_1_alg».proof.Proof.KI.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) :
    Σ' (L6 : List (View.Piece (Elt F) S1x1 .f32)) (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_main_kernel i arg1 harg1 arg2 harg2 arg3 harg3 arg4 harg4 arg5 harg5 arg6 harg6 arg7 harg7 arg8 harg8 arg9 harg9 arg10 harg10 arg11 harg11) K } := by
  refine ⟨[], ?_, ?_, ?_, ?_, fun xi6 E K => ?run⟩
  case run =>
    simp only [cc1_main_kernel_eq_skeleton]; unfold cc1_main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.KI.R1RunB.lean ====
/-
  The body of the loss accumulation at a middle grid point (neither branch taken): on whole staging memrefs, the inputs' at their
  contents, the accumulators at what the point before left, it runs to the continuation with the inputs' as they were and each
  buffer it stores into with its stores written, as a list of pieces, last first. The pieces are found by running
  the body symbolically.
-/
import proofs.«115993_j5600637353990_1_alg».proof.Proof.Gen.KernelIdeal.Launch
import proofs.«115993_j5600637353990_1_alg».proof.Proof.Gen.KernelIdeal.Skeleton
import proofs.«115993_j5600637353990_1_alg».proof.Proof.Gen.KernelIdeal.Points
import proofs.«115993_j5600637353990_1_alg».proof.Proof.KI.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    Σ' (L6 : List (View.Piece (Elt F) S1x1 .f32)) (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_main_kernel i arg1 harg1 arg2 harg2 arg3 harg3 arg4 harg4 arg5 harg5 arg6 harg6 arg7 harg7 arg8 harg8 arg9 harg9 arg10 harg10 arg11 harg11) K } := by
  refine ⟨[], ?_, ?_, ?_, ?_, fun xi6 E K => ?run⟩
  case run =>
    simp only [cc1_main_kernel_eq_skeleton]; unfold cc1_main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.KI.R1RunC.lean ====
/-
  The body of the loss accumulation at the last grid point (the final branch taken, the reset not): on whole staging memrefs, the inputs' at their
  contents, the accumulators at what the point before left, it runs to the continuation with the inputs' as they were and each
  buffer it stores into with its stores written, as a list of pieces, last first. The pieces are found by running
  the body symbolically.
-/
import proofs.«115993_j5600637353990_1_alg».proof.Proof.Gen.KernelIdeal.Launch
import proofs.«115993_j5600637353990_1_alg».proof.Proof.Gen.KernelIdeal.Skeleton
import proofs.«115993_j5600637353990_1_alg».proof.Proof.Gen.KernelIdeal.Points
import proofs.«115993_j5600637353990_1_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    Σ' (L6 : List (View.Piece (Elt F) S1x1 .f32)) (LS0 : List (View.Piece (Elt F) S1x1 .f32)) (LS1 : List (View.Piece (Elt F) S1x1 .f32)) (LS2 : List (View.Piece (Elt F) S1x1 .f32)), { LS3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1_main_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1_main_kernel_eq_skeleton]; unfold cc1_main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Hand

end
-- ==== Proof.KI.Region1.lean ====
/-
  The loss accumulation region: what each case of the body leaves in the four accumulators and in the output's
  staging buffer, what they hold after each grid point by recursion on the point (the first point resets and adds, a
  middle point adds to what the point before left, the last point adds and stores the output), the invariant that
  carries the accumulators from one point to the next, the proof data the launch takes, and the body obligation.
-/
import proofs.«115993_j5600637353990_1_alg».proof.Proof.Gen.KernelIdeal.Launch
import proofs.«115993_j5600637353990_1_alg».proof.Proof.Gen.KernelIdeal.Skeleton
import proofs.«115993_j5600637353990_1_alg».proof.Proof.Gen.KernelIdeal.Points
import proofs.«115993_j5600637353990_1_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The output's staging buffer after the body in case A: its pieces read back (none: the window is idle there, and nothing consults this). -/
def out1_A_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1)
theorem scover1_A_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x1.size (by sl_kernel_rfl) y
/-- Accumulator 0 after the body in case A: its pieces read back. -/
def sout1_A_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1)
theorem scover1_A_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x1.size (by sl_kernel_rfl) y
/-- Accumulator 1 after the body in case A: its pieces read back. -/
def sout1_A_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
theorem scover1_A_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x1.size (by sl_kernel_rfl) y
/-- Accumulator 2 after the body in case A: its pieces read back. -/
def sout1_A_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VS1_2.read (Elt F) (VS1_2.writes (Elt F) VS1_2.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)
theorem scover1_A_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x1.size (by sl_kernel_rfl) y
/-- Accumulator 3 after the body in case A: its pieces read back. -/
def sout1_A_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) : Vec F S1x1 .f32 :=
  VS1_3.read (Elt F) (VS1_3.writes (Elt F) VS1_3.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- The output's staging buffer after the body in case B: its pieces read back (none: the window is idle there, and nothing consults this). -/
def out1_B_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1)
theorem scover1_B_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1 S1x1.size (by sl_kernel_rfl) y
/-- Accumulator 0 after the body in case B: its pieces read back. -/
def sout1_B_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1)
theorem scover1_B_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1 S1x1.size (by sl_kernel_rfl) y
/-- Accumulator 1 after the body in case B: its pieces read back. -/
def sout1_B_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1)
theorem scover1_B_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1 S1x1.size (by sl_kernel_rfl) y
/-- Accumulator 2 after the body in case B: its pieces read back. -/
def sout1_B_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_2.read (Elt F) (VS1_2.writes (Elt F) VS1_2.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1)
theorem scover1_B_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1 S1x1.size (by sl_kernel_rfl) y
/-- Accumulator 3 after the body in case B: its pieces read back. -/
def sout1_B_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_3.read (Elt F) (VS1_3.writes (Elt F) VS1_3.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1)

theorem cover1_C_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1 S1x1.size (by sl_kernel_rfl) y
/-- The output's staging buffer after the body in case C: its pieces read back. -/
def out1_C_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1)
theorem scover1_C_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1 S1x1.size (by sl_kernel_rfl) y
/-- Accumulator 0 after the body in case C: its pieces read back. -/
def sout1_C_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1)
theorem scover1_C_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1 S1x1.size (by sl_kernel_rfl) y
/-- Accumulator 1 after the body in case C: its pieces read back. -/
def sout1_C_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1)
theorem scover1_C_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1 S1x1.size (by sl_kernel_rfl) y
/-- Accumulator 2 after the body in case C: its pieces read back. -/
def sout1_C_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_2.read (Elt F) (VS1_2.writes (Elt F) VS1_2.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1)
theorem scover1_C_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1 S1x1.size (by sl_kernel_rfl) y
/-- Accumulator 3 after the body in case C: its pieces read back. -/
def sout1_C_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i)
    (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) : Vec F S1x1 .f32 :=
  VS1_3.read (Elt F) (VS1_3.writes (Elt F) VS1_3.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1)

/-- What the output's staging buffer and the four accumulators hold after the body at position `n`. -/
def outsAt1 (c : Dev nD) : (n : ℕ) → n < cfg1.N → Vec F S1x1 .f32 × Vec F S1x1 .f32 × Vec F S1x1 .f32 × Vec F S1x1 .f32 × Vec F S1x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : (n + 1) % 16 = 15 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2)
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2, sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => (fun h => by have hN : n + 1 < 16 := lt_of_lt_of_eq hn (show cfg1.N = 16 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) ((outsAt1 c n (Nat.lt_of_succ_lt hn))).2.1 ((outsAt1 c n (Nat.lt_of_succ_lt hn))).2.2.1 ((outsAt1 c n (Nat.lt_of_succ_lt hn))).2.2.2.1 ((outsAt1 c n (Nat.lt_of_succ_lt hn))).2.2.2.2)

theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (by exfalso; have hN : n + 1 < 16 := lt_of_lt_of_eq hn (show cfg1.N = 16 from N_1); (try dsimp only at h0); omega)

theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2, sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) ((outsAt1 V c (t.val - 1) (Nat.lt_of_le_of_lt (Nat.sub_le _ _) t.isLt))).2.1 ((outsAt1 V c (t.val - 1) (Nat.lt_of_le_of_lt (Nat.sub_le _ _) t.isLt))).2.2.1 ((outsAt1 V c (t.val - 1) (Nat.lt_of_le_of_lt (Nat.sub_le _ _) t.isLt))).2.2.2.1 ((outsAt1 V c (t.val - 1) (Nat.lt_of_le_of_lt (Nat.sub_le _ _) t.isLt))).2.2.2.2) := by
  obtain ⟨n, hn⟩ := t
  cases n with
  | zero => exact (by exfalso; (try dsimp only at h0); exact absurd (Nat.zero_mod _) h0)
  | succ n => exact (dif_pos h1).trans rfl

/-- The region's invariant before position `n`: before the first point the class's (every accumulator at anything);
    afterwards the scoped rest with each accumulator at what the point before left in it, and the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in;
    the invariant hands the body the accumulators at what the point before left (at anything at the first point) and
    takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 16 = 0
  · have h1 : ¬t.val % 16 = 15 := by omega
    have hz : t.val = 0 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A_0 sout1_A_1 sout1_A_2 sout1_A_3; (try dsimp only)
    rw [PhiS_castSucc V c t, PhiS_zero V c _ _ hz, PhiA1_eq]
    iintro ⟨⟨⟨HR0, HR1, HR2, HR3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HR0 HR1 HR2 HR3 HS0 HS1 HS2 HS3 Hg]
    · isplitr [Hg]
      swap; · iexact Hg
      isplitl [HR0]; · iexact HR0
      isplitl [HR1]; · iexact HR1
      isplitl [HR2]; · iexact HR2
      isplitl [HR3]; · iexact HR3
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ _ _ _ _ _)
      · unfold owns; iexists _; isplitr
        swap; · iexact HS3
        ipureintro; exact View.read_writes_of_cover _ _ _ _ _ (scover1_A_3 c _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    by_cases h1 : t.val % 16 = 15
    ·
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0 sout1_C_1 sout1_C_2 sout1_C_3; (try dsimp only)
      rw [PhiS_castSucc V c t, PhiS_pos V c _ _ hz]
      iintro ⟨⟨⟨HR0, HR1, HR2, HR3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, ⟨%es1, HS1⟩, ⟨%es2, HS2⟩, ⟨%es3, HS3⟩⟩
      isplitl [HR0 HR1 HR2 HR3 HS0 HS1 HS2 HS3 Hg]
      · isplitr [Hg]
        swap; · iexact Hg
        isplitl [HR0]; · iexact HR0
        isplitl [HR1]; · iexact HR1
        isplitl [HR2]; · iexact HR2
        isplitl [HR3]; · iexact HR3
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _ _ _ _)
        · unfold owns; iexists _; isplitr
          swap; · iexact HS3
          ipureintro; exact View.read_writes_of_cover _ _ _ _ _ (scover1_C_3 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _ _ _ _ _ _)
    ·
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0 sout1_B_1 sout1_B_2 sout1_B_3; (try dsimp only)
      rw [PhiS_castSucc V c t, PhiS_pos V c _ _ hz]
      iintro ⟨⟨⟨HR0, HR1, HR2, HR3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HR0 HR1 HR2 HR3 HS0 HS1 HS2 HS3 Hg]
      · isplitr [Hg]
        swap; · iexact Hg
        isplitl [HR0]; · iexact HR0
        isplitl [HR1]; · iexact HR1
        isplitl [HR2]; · iexact HR2
        isplitl [HR3]; · iexact HR3
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _ _ _ _)
        · unfold owns; iexists _; isplitr
          swap; · iexact HS3
          ipureintro; exact View.read_writes_of_cover _ _ _ _ _ (scover1_B_3 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  iintro ⟨⟨HR0, HR1, HR2, HR3, HS0, HS1, HS2, HS3⟩, Hg⟩
  isplitr [Hg]
  swap; · iexact Hg
  isplitl [HR0]; · iexact HR0
  isplitl [HR1]; · iexact HR1
  isplitl [HR2]; · iexact HR2
  isplitl [HR3]; · iexact HR3
  isplitl [HS0]; · iexists _; iexact HS0
  isplitl [HS1]; · iexists _; iexact HS1
  isplitl [HS2]; · iexists _; iexact HS2
  iexists _; iexact HS3

end Region1

end Cert.KernelIdeal.Hand

end
-- ==== Proof.KI.Frame.lean ====
/-
  The whole run of the program: its five items in order — a reshape of the input, the group-means region, the host
  operations that prepare the second region's operands, the loss-accumulation region, a reshape of its one-element
  result — with the buffers' contents at each boundary as a fold from the launch memory. Every weakly fair execution
  terminates, and every unscoped buffer ends at the last boundary's contents.
-/
import proofs.«115993_j5600637353990_1_alg».proof.Proof.Gen.KernelIdeal.Launch
import proofs.«115993_j5600637353990_1_alg».proof.Proof.Gen.KernelIdeal.Skeleton
import proofs.«115993_j5600637353990_1_alg».proof.Proof.Gen.KernelIdeal.Points
import proofs.«115993_j5600637353990_1_alg».proof.Proof.Gen.KernelIdeal.Regions
import proofs.«115993_j5600637353990_1_alg».proof.Proof.KI.Region0
import proofs.«115993_j5600637353990_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the input's reshape (the first region's entry). -/
abbrev W1 : Dev nD → Valuation τ sig (Elt F) := fun c => StableHlo.after hostOps0 (W0 m ρ c)
abbrev Vb1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (Vb1 m ρ) c).arrAt w cfg0.N
theorem W2_arr (c : Dev nD) (w : Fin cfg0.W) :
    W2 m ρ c (Proc.devRef .tc (Pipeline.arrRef spec0 w)) = (dat0 (Vb1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vb2 : (c : Dev nD) → (b : Ref sig .tc) → Buf (Elt F) ((c : Thread nD τ).loc b) := fun c b => W2 m ρ c b
theorem hF0 (c : Dev nD) (w : Fin cfg0.W) : (dat0 (Vb1 m ρ) c).arrAt w cfg0.N = Vb2 m ρ c (Pipeline.arrRef spec0 w) :=
  (W2_arr m ρ c w).symm
theorem hrest0 (c : Dev nD) : ∀ b, b ∉ Finset.univ.image (Pipeline.arrRef spec0) → Vb2 m ρ c b = Vb1 m ρ c b :=
  fun b hb => W2_of_ne m ρ c b fun w e => hb (Finset.mem_image.mpr ⟨w, Finset.mem_univ _, e⟩)

/-- After the middle host operations (the second region's entry). -/
abbrev W3 : Dev nD → Valuation τ sig (Elt F) := fun c => StableHlo.after hostOps1 (W2 m ρ c)
abbrev Vb3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (Vb3 m ρ) c).arrAt w cfg1.N
theorem W4_arr (c : Dev nD) (w : Fin cfg1.W) :
    W4 m ρ c (Proc.devRef .tc (Pipeline.arrRef spec1 w)) = (dat1 (Vb3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vb4 : (c : Dev nD) → (b : Ref sig .tc) → Buf (Elt F) ((c : Thread nD τ).loc b) := fun c b => W4 m ρ c b
theorem hF1 (c : Dev nD) (w : Fin cfg1.W) : (dat1 (Vb3 m ρ) c).arrAt w cfg1.N = Vb4 m ρ c (Pipeline.arrRef spec1 w) :=
  (W4_arr m ρ c w).symm
theorem hrest1 (c : Dev nD) : ∀ b, b ∉ Finset.univ.image (Pipeline.arrRef spec1) → Vb4 m ρ c b = Vb3 m ρ c b :=
  fun b hb => W4_of_ne m ρ c b fun w e => hb (Finset.mem_image.mpr ⟨w, Finset.mem_univ _, e⟩)
/-- After the result's reshape: the end. -/
abbrev W5 : Dev nD → Valuation τ sig (Elt F) := fun c => StableHlo.after hostOps2 (W4 m ρ c)

/-- No host stretch writes an argument, and no region may change one (a region reads it through an input window or
    bypasses it): the fold at an argument's buffer walks back to the launch memory. -/
theorem W1_of_not_written (c : Dev nD) (b : Ref sig .tc) (hb : b ∉ ([main_v0] : List (Ref sig .tc))) :
    W1 m ρ c (Proc.devRef .tc b) = W0 m ρ c (Proc.devRef .tc b) :=
  StableHlo.after_of_writes_sub hostOps0 _ hostOps0_writes hb
theorem W3_of_not_written (c : Dev nD) (b : Ref sig .tc) (hb : b ∉ hostOps1_W) :
    W3 m ρ c (Proc.devRef .tc b) = W2 m ρ c (Proc.devRef .tc b) :=
  StableHlo.after_of_writes_sub hostOps1 _ hostOps1_writes hb
theorem W5_of_not_written (c : Dev nD) (b : Ref sig .tc) (hb : b ∉ ([main_v18] : List (Ref sig .tc))) :
    W5 m ρ c (Proc.devRef .tc b) = W4 m ρ c (Proc.devRef .tc b) :=
  StableHlo.after_of_writes_sub hostOps2 _ hostOps2_writes hb

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_not_written m ρ c main_arg0 (by decide)
    _ = W3 m ρ c (Proc.devRef .tc main_arg0) := (W4_arr m ρ c 0).trans (((dat1 (Vb3 m ρ) c).arrAt_in 0 rfl _).trans (A_eq1 (Vb3 m ρ) c 0))
    _ = W2 m ρ c (Proc.devRef .tc main_arg0) := W3_of_not_written m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_not_written m ρ c main_arg1 (by decide)
    _ = W3 m ρ c (Proc.devRef .tc main_arg1) := W4_of_ne m ρ c main_arg1 (by decide)
    _ = W2 m ρ c (Proc.devRef .tc main_arg1) := W3_of_not_written m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the thread state: entered from every unscoped buffer at the contents before it, left at the
    contents after it; its arrays split out of the unscoped buffers and put back; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m ρ 1 c).Φ (Fin.last _) ⊢ Pipeline.ΦA spec1 c := hout1 (Vb3 m ρ) c
    refine entails_trans h1 ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev segsAll : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segsAll m ρ) := (main_chain c).trans (by chain_rfl)

set_option backward.isDefEq.respectTransparency.types false in
/-- THE RUN: from any memory with zero counters every weakly fair execution of the program on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

end Cert.KernelIdeal.Hand

end
-- ==== Proof.Spec.lean ====
/-
  The loss as one function of the two argument arrays, on the extended reals.

  Rows are indexed by `Fin 8192`, features by `Fin 4096`, centers by `Fin 512`. Center `g` is the mean of the
  sixteen consecutive rows `16·g … 16·g + 15`; its identity is the identity of row `16·g`. The squared distance of
  row `r` to center `g` is `(‖x r‖² + ‖cen g‖²) − 2·⟨x r, cen g⟩`, floored at `ε` before the root. A pair `(r, g)`
  is a MATCH when the identities agree; it is SELECTED when it is a match and lies across the two halves (row in
  the first half of the rows exactly when the center is in the second half of the centers). The loss is the mean
  distance over the selected pairs plus the mean hinge `max (margin − dist) 0` over the pairs that are no match —
  each mean a quotient of a sum by a count, the count itself a sum of ones.
-/
import Idealize.ShloMosaic.PureOps.Ideal
import Idealize.ShloMosaic.Lib.ValueIdx

noncomputable section

namespace Cert.Spec

open Idealize.ShloMosaic

/-- Row `16·g + j`: the `j`-th row of the group that center `g` averages. -/
def rowOf (g : Fin 512) (j : Fin 16) : Fin 8192 := ⟨16 * g.val + j.val, by omega⟩

/-- Row `512·t + i`: the `i`-th row of the `t`-th block of 512 consecutive rows. -/
def tileRow (t : Fin 16) (i : Fin 512) : Fin 8192 := ⟨512 * t.val + i.val, by omega⟩

/-- Center `64·b + a`: the `a`-th center of the `b`-th block of 64 consecutive centers. -/
def cenOf (b : Fin 8) (a : Fin 64) : Fin 512 := ⟨64 * b.val + a.val, by omega⟩

/-- The literals, as the extended reals their f32 words denote. -/
def sixteen : EReal := Ideal.ofBits .f32 0x41800000#32
def two : EReal := Ideal.ofBits .f32 0x40000000#32
def eps : EReal := Ideal.ofBits .f32 0x2B8CBCCC#32
def margin : EReal := Ideal.ofBits .f32 0x3F19999A#32

variable (x : Fin 8192 → Fin 4096 → EReal) (pid : Fin 8192 → BitVec 32)

/-- Center `g`, feature `k`: the sum of the group's sixteen rows, divided by sixteen. -/
def cen (g : Fin 512) (k : Fin 4096) : EReal := Ideal.div (∑ j : Fin 16, x (rowOf g j) k) sixteen

/-- `‖x r‖²`. -/
def normX (r : Fin 8192) : EReal := ∑ k : Fin 4096, x r k * x r k
/-- `‖cen g‖²`. -/
def normC (g : Fin 512) : EReal := ∑ k : Fin 4096, cen x g k * cen x g k
/-- `⟨x r, cen g⟩`. -/
def inner (r : Fin 8192) (g : Fin 512) : EReal := ∑ k : Fin 4096, x r k * cen x g k

/-- The distance of row `r` to center `g`, from given norms and inner product (the shape both programs compute). -/
def distOf (nx nc ip : EReal) : EReal := Ideal.sqrt (max ((nx + nc) - two * ip) eps)

/-- The distance of row `r` to center `g`. -/
def dist (r : Fin 8192) (g : Fin 512) : EReal := distOf (normX x r) (normC x g) (inner x r g)

/-- The hinge of a distance. -/
def hingeOf (d : EReal) : EReal := max (margin - d) 0

/-- Row `r` and center `g` carry the same identity (the center's is that of its group's first row). -/
def isMatch (r : Fin 8192) (g : Fin 512) : Prop := pid r = pid (rowOf g 0)

instance (r : Fin 8192) (g : Fin 512) : Decidable (isMatch pid r g) := by unfold isMatch; infer_instance

/-- A match across the halves: the row in the first half of the rows iff the center in the second half of the centers. -/
def isSel (r : Fin 8192) (g : Fin 512) : Prop := isMatch pid r g ∧ (r.val < 4096 ↔ 256 ≤ g.val)

instance (r : Fin 8192) (g : Fin 512) : Decidable (isSel pid r g) := by unfold isSel; infer_instance

/-- The four totals over all pairs. -/
def selSum : EReal := ∑ r : Fin 8192, ∑ g : Fin 512, if isSel pid r g then dist x r g else 0
def selCnt : EReal := ∑ r : Fin 8192, ∑ g : Fin 512, if isSel pid r g then (1 : EReal) else 0
def negSum : EReal := ∑ r : Fin 8192, ∑ g : Fin 512, if isMatch pid r g then 0 else hingeOf (dist x r g)
def negCnt : EReal := ∑ r : Fin 8192, ∑ g : Fin 512, if isMatch pid r g then (0 : EReal) else 1

/-- The loss. -/
def loss : EReal := Ideal.div (selSum x pid) (selCnt pid) + Ideal.div (negSum x pid) (negCnt pid)

/-- A sum over all 8192 rows, block of 512 rows by block. -/
theorem sum_rows_tiles (f : Fin 8192 → EReal) : ∑ r : Fin 8192, f r = ∑ t : Fin 16, ∑ i : Fin 512, f (tileRow t i) := by
  let e : Fin 16 × Fin 512 ≃ Fin 8192 :=
    { toFun := fun p => tileRow p.1 p.2
      invFun := fun r => (⟨r.val / 512, by omega⟩, ⟨r.val % 512, by omega⟩)
      left_inv := fun p => by
        obtain ⟨⟨t, ht⟩, ⟨i, hi⟩⟩ := p
        simp only [tileRow, Prod.mk.injEq, Fin.mk.injEq]
        constructor <;> omega
      right_inv := fun r => by
        obtain ⟨r, hr⟩ := r
        simp only [tileRow, Fin.mk.injEq]; omega }
  rw [← Finset.sum_product']
  exact (Fintype.sum_equiv e (fun p => f (tileRow p.1 p.2)) f (fun _ => rfl)).symm

end Cert.Spec

end
-- ==== Proof.KI.HostMid.lean ====
/-
  The kernel program's host stretches read at an index, from an arbitrary valuation of the buffers: the reshape of the
  rows into groups of sixteen; the centers' narrowed copy, the row of their squared norms, the row of the centers'
  identities, the column of the rows' identities and the column of first-half indicators; the final [1,1] result read
  as a scalar.
-/
import proofs.«115993_j5600637353990_1_alg».proof.Proof.Gen.KernelIdeal.Launch
import proofs.«115993_j5600637353990_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostValue

open Cert.KernelIdeal Cert.KernelIdeal.Gen Idealize.ShloMosaic Idealize.ShloMosaic.ValueIdx Idealize.ShloMosaic.StableHlo

/-! ### Words, and one row sum -/

/-- A number below 2³¹ reads back from its 32-bit word, signed. -/
theorem toInt_ofNat_small (n : Nat) (hn : n < 2 ^ 31) : (BitVec.ofNat 32 n).toInt = (n : Int) := by
  have hN : (BitVec.ofNat 32 n).toNat = n := by rw [BitVec.toNat_ofNat]; omega
  rw [BitVec.toInt_eq_toNat_of_lt (by rw [hN]; omega), hN]

/-- "Row index below 4096", as the signed comparison of the index's word with the literal. -/
theorem slt_4096 (n : Nat) (hn : n < 8192) : IntOp.cmpi .slt (BitVec.ofNat 32 n) 4096#32 = 1#1 ↔ n < 4096 := by
  rw [IntOp.cmpi_slt, toInt_ofNat_small n (by omega), show (4096#32 : BitVec 32).toInt = 4096 from by decide]
  omega

/-- The host's sum over the second axis of a [512,4096] array, from the zero word, at row `g`. -/
theorem rowSum_apply (y : S512x4096.Idx → EReal) (g : Fin 512) :
    Host.reduceAdd (F := Ideal) (φ := .f32) y (constant (F := Ideal) S_ .f32 0x00000000#32) reducesTo_S512x4096_S512_d1 h_S_ (ix1 g)
      = ∑ k : Fin 4096, y (ix2 g k) := by
  simp only [Host.reduceAdd, Ideal.hostReduceAdd_def]
  rw [Ideal.hostReduceAdd_single reducesTo_S512x4096_S512_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-! ### The first stretch: the reshape of the rows into groups of sixteen -/

/-- Element (g, j, k) of the reshaped argument is element (16·g + j, k) of the argument. -/
theorem host0_v0 (W : Valuation τ sig (Elt Ideal)) (g : Fin 512) (j : Fin 16) (k : Fin 4096) :
    (StableHlo.after (hostOps0 (F := Ideal)) W (Proc.devRef .tc main_v0) : S512x16x4096.Idx → EReal) (ix3 g j k)
      = (W (Proc.devRef .tc main_arg0) : S8192x4096.Idx → EReal) (ix2 (Cert.Spec.rowOf g j) k) := by
  have e : (StableHlo.after (hostOps0 (F := Ideal)) W (Proc.devRef .tc main_v0) : S512x16x4096.Idx → EReal)
      = shapeCast _ (W (Proc.devRef .tc main_arg0) : S8192x4096.Idx → EReal) shapeCasts_S8192x4096_S512x16x4096 := by
    dsimp only [hostOps0]; after_results; rfl
  rw [e]
  exact shapeCast_apply _ shapeCasts_S8192x4096_S512x16x4096 (ix3 g j k) (ix2 (Cert.Spec.rowOf g j) k)
    (by rw [Shape.rowMajor_val_two, Shape.rowMajor_val_three]
        show (16 * g.val + j.val) * 4096 + k.val = (g.val * 16 + j.val) * 4096 + k.val
        omega)

/-! ### The middle stretch -/

/-- The narrowed copy of the centers holds the centers: a format change is the identity on extended reals. -/
theorem host1_v2 (W : Valuation τ sig (Elt Ideal)) (g : Fin 512) (k : Fin 4096) :
    (StableHlo.after (hostOps1 (F := Ideal)) W (Proc.devRef .tc main_v2) : S512x4096.Idx → EReal) (ix2 g k)
      = (W (Proc.devRef .tc main_v1) : S512x4096.Idx → EReal) (ix2 g k) := by
  have e : (StableHlo.after (hostOps1 (F := Ideal)) W (Proc.devRef .tc main_v2) : S512x4096.Idx → EReal)
      = truncf (F := Ideal) .bf16 (W (Proc.devRef .tc main_v1) : S512x4096.Idx → EReal) bitsLt_bf16_f32 := by
    dsimp only [hostOps1]; after_results
  rw [e]
  rfl

/-- The row of the centers' squared norms (`y` names the centers' buffer at its literal type: pass `_ rfl`). -/
theorem host1_v6 (W : Valuation τ sig (Elt Ideal)) (y : S512x4096.Idx → EReal) (hy : W (Proc.devRef .tc main_v1) = y)
    (g : Fin 512) :
    @Eq EReal ((StableHlo.after (hostOps1 (F := Ideal)) W (Proc.devRef .tc main_v6) : S1x512.Idx → EReal) (ix2 0 g))
      (∑ k : Fin 4096, y (ix2 g k) * y (ix2 g k)) := by
  subst hy
  have e : (StableHlo.after (hostOps1 (F := Ideal)) W (Proc.devRef .tc main_v6) : S1x512.Idx → EReal)
      = shapeCast _ (broadcastInDim S512x1 ![0] bcast_S512_S512x1_0
          (Host.reduceAdd (F := Ideal) (φ := .f32)
            (mulf (W (Proc.devRef .tc main_v1) : S512x4096.Idx → EReal) (W (Proc.devRef .tc main_v1) : S512x4096.Idx → EReal))
            (constant (F := Ideal) S_ .f32 0x00000000#32) reducesTo_S512x4096_S512_d1 h_S_)) shapeCasts_S512x1_S1x512 := by
    dsimp only [hostOps1]; after_results; rfl
  rw [e]
  refine (shapeCast_apply _ shapeCasts_S512x1_S1x512 (ix2 0 g) (ix2 g 0)
    (by rw [Shape.rowMajor_val_two, Shape.rowMajor_val_two]
        show g.val * 1 + 0 = 0 * 512 + g.val
        omega)).trans ?_
  refine (broadcastInDim_apply _ bcast_S512_S512x1_0 _ (ix2 g 0) (ix1 g) (fun a => match a with
    | ⟨0, _⟩ => by show g.val = if (512 : Nat) = 1 then 0 else g.val; rw [if_neg (by decide)])).trans ?_
  rw [rowSum_apply]
  rfl

/-- The row of the centers' identities: entry `g` is the identity of row `16·g`. -/
theorem host1_v10 (W : Valuation τ sig (Elt Ideal)) (g : Fin 512) :
    (StableHlo.after (hostOps1 (F := Ideal)) W (Proc.devRef .tc main_v10) : S1x512.Idx → BitVec 32) (ix2 0 g)
      = (W (Proc.devRef .tc main_arg1) : S8192.Idx → BitVec 32) (ix1 (Cert.Spec.rowOf g 0)) := by
  have e : (StableHlo.after (hostOps1 (F := Ideal)) W (Proc.devRef .tc main_v10) : S1x512.Idx → BitVec 32)
      = shapeCast _ (shapeCast _ (extractStridedSlice S512x1 ![0, 0]
          (shapeCast _ (W (Proc.devRef .tc main_arg1) : S8192.Idx → BitVec 32) shapeCasts_S8192_S512x16)
          slices_S512x16_S512x1_0_0) shapeCasts_S512x1_S512) shapeCasts_S512_S1x512 := by
    dsimp only [hostOps1]; after_results; rfl
  rw [e]
  refine (shapeCast_apply _ shapeCasts_S512_S1x512 (ix2 0 g) (ix1 g)
    (by rw [Shape.rowMajor_val_one, Shape.rowMajor_val_two]
        show g.val = 0 * 512 + g.val
        omega)).trans ?_
  refine (shapeCast_apply _ shapeCasts_S512x1_S512 (ix1 g) (ix2 g 0)
    (by rw [Shape.rowMajor_val_two, Shape.rowMajor_val_one]
        show g.val * 1 + 0 = g.val
        omega)).trans ?_
  refine (extractStridedSlice_apply ![0, 0] _ slices_S512x16_S512x1_0_0 (ix2 g 0) (ix2 g 0) (fun a => match a with
    | ⟨0, _⟩ => by show g.val = 0 + g.val; omega
    | ⟨1, _⟩ => by show 0 = 0 + 0; omega)).trans ?_
  exact shapeCast_apply _ shapeCasts_S8192_S512x16 (ix2 g 0) (ix1 (Cert.Spec.rowOf g 0))
    (by rw [Shape.rowMajor_val_one, Shape.rowMajor_val_two]
        show 16 * g.val + 0 = g.val * 16 + 0
        omega)

/-- The column of the rows' identities. -/
theorem host1_v11 (W : Valuation τ sig (Elt Ideal)) (r : Fin 8192) :
    (StableHlo.after (hostOps1 (F := Ideal)) W (Proc.devRef .tc main_v11) : S8192x1.Idx → BitVec 32) (ix2 r 0)
      = (W (Proc.devRef .tc main_arg1) : S8192.Idx → BitVec 32) (ix1 r) := by
  have e : (StableHlo.after (hostOps1 (F := Ideal)) W (Proc.devRef .tc main_v11) : S8192x1.Idx → BitVec 32)
      = shapeCast _ (W (Proc.devRef .tc main_arg1) : S8192.Idx → BitVec 32) shapeCasts_S8192_S8192x1 := by
    dsimp only [hostOps1]; after_results; rfl
  rw [e]
  exact shapeCast_apply _ shapeCasts_S8192_S8192x1 (ix2 r 0) (ix1 r)
    (by rw [Shape.rowMajor_val_one, Shape.rowMajor_val_two]
        show r.val = r.val * 1 + 0
        omega)

/-- The column of the first-half indicators: the word 1 at the rows below 4096, the word 0 at the others. -/
theorem host1_v16 (W : Valuation τ sig (Elt Ideal)) (r : Fin 8192) :
    (StableHlo.after (hostOps1 (F := Ideal)) W (Proc.devRef .tc main_v16) : S8192x1.Idx → BitVec 32) (ix2 r 0)
      = if r.val < 4096 then 1#32 else 0#32 := by
  have e : (StableHlo.after (hostOps1 (F := Ideal)) W (Proc.devRef .tc main_v16) : S8192x1.Idx → BitVec 32)
      = shapeCast _ (extui 32 (cmpi .slt (iotaInDim S8192 32 0)
          (broadcastInDim S8192 ![] bcast_S_S8192 (constantI S_ 32 4096#32))) natLt_1_32) shapeCasts_S8192_S8192x1 := by
    dsimp only [hostOps1]; after_results; rfl
  rw [e]
  refine (shapeCast_apply _ shapeCasts_S8192_S8192x1 (ix2 r 0) (ix1 r)
    (by rw [Shape.rowMajor_val_one, Shape.rowMajor_val_two]
        show r.val = r.val * 1 + 0
        omega)).trans ?_
  show (IntOp.cmpi .slt (BitVec.ofNat 32 r.val)
      (broadcastInDim S8192 ![] bcast_S_S8192 (constantI S_ 32 4096#32) (ix1 r))).setWidth 32 = _
  rw [broadcastInDim_apply _ bcast_S_S8192 (constantI S_ 32 4096#32) (ix1 r) ix0 (fun a => a.elim0)]
  show (IntOp.cmpi .slt (BitVec.ofNat 32 r.val) 4096#32).setWidth 32 = _
  by_cases h : r.val < 4096
  · rw [if_pos h, (slt_4096 r.val r.isLt).mpr h]; rfl
  · rw [if_neg h, eq_zero_of_ne_one (fun hh => h ((slt_4096 r.val r.isLt).mp hh))]; rfl

/-- The middle stretch does not write the first argument. -/
theorem host1_arg0 (W : Valuation τ sig (Elt Ideal)) :
    StableHlo.after (hostOps1 (F := Ideal)) W (Proc.devRef .tc main_arg0) = W (Proc.devRef .tc main_arg0) := by
  dsimp only [hostOps1]; after_results

/-! ### The last stretch: the [1,1] result read as a scalar -/

theorem host2_v18 (W : Valuation τ sig (Elt Ideal)) (i : S_.Idx) :
    (StableHlo.after (hostOps2 (F := Ideal)) W (Proc.devRef .tc main_v18) : S_.Idx → EReal) i
      = (W (Proc.devRef .tc main_v17) : S1x1.Idx → EReal) (ix2 0 0) := by
  have e : (StableHlo.after (hostOps2 (F := Ideal)) W (Proc.devRef .tc main_v18) : S_.Idx → EReal)
      = shapeCast _ (W (Proc.devRef .tc main_v17) : S1x1.Idx → EReal) shapeCasts_S1x1_S_ := by
    dsimp only [hostOps2]; after_results; rfl
  rw [e]
  exact shapeCast_apply _ shapeCasts_S1x1_S_ i (ix2 0 0)
    (by rw [Shape.rowMajor_val_two]
        have h : (S_.rowMajor i).val < 1 := (S_.rowMajor i).isLt
        show 0 * 1 + 0 = _
        omega)

end Cert.KernelIdeal.HostValue

end
-- ==== Proof.PayIdealBase.lean ====
/-
  Shape-generic readings used by the payload formulas: an index split into coordinates of literal type, the
  keepdims column forms of a shape cast and a broadcast, a one-axis float sum at the ideal values written as a
  `Fin`-indexed sum over the dropped coordinate, the two-stage total of a matrix, and the conversion of a
  zero-extended mask bit.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx

variable {α : Type}

/-- Every rank-2 index is `ix2` of two coordinates of literal `Fin` type. -/
theorem exists_ix2 {n0 n1 : Nat} (j : (⟨2, ![n0, n1]⟩ : Shape).Idx) : ∃ (a : Fin n0) (b : Fin n1), j = ix2 a b :=
  ⟨j 0, j 1, eq_ix2 j⟩

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes (axis 1) of a matrix, at row `i`. -/
theorem sum_lanes {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src (funext fun c => Fin.ext ?_)
  match c with
  | ⟨0, _⟩ => rfl
  | ⟨1, _⟩ => rfl

/-- The sum over the rows (axis 0) of a column `[a, 1]`. -/
theorem sum_rows_col {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ i : Fin a, src (ix2 i u) := by
  refine (Ideal.multiReduction_add_single src 0x00000000#32 h hφ hacc (ix1 u)).trans ?_
  refine Finset.sum_congr rfl fun k _ => congrArg src (funext fun c => Fin.ext ?_)
  match c with
  | ⟨0, _⟩ => rfl
  | ⟨1, _⟩ => rfl

/-- The sum over the middle axis of a rank-3 array, at `(i, k)`. -/
theorem sum_mid {a b c : ℕ} (src : FVec Ideal ⟨3, ![a, b, c]⟩ .f32) (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src (funext fun d => Fin.ext ?_)
  match d with
  | ⟨0, _⟩ => rfl
  | ⟨1, _⟩ => rfl
  | ⟨2, _⟩ => rfl

/-- The two-stage total of a matrix: lane sums to `[a]`, viewed as a column `[a, 1]`, summed over the rows to `[1]`,
    viewed as `[1, 1]` — the double sum over the coordinates. -/
theorem two_stage_sum {a b : ℕ} (w : FVec Ideal ⟨2, ![a, b]⟩ .f32)
    (h1 : (⟨2, ![a, b]⟩ : Shape).Reduces [1] ⟨1, ![a]⟩) (hc : (⟨1, ![a]⟩ : Shape).ShapeCasts ⟨2, ![a, 1]⟩)
    (h0 : (⟨2, ![a, 1]⟩ : Shape).Reduces [0] ⟨1, ![1]⟩) (hc' : (⟨1, ![1]⟩ : Shape).ShapeCasts ⟨2, ![1, 1]⟩)
    (hφ hφ' : FKind.Formats .f32) (hacc hacc' : (0x00000000#32 : BitVec 32) = 0x00000000#32)
    (y : (⟨2, ![1, 1]⟩ : Shape).Idx) :
    shapeCast ⟨2, ![1, 1]⟩
        (multiReduction .add [0] ⟨1, ![1]⟩
          (shapeCast ⟨2, ![a, 1]⟩ (multiReduction .add [1] ⟨1, ![a]⟩ w 0x00000000#32 h1 hφ hacc) hc)
          0x00000000#32 h0 hφ' hacc') hc' y
      = ∑ i : Fin a, ∑ g : Fin b, w (ix2 i g) := by
  obtain ⟨u, v, rfl⟩ := exists_ix2 y
  refine (shapeCast_a_1a_apply _ hc' u v).trans ?_
  refine (sum_rows_col _ h0 hφ' hacc' v).trans ?_
  refine Finset.sum_congr rfl fun i _ => ?_
  refine (shapeCast_a_a1_apply _ hc i v).trans ?_
  exact sum_lanes w h1 hφ hacc i

/-- A mask bit zero-extended to 32 bits and converted to a float is `1` where the bit is set and `0` where it is not. -/
theorem sitofp_extui_bit (b : BitVec 1) :
    (FloatOps.sitofp (F := Ideal) .f32 (b.setWidth 32) : EReal) = if b = 1#1 then 1 else 0 := by
  rcases BitVec.eq_zero_or_eq_one b with h | h
  · subst h
    show (((BitVec.setWidth 32 0#1).toInt : ℝ) : EReal) = _
    simp
  · subst h
    show (((BitVec.setWidth 32 1#1).toInt : ℝ) : EReal) = _
    simp

end Cert.KernelIdeal.PayValue

end
-- ==== Proof.PayIdealCenter.lean ====
/-
  The center kernel's payload read at an index: the sum of a group's sixteen rows, divided by sixteen.
-/
import proofs.«115993_j5600637353990_1_alg».proof.Proof.Gen.KernelIdeal.Skeleton
import proofs.«115993_j5600637353990_1_alg».proof.Proof.Spec
import proofs.«115993_j5600637353990_1_alg».proof.Proof.PayIdealBase

noncomputable section

namespace Cert.KernelIdeal.PayValue

open Cert.KernelIdeal Cert.KernelIdeal.Gen Idealize.ShloMosaic Idealize.ShloMosaic.ValueIdx

theorem pay0_1 (v0 : Vec Ideal S64x16x4096 .f32) (a : Fin 64) (k : Fin 4096) :
    k0_pay1 (F := Ideal) v0 (ix2 a k) = Ideal.div (∑ j : Fin 16, v0 (ix3 a j k)) Cert.Spec.sixteen := by
  unfold k0_pay1
  show Ideal.div (multiReduction (F := Ideal) (φ := .f32) .add [1] S64x4096 (shapeCast S64x16x4096 v0 _) 0x00000000#32 _ _ _ (ix2 a k))
      (Ideal.ofBits .f32 0x41800000#32) = _
  rw [shapeCast_self]
  exact congrArg (fun s => Ideal.div s Cert.Spec.sixteen) (sum_mid (a := 64) (b := 16) (c := 4096) v0 _ _ _ a k)

end Cert.KernelIdeal.PayValue

end
-- ==== Proof.KI.CenValue.lean ====
/-
  The array the first kernel region leaves: the centers. Each grid point writes back the block of 64 centers whose
  entries are the means of the point's input block; the eight blocks tile the [512,4096] array, so the array ends
  holding, at (g, k), the sum of group `g`'s sixteen rows at feature `k` divided by sixteen.
-/
import proofs.«115993_j5600637353990_1_alg».proof.Proof.KI.Region0
import proofs.«115993_j5600637353990_1_alg».proof.Proof.PayIdealCenter
import proofs.«115993_j5600637353990_1_alg».proof.Proof.Spec
import Idealize.ShloMosaic.Lib.Pipeline.Value
import Idealize.ShloMosaic.Lib.ValueIdx

noncomputable section

namespace Cert.KernelIdeal.CenValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The mean of group `g`'s sixteen rows at feature `k`, of the regrouped input as the region finds it. -/
def cenOf (c : Dev nD) (g : Fin 512) (k : Fin 4096) : EReal :=
  Ideal.div (∑ j : Fin 16, (V c main_v0 : S512x16x4096.Idx → EReal) (ix3 g j k)) Cert.Spec.sixteen

/-- The array of the means. -/
def G (c : Dev nD) : S512x4096.Idx → EReal := fun i => cenOf V c (i 0) (i 1)

/-- The printed index maps, decided over the grid: point `t` reads block (t, 0, 0) of the regrouped input and writes
    block (t, 0) of the centers. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The payload at an index of the output block, by the index's coordinates. -/
theorem pay_at (v0 : Vec Ideal S64x16x4096 .f32) (y : S64x4096.Idx) :
    k0_pay1 (F := Ideal) v0 y = Ideal.div (∑ j : Fin 16, v0 (ix3 (y 0) j (y 1))) Cert.Spec.sixteen := by
  conv_lhs => rw [eq_ix2 y]
  exact Cert.KernelIdeal.PayValue.pay0_1 v0 (y 0) (y 1)

/-- The input block at point `t`, read at (a, j, k), is the regrouped input at (64·t + a, j, k). -/
theorem iblk_apply (c : Dev nD) (t : Fin cfg0.N) (x : S64x16x4096.Idx) (i : S512x16x4096.Idx)
    (h0 : (i 0).val = 64 * t.val + (x 0).val) (h1 : (i 1).val = (x 1).val) (h2 : (i 2).val = (x 2).val) :
    (iblk0 (F := Ideal) V c 0 t : Vec Ideal S64x16x4096 .f32) x = (V c main_v0 : S512x16x4096.Idx → EReal) i := by
  obtain ⟨e0, e1, e2, -, -⟩ := idx_facts t
  unfold iblk0
  rw [View.read_apply]
  show (V c main_v0 : S512x16x4096.Idx → EReal) _ = _
  congr 1
  funext a
  apply Fin.ext
  match a with
  | ⟨0, _⟩ => show win0_0.index t (0 : Fin 3) * 64 + 1 * (x 0).val = (i 0).val; rw [e0, h0]; omega
  | ⟨1, _⟩ => show win0_0.index t (1 : Fin 3) * 16 + 1 * (x 1).val = (i 1).val; rw [e1, h1]; omega
  | ⟨2, _⟩ => show win0_0.index t (2 : Fin 3) * 4096 + 1 * (x 2).val = (i 2).val; rw [e2, h2]; omega

/-- WHAT POINT `t` WRITES BACK is block `t` of the array of the means. -/
theorem flushed_eq (c : Dev nD) (t : Fin cfg0.N) :
    (dat0 (F := Ideal) V c).flushed 1 t = ((cfg0.win 1).blk t).view.read (Elt Ideal) (G V c) := by
  show (cfg0.win 1).cut (grid0.coords t) ((dat0 (F := Ideal) V c).after 1 t) = _
  rw [after0_1]
  unfold out0_1
  rw [View.canon_unit_zero hz2]
  simp only [View.ld_unit_zero (S := S64x16x4096) hz3]
  funext y
  obtain ⟨-, -, -, e3, e4⟩ := idx_facts t
  show k0_pay1 (F := Ideal) (iblk0 V c 0 t) y = G V c (((cfg0.win 1).blk t).view.emb y)
  refine (pay_at _ y).trans ?_
  unfold G cenOf
  refine congrArg (fun s => Ideal.div s Cert.Spec.sixteen) (Finset.sum_congr rfl fun j _ => ?_)
  have hy0 : (y 0).val < 64 := (y 0).isLt
  have hy1 : (y 1).val < 4096 := (y 1).isLt
  refine iblk_apply V c t _ _ ?_ ?_ ?_
  · show win0_1.index t (0 : Fin 2) * 64 + 1 * (y 0).val = 64 * t.val + (y 0).val; rw [e3]; omega
  · rfl
  · show win0_1.index t (1 : Fin 2) * 4096 + 1 * (y 1).val = (y 1).val; rw [e4]; omega

/-- An index of the centers' array is in point `t`'s block iff each coordinate is in the block's range on its axis. -/
theorem mem_blk (t : Fin cfg0.N) (i : S512x4096.Idx) :
    i ∈ ((cfg0.win 1).blk t).view.set ↔ ∀ a : Fin 2, win0_1.index t a * S64x4096.size a ≤ (i a).val
      ∧ (i a).val < win0_1.index t a * S64x4096.size a + S64x4096.size a := by
  show i ∈ ((View.whole main_v1).slice (win0_1.rect t)).set ↔ _
  rw [View.set_slice_whole, Rect.mem_set_unit]
  exact Iff.rfl

/-- Every index of the centers' array is in some point's block: center `g` is written at point `g / 64`. -/
theorem cover (i : S512x4096.Idx) :
    ∃ t : Fin cfg0.N, (cfg0.win 1).flush t = true ∧ i ∈ ((cfg0.win 1).blk t).view.set := by
  have hi0 : (i 0).val < 512 := (i 0).isLt
  have hi1 : (i 1).val < 4096 := (i 1).isLt
  have hN : cfg0.N = 8 := by decide
  have ht : (i 0).val / 64 < cfg0.N := by rw [hN]; omega
  refine ⟨⟨(i 0).val / 64, ht⟩, flush0_1 _, ?_⟩
  rw [mem_blk]
  obtain ⟨-, -, -, e3, e4⟩ := idx_facts ⟨(i 0).val / 64, ht⟩
  intro a
  match a with
  | ⟨0, _⟩ =>
    show win0_1.index ⟨(i 0).val / 64, ht⟩ (0 : Fin 2) * 64 ≤ (i 0).val
      ∧ (i 0).val < win0_1.index ⟨(i 0).val / 64, ht⟩ (0 : Fin 2) * 64 + 64
    rw [e3]; show (i 0).val / 64 * 64 ≤ (i 0).val ∧ (i 0).val < (i 0).val / 64 * 64 + 64; omega
  | ⟨1, _⟩ =>
    show win0_1.index ⟨(i 0).val / 64, ht⟩ (1 : Fin 2) * 4096 ≤ (i 1).val
      ∧ (i 1).val < win0_1.index ⟨(i 0).val / 64, ht⟩ (1 : Fin 2) * 4096 + 4096
    rw [e4]; omega

/-- THE ARRAY the first region leaves: the array of the means. -/
theorem arr_eq (c : Dev nD) : (dat0 (F := Ideal) V c).arrAt 1 cfg0.N = G V c :=
  (dat0 (F := Ideal) V c).arrAt_eq_of_cover 1 (G V c) (fun t _ => flushed_eq V c t) cover

/-- Read at (g, k): the sum of group `g`'s sixteen rows of the regrouped input at feature `k`, divided by sixteen. -/
theorem cen_arr (c : Dev nD) (g : Fin 512) (k : Fin 4096) :
    @Eq EReal (((dat0 (F := Ideal) V c).arrAt 1 cfg0.N : S512x4096.Idx → EReal) (ix2 g k))
      (Ideal.div (∑ j : Fin 16, (V c main_v0 : S512x16x4096.Idx → EReal) (ix3 g j k)) Cert.Spec.sixteen) := by
  rw [arr_eq]
  rfl

end Cert.KernelIdeal.CenValue

end
-- ==== Proof.KI.Entry.lean ====
/-
  The entry contents of the second region, read back through the program's earlier items to the two arguments:
  the rows are the first argument's, the centers are the group means of its rows, the centers' squared norms their
  sums of squares, the centers' identities those of their groups' first rows, the rows' identities the second
  argument's, and a row's half-flag is one exactly in the first half of the rows.
-/
import proofs.«115993_j5600637353990_1_alg».proof.Proof.KI.Frame
import proofs.«115993_j5600637353990_1_alg».proof.Proof.KI.HostMid
import proofs.«115993_j5600637353990_1_alg».proof.Proof.KI.CenValue
import proofs.«115993_j5600637353990_1_alg».proof.Proof.Spec

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first argument as a matrix of extended reals, the second as a vector of words. -/
def xs (c : Dev nD) : Fin 8192 → Fin 4096 → EReal :=
  fun r k => (m ((c.tc : Thread nD τ).loc main_arg0) : S8192x4096.Idx → EReal) (ix2 r k)
def ps (c : Dev nD) : Fin 8192 → BitVec 32 :=
  fun r => (m ((c.tc : Thread nD τ).loc main_arg1) : S8192.Idx → BitVec 32) (ix1 r)

/-- The arguments reach the second region's entry as launched. -/
theorem W3_arg0 (c : Dev nD) : W3 m ρ c (Proc.devRef .tc main_arg0) = m ((c : Thread nD τ).loc main_arg0) :=
  (W3_of_not_written m ρ c main_arg0 (by decide)).trans <| (W2_of_ne m ρ c main_arg0 (by decide)).trans <|
    (W1_of_not_written m ρ c main_arg0 (by decide)).trans rfl
theorem W2_arg1 (c : Dev nD) : W2 m ρ c (Proc.devRef .tc main_arg1) = m ((c : Thread nD τ).loc main_arg1) :=
  (W2_of_ne m ρ c main_arg1 (by decide)).trans <| (W1_of_not_written m ρ c main_arg1 (by decide)).trans rfl

/-- The rows the second region reads are the first argument's. -/
theorem rows_eq (c : Dev nD) (r : Fin 8192) (k : Fin 4096) :
    (Vb3 m ρ c main_arg0 : S8192x4096.Idx → EReal) (ix2 r k) = xs m c r k := by
  show (W3 m ρ c (Proc.devRef .tc main_arg0) : S8192x4096.Idx → EReal) (ix2 r k) = _
  rw [W3_arg0]; rfl

/-- The centers the first region leaves are the group means. -/
theorem centers_eq (c : Dev nD) (g : Fin 512) (k : Fin 4096) :
    (W2 m ρ c (Proc.devRef .tc main_v1) : S512x4096.Idx → EReal) (ix2 g k) = Cert.Spec.cen (xs m c) g k := by
  have h1 : W2 m ρ c (Proc.devRef .tc main_v1) = (dat0 (Vb1 m ρ) c).arrAt 1 cfg0.N := W2_arr m ρ c 1
  rw [h1, Cert.KernelIdeal.CenValue.cen_arr (Vb1 m ρ) c g k]
  unfold Cert.Spec.cen
  refine congrArg (fun s => Ideal.div s Cert.Spec.sixteen) (Finset.sum_congr rfl fun j _ => ?_)
  exact Cert.KernelIdeal.HostValue.host0_v0 (W0 m ρ c) g j k

/-- The centers the second region reads (rounded to the short format on the host: the identity on the extended reals). -/
theorem centers_bf_eq (c : Dev nD) (g : Fin 512) (k : Fin 4096) :
    (Vb3 m ρ c main_v2 : S512x4096.Idx → EReal) (ix2 g k) = Cert.Spec.cen (xs m c) g k :=
  (Cert.KernelIdeal.HostValue.host1_v2 (W2 m ρ c) g k).trans (centers_eq m ρ c g k)

/-- The centers' squared norms. -/
theorem normC_eq (c : Dev nD) (g : Fin 512) :
    (Vb3 m ρ c main_v6 : S1x512.Idx → EReal) (ix2 0 g) = Cert.Spec.normC (xs m c) g := by
  refine (Cert.KernelIdeal.HostValue.host1_v6 (W2 m ρ c) _ rfl g).trans ?_
  unfold Cert.Spec.normC
  exact Finset.sum_congr rfl fun k _ => by rw [centers_eq m ρ c g k]

/-- The centers' identities, the rows' identities, the rows' half-flags. -/
theorem cid_eq (c : Dev nD) (g : Fin 512) :
    (Vb3 m ρ c main_v10 : S1x512.Idx → BitVec 32) (ix2 0 g) = ps m c (Cert.Spec.rowOf g 0) := by
  refine (Cert.KernelIdeal.HostValue.host1_v10 (W2 m ρ c) g).trans ?_
  rw [W2_arg1]; rfl
theorem rid_eq (c : Dev nD) (r : Fin 8192) :
    (Vb3 m ρ c main_v11 : S8192x1.Idx → BitVec 32) (ix2 r 0) = ps m c r := by
  refine (Cert.KernelIdeal.HostValue.host1_v11 (W2 m ρ c) r).trans ?_
  rw [W2_arg1]; rfl
theorem half_eq (c : Dev nD) (r : Fin 8192) :
    (Vb3 m ρ c main_v16 : S8192x1.Idx → BitVec 32) (ix2 r 0) = if r.val < 4096 then 1#32 else 0#32 :=
  Cert.KernelIdeal.HostValue.host1_v16 (W2 m ρ c) r

end Cert.KernelIdeal.Bridge

end
-- ==== Proof.KI.AccPiecesA.lean ====
/-
  What the body leaves in the four one-element accumulators at the first block of rows: each is set to zero and then
  receives the block's partial total, as a function of the block's six input arrays.
-/
import proofs.«115993_j5600637353990_1_alg».proof.Proof.KI.R1RunA
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.AccValue
open Cert.KernelIdeal Cert.KernelIdeal.Gen Cert.KernelIdeal.Hand
open Idealize.ShloMosaic Idealize.ShloMosaic.TcCoe Idealize.ShloMosaic.Tactic
open Idealize.SL.Sem
variable {F : FTy → Type} [FloatOps F]

theorem hzA : (![0, 0] : Fin 2 → Nat) = fun _ => 0 := funext fun a => by fin_cases a <;> rfl

/-- Accumulator 0 after the first block: the zero, then the block's partial total added to it. -/
theorem pieceA_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i) (x0 : Vec F S512x4096 .f32) (x1 : Vec F S512x4096 .bf16) (x2 : Vec F S1x512 .f32) (x3 : Vec F S1x512 .i32) (x4 : Vec F S512x1 .i32) (x5 : Vec F S512x1 .i32) :
    View.canon (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1 = k1_pay15 (k1_pay9 x0 x1 x2) (k1_pay11 x3 x4 x5) (k1_pay5 (F := F)) := by
  unfold kernelRun1_A
  dsimp only
  sl_unfold_words
  rw [View.canon_cons_unit_zero (S := S1x1) hzA, View.readCov_unit_zero (S := S1x1) _ hzA]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzA, View.ld_unit_zero (S := S1x512) hzA, View.ld_unit_zero (S := S512x1) hzA, View.ld_unit_zero (S := S1x1) hzA]

/-- Accumulator 1 after the first block: the zero, then the block's partial total added to it. -/
theorem pieceA_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i) (x0 : Vec F S512x4096 .f32) (x1 : Vec F S512x4096 .bf16) (x2 : Vec F S1x512 .f32) (x3 : Vec F S1x512 .i32) (x4 : Vec F S512x1 .i32) (x5 : Vec F S512x1 .i32) :
    View.canon (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1 = k1_pay1 (k1_pay16 (k1_pay11 x3 x4 x5) (k1_pay6 (F := F))) := by
  unfold kernelRun1_A
  dsimp only
  sl_unfold_words
  rw [View.canon_cons_unit_zero (S := S1x1) hzA, View.readCov_unit_zero (S := S1x1) _ hzA]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzA, View.ld_unit_zero (S := S1x512) hzA, View.ld_unit_zero (S := S512x1) hzA, View.ld_unit_zero (S := S1x1) hzA]

/-- Accumulator 2 after the first block: the zero, then the block's partial total added to it. -/
theorem pieceA_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i) (x0 : Vec F S512x4096 .f32) (x1 : Vec F S512x4096 .bf16) (x2 : Vec F S1x512 .f32) (x3 : Vec F S1x512 .i32) (x4 : Vec F S512x1 .i32) (x5 : Vec F S512x1 .i32) :
    View.canon (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 = k1_pay2 (k1_pay13 (k1_pay9 x0 x1 x2) (k1_pay10 x3 x4)) (k1_pay7 (F := F)) := by
  unfold kernelRun1_A
  dsimp only
  sl_unfold_words
  rw [View.canon_cons_unit_zero (S := S1x1) hzA, View.readCov_unit_zero (S := S1x1) _ hzA]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzA, View.ld_unit_zero (S := S1x512) hzA, View.ld_unit_zero (S := S512x1) hzA, View.ld_unit_zero (S := S1x1) hzA]

/-- Accumulator 3 after the first block: the zero, then the block's partial total added to it. -/
theorem pieceA_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond1_0 i) (hc1 : ¬cond1_1 i) (x0 : Vec F S512x4096 .f32) (x1 : Vec F S512x4096 .bf16) (x2 : Vec F S1x512 .f32) (x3 : Vec F S1x512 .i32) (x4 : Vec F S512x1 .i32) (x5 : Vec F S512x1 .i32) :
    View.canon (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 = k1_pay3 (k1_pay14 (F := F) (k1_pay10 x3 x4)) (k1_pay8 (F := F)) := by
  unfold kernelRun1_A
  dsimp only
  sl_unfold_words
  rw [View.canon_cons_unit_zero (S := S1x1) hzA, View.readCov_unit_zero (S := S1x1) _ hzA]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzA, View.ld_unit_zero (S := S1x512) hzA, View.ld_unit_zero (S := S512x1) hzA, View.ld_unit_zero (S := S1x1) hzA]

end Cert.KernelIdeal.AccValue

end
-- ==== Proof.KI.AccPiecesB.lean ====
/-
  What the body leaves in the four one-element accumulators at a block of rows that is neither the first nor the
  last: each accumulator's earlier value plus the block's partial total.
-/
import proofs.«115993_j5600637353990_1_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.AccValue
open Cert.KernelIdeal Cert.KernelIdeal.Gen Cert.KernelIdeal.Hand
open Idealize.ShloMosaic Idealize.ShloMosaic.TcCoe Idealize.ShloMosaic.Tactic
open Idealize.SL.Sem
variable {F : FTy → Type} [FloatOps F]

theorem hzB : (![0, 0] : Fin 2 → Nat) = fun _ => 0 := funext fun a => by fin_cases a <;> rfl

/-- Accumulator 0 after a middle block: its earlier value plus the block's partial total. -/
theorem pieceB_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1 = k1_pay15 (k1_pay9 x0 x1 x2) (k1_pay11 x3 x4 x5) xs0 := by
  unfold kernelRun1_B
  dsimp only
  sl_unfold_words
  rw [View.canon_unit_zero (S := S1x1) hzB]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzB, View.ld_unit_zero (S := S1x512) hzB, View.ld_unit_zero (S := S512x1) hzB, View.ld_unit_zero (S := S1x1) hzB]

/-- Accumulator 1 after a middle block: its earlier value plus the block's partial total. -/
theorem pieceB_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1 = k1_pay1 (k1_pay16 (k1_pay11 x3 x4 x5) xs1) := by
  unfold kernelRun1_B
  dsimp only
  sl_unfold_words
  rw [View.canon_unit_zero (S := S1x1) hzB]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzB, View.ld_unit_zero (S := S1x512) hzB, View.ld_unit_zero (S := S512x1) hzB, View.ld_unit_zero (S := S1x1) hzB]

/-- Accumulator 2 after a middle block: its earlier value plus the block's partial total. -/
theorem pieceB_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1 = k1_pay2 (k1_pay13 (k1_pay9 x0 x1 x2) (k1_pay10 x3 x4)) xs2 := by
  unfold kernelRun1_B
  dsimp only
  sl_unfold_words
  rw [View.canon_unit_zero (S := S1x1) hzB]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzB, View.ld_unit_zero (S := S1x512) hzB, View.ld_unit_zero (S := S512x1) hzB, View.ld_unit_zero (S := S1x1) hzB]

/-- Accumulator 3 after a middle block: its earlier value plus the block's partial total. -/
theorem pieceB_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : ¬cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1 = k1_pay3 (k1_pay14 (F := F) (k1_pay10 x3 x4)) xs3 := by
  unfold kernelRun1_B
  dsimp only
  sl_unfold_words
  rw [View.canon_unit_zero (S := S1x1) hzB]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzB, View.ld_unit_zero (S := S1x512) hzB, View.ld_unit_zero (S := S512x1) hzB, View.ld_unit_zero (S := S1x1) hzB]

end Cert.KernelIdeal.AccValue

end
-- ==== Proof.KI.AccPiecesC.lean ====
/-
  What the body leaves at the last block of rows: each accumulator's earlier value plus the block's partial total,
  and in the one-element output the sum of the two quotients of the final totals.
-/
import proofs.«115993_j5600637353990_1_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.AccValue
open Cert.KernelIdeal Cert.KernelIdeal.Gen Cert.KernelIdeal.Hand
open Idealize.ShloMosaic Idealize.ShloMosaic.TcCoe Idealize.ShloMosaic.Tactic
open Idealize.SL.Sem
variable {F : FTy → Type} [FloatOps F]

theorem hzC : (![0, 0] : Fin 2 → Nat) = fun _ => 0 := funext fun a => by fin_cases a <;> rfl

/-- Accumulator 0 after the last block: its earlier value plus the block's partial total. -/
theorem pieceC_0 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.1 = k1_pay15 (k1_pay9 x0 x1 x2) (k1_pay11 x3 x4 x5) xs0 := by
  unfold kernelRun1_C
  dsimp only
  sl_unfold_words
  rw [View.canon_unit_zero (S := S1x1) hzC]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzC, View.ld_unit_zero (S := S1x512) hzC, View.ld_unit_zero (S := S512x1) hzC, View.ld_unit_zero (S := S1x1) hzC]

/-- Accumulator 1 after the last block: its earlier value plus the block's partial total. -/
theorem pieceC_1 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.1 = k1_pay1 (k1_pay16 (k1_pay11 x3 x4 x5) xs1) := by
  unfold kernelRun1_C
  dsimp only
  sl_unfold_words
  rw [View.canon_unit_zero (S := S1x1) hzC]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzC, View.ld_unit_zero (S := S1x512) hzC, View.ld_unit_zero (S := S512x1) hzC, View.ld_unit_zero (S := S1x1) hzC]

/-- Accumulator 2 after the last block: its earlier value plus the block's partial total. -/
theorem pieceC_2 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.1 = k1_pay2 (k1_pay13 (k1_pay9 x0 x1 x2) (k1_pay10 x3 x4)) xs2 := by
  unfold kernelRun1_C
  dsimp only
  sl_unfold_words
  rw [View.canon_unit_zero (S := S1x1) hzC]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzC, View.ld_unit_zero (S := S1x512) hzC, View.ld_unit_zero (S := S512x1) hzC, View.ld_unit_zero (S := S1x1) hzC]

/-- Accumulator 3 after the last block: its earlier value plus the block's partial total. -/
theorem pieceC_3 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).2.2.2.2.1 = k1_pay3 (k1_pay14 (F := F) (k1_pay10 x3 x4)) xs3 := by
  unfold kernelRun1_C
  dsimp only
  sl_unfold_words
  rw [View.canon_unit_zero (S := S1x1) hzC]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzC, View.ld_unit_zero (S := S1x512) hzC, View.ld_unit_zero (S := S512x1) hzC, View.ld_unit_zero (S := S1x1) hzC]

/-- The output after the last block: the two quotients' sum over the four final totals. -/
theorem pieceC_6 (c : Dev nD) (i : grid1.Coords) (arg1 : Memref sig .tc .vmem S512x4096 .f32) (harg1 : arg1.IsWhole) (arg2 : Memref sig .tc .vmem S512x4096 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond1_0 i) (hc1 : cond1_1 i) (x0 : Vec F S512x4096 .f32) (x1 : Vec F S512x4096 .bf16) (x2 : Vec F S1x512 .f32) (x3 : Vec F S1x512 .i32) (x4 : Vec F S512x1 .i32) (x5 : Vec F S512x1 .i32) (xs0 xs1 xs2 xs3 : Vec F S1x1 .f32) :
    View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3).1
      = k1_pay4 (k1_pay15 (k1_pay9 x0 x1 x2) (k1_pay11 x3 x4 x5) xs0) (k1_pay1 (k1_pay16 (k1_pay11 x3 x4 x5) xs1)) (k1_pay2 (k1_pay13 (k1_pay9 x0 x1 x2) (k1_pay10 x3 x4)) xs2) (k1_pay3 (k1_pay14 (F := F) (k1_pay10 x3 x4)) xs3) := by
  unfold kernelRun1_C
  dsimp only
  sl_unfold_words
  rw [View.canon_unit_zero (S := S1x1) hzC]
  rw [View.readCov_unit_zero (S := S1x1) _ hzC, View.readCov_unit_zero (S := S1x1) _ hzC,
    View.readCov_unit_zero (S := S1x1) _ hzC, View.readCov_unit_zero (S := S1x1) _ hzC]
  simp only [View.readAt_eq_ld, harg1.read_unread, harg2.read_unread, harg3.read_unread, harg4.read_unread, harg5.read_unread, harg6.read_unread, harg8.read_unread, harg9.read_unread, harg10.read_unread, harg11.read_unread, View.ld_unit_zero (S := S512x4096) hzC, View.ld_unit_zero (S := S1x512) hzC, View.ld_unit_zero (S := S512x1) hzC, View.ld_unit_zero (S := S1x1) hzC]

end Cert.KernelIdeal.AccValue

end
-- ==== Proof.KI.AccStep.lean ====
/-
  The four accumulators, and at the last block the output, after the body at a grid point, as the body's arithmetic
  of the point's six input blocks and of the accumulators' values after the point before: at the first point over
  the zeros, afterwards over what the point before left.
-/
import proofs.«115993_j5600637353990_1_alg».proof.Proof.KI.Region1
import proofs.«115993_j5600637353990_1_alg».proof.Proof.KI.AccPiecesA
import proofs.«115993_j5600637353990_1_alg».proof.Proof.KI.AccPiecesB
import proofs.«115993_j5600637353990_1_alg».proof.Proof.KI.AccPiecesC
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.AccValue
open Cert.KernelIdeal Cert.KernelIdeal.Gen Cert.KernelIdeal.Hand
open Idealize.ShloMosaic Idealize.ShloMosaic.TcCoe Idealize.ShloMosaic.Tactic
open Idealize.SL.Sem
variable {F : FTy → Type} [FloatOps F]

variable (V : (c : Dev nD) → (b : Ref sig .tc) → Buf (Elt F) ((c : Thread nD τ).loc b))

theorem accA_0 (c : Dev nD) (t : Fin cfg1.N) (h0 : t.val % 16 = 0) (h1 : ¬t.val % 16 = 15) :
    (outsAt1 V c t.val t.isLt).2.1 = k1_pay15 (k1_pay9 (iblk1 V c 0 t) (iblk1 V c 1 t) (iblk1 V c 2 t)) (k1_pay11 (iblk1 V c 3 t) (iblk1 V c 4 t) (iblk1 V c 5 t)) (k1_pay5 (F := F)) := by
  rw [outsAt1_A V c t h0 h1]
  show sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) = _
  unfold sout1_A_0
  rw [View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))]
  exact pieceA_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

theorem accA_1 (c : Dev nD) (t : Fin cfg1.N) (h0 : t.val % 16 = 0) (h1 : ¬t.val % 16 = 15) :
    (outsAt1 V c t.val t.isLt).2.2.1 = k1_pay1 (k1_pay16 (k1_pay11 (iblk1 V c 3 t) (iblk1 V c 4 t) (iblk1 V c 5 t)) (k1_pay6 (F := F))) := by
  rw [outsAt1_A V c t h0 h1]
  show sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) = _
  unfold sout1_A_1
  rw [View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))]
  exact pieceA_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

theorem accA_2 (c : Dev nD) (t : Fin cfg1.N) (h0 : t.val % 16 = 0) (h1 : ¬t.val % 16 = 15) :
    (outsAt1 V c t.val t.isLt).2.2.2.1 = k1_pay2 (k1_pay13 (k1_pay9 (iblk1 V c 0 t) (iblk1 V c 1 t) (iblk1 V c 2 t)) (k1_pay10 (iblk1 V c 3 t) (iblk1 V c 4 t))) (k1_pay7 (F := F)) := by
  rw [outsAt1_A V c t h0 h1]
  show sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) = _
  unfold sout1_A_2
  rw [View.read_writes_eq_canon _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))]
  exact pieceA_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

theorem accA_3 (c : Dev nD) (t : Fin cfg1.N) (h0 : t.val % 16 = 0) (h1 : ¬t.val % 16 = 15) :
    (outsAt1 V c t.val t.isLt).2.2.2.2 = k1_pay3 (k1_pay14 (F := F) (k1_pay10 (iblk1 V c 3 t) (iblk1 V c 4 t))) (k1_pay8 (F := F)) := by
  rw [outsAt1_A V c t h0 h1]
  show sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) = _
  unfold sout1_A_3
  rw [View.read_writes_eq_canon _ _ _ (scover1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))]
  exact pieceA_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

theorem accB_0 (c : Dev nD) (t : Fin cfg1.N) (h0 : ¬t.val % 16 = 0) (h1 : ¬t.val % 16 = 15) :
    (outsAt1 V c t.val t.isLt).2.1 = k1_pay15 (k1_pay9 (iblk1 V c 0 t) (iblk1 V c 1 t) (iblk1 V c 2 t)) (k1_pay11 (iblk1 V c 3 t) (iblk1 V c 4 t) (iblk1 V c 5 t)) (outsAt1 V c (t.val - 1) (Nat.lt_of_le_of_lt (Nat.sub_le _ _) t.isLt)).2.1 := by
  rw [outsAt1_B V c t h0 h1]
  show sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold sout1_B_0
  rw [View.read_writes_eq_canon _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceB_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

theorem accB_1 (c : Dev nD) (t : Fin cfg1.N) (h0 : ¬t.val % 16 = 0) (h1 : ¬t.val % 16 = 15) :
    (outsAt1 V c t.val t.isLt).2.2.1 = k1_pay1 (k1_pay16 (k1_pay11 (iblk1 V c 3 t) (iblk1 V c 4 t) (iblk1 V c 5 t)) (outsAt1 V c (t.val - 1) (Nat.lt_of_le_of_lt (Nat.sub_le _ _) t.isLt)).2.2.1) := by
  rw [outsAt1_B V c t h0 h1]
  show sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold sout1_B_1
  rw [View.read_writes_eq_canon _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceB_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

theorem accB_2 (c : Dev nD) (t : Fin cfg1.N) (h0 : ¬t.val % 16 = 0) (h1 : ¬t.val % 16 = 15) :
    (outsAt1 V c t.val t.isLt).2.2.2.1 = k1_pay2 (k1_pay13 (k1_pay9 (iblk1 V c 0 t) (iblk1 V c 1 t) (iblk1 V c 2 t)) (k1_pay10 (iblk1 V c 3 t) (iblk1 V c 4 t))) (outsAt1 V c (t.val - 1) (Nat.lt_of_le_of_lt (Nat.sub_le _ _) t.isLt)).2.2.2.1 := by
  rw [outsAt1_B V c t h0 h1]
  show sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold sout1_B_2
  rw [View.read_writes_eq_canon _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceB_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

theorem accB_3 (c : Dev nD) (t : Fin cfg1.N) (h0 : ¬t.val % 16 = 0) (h1 : ¬t.val % 16 = 15) :
    (outsAt1 V c t.val t.isLt).2.2.2.2 = k1_pay3 (k1_pay14 (F := F) (k1_pay10 (iblk1 V c 3 t) (iblk1 V c 4 t))) (outsAt1 V c (t.val - 1) (Nat.lt_of_le_of_lt (Nat.sub_le _ _) t.isLt)).2.2.2.2 := by
  rw [outsAt1_B V c t h0 h1]
  show sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold sout1_B_3
  rw [View.read_writes_eq_canon _ _ _ (scover1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceB_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

theorem accC_0 (c : Dev nD) (t : Fin cfg1.N) (h0 : ¬t.val % 16 = 0) (h1 : t.val % 16 = 15) :
    (outsAt1 V c t.val t.isLt).2.1 = k1_pay15 (k1_pay9 (iblk1 V c 0 t) (iblk1 V c 1 t) (iblk1 V c 2 t)) (k1_pay11 (iblk1 V c 3 t) (iblk1 V c 4 t) (iblk1 V c 5 t)) (outsAt1 V c (t.val - 1) (Nat.lt_of_le_of_lt (Nat.sub_le _ _) t.isLt)).2.1 := by
  rw [outsAt1_C V c t h0 h1]
  show sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold sout1_C_0
  rw [View.read_writes_eq_canon _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceC_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

theorem accC_1 (c : Dev nD) (t : Fin cfg1.N) (h0 : ¬t.val % 16 = 0) (h1 : t.val % 16 = 15) :
    (outsAt1 V c t.val t.isLt).2.2.1 = k1_pay1 (k1_pay16 (k1_pay11 (iblk1 V c 3 t) (iblk1 V c 4 t) (iblk1 V c 5 t)) (outsAt1 V c (t.val - 1) (Nat.lt_of_le_of_lt (Nat.sub_le _ _) t.isLt)).2.2.1) := by
  rw [outsAt1_C V c t h0 h1]
  show sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold sout1_C_1
  rw [View.read_writes_eq_canon _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceC_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

theorem accC_2 (c : Dev nD) (t : Fin cfg1.N) (h0 : ¬t.val % 16 = 0) (h1 : t.val % 16 = 15) :
    (outsAt1 V c t.val t.isLt).2.2.2.1 = k1_pay2 (k1_pay13 (k1_pay9 (iblk1 V c 0 t) (iblk1 V c 1 t) (iblk1 V c 2 t)) (k1_pay10 (iblk1 V c 3 t) (iblk1 V c 4 t))) (outsAt1 V c (t.val - 1) (Nat.lt_of_le_of_lt (Nat.sub_le _ _) t.isLt)).2.2.2.1 := by
  rw [outsAt1_C V c t h0 h1]
  show sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold sout1_C_2
  rw [View.read_writes_eq_canon _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceC_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

theorem accC_3 (c : Dev nD) (t : Fin cfg1.N) (h0 : ¬t.val % 16 = 0) (h1 : t.val % 16 = 15) :
    (outsAt1 V c t.val t.isLt).2.2.2.2 = k1_pay3 (k1_pay14 (F := F) (k1_pay10 (iblk1 V c 3 t) (iblk1 V c 4 t))) (outsAt1 V c (t.val - 1) (Nat.lt_of_le_of_lt (Nat.sub_le _ _) t.isLt)).2.2.2.2 := by
  rw [outsAt1_C V c t h0 h1]
  show sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold sout1_C_3
  rw [View.read_writes_eq_canon _ _ _ (scover1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceC_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

theorem outC_6 (c : Dev nD) (t : Fin cfg1.N) (h0 : ¬t.val % 16 = 0) (h1 : t.val % 16 = 15) :
    (outsAt1 V c t.val t.isLt).1 = k1_pay4 (k1_pay15 (k1_pay9 (iblk1 V c 0 t) (iblk1 V c 1 t) (iblk1 V c 2 t)) (k1_pay11 (iblk1 V c 3 t) (iblk1 V c 4 t) (iblk1 V c 5 t)) (outsAt1 V c (t.val - 1) (Nat.lt_of_le_of_lt (Nat.sub_le _ _) t.isLt)).2.1) (k1_pay1 (k1_pay16 (k1_pay11 (iblk1 V c 3 t) (iblk1 V c 4 t) (iblk1 V c 5 t)) (outsAt1 V c (t.val - 1) (Nat.lt_of_le_of_lt (Nat.sub_le _ _) t.isLt)).2.2.1)) (k1_pay2 (k1_pay13 (k1_pay9 (iblk1 V c 0 t) (iblk1 V c 1 t) (iblk1 V c 2 t)) (k1_pay10 (iblk1 V c 3 t) (iblk1 V c 4 t))) (outsAt1 V c (t.val - 1) (Nat.lt_of_le_of_lt (Nat.sub_le _ _) t.isLt)).2.2.2.1) (k1_pay3 (k1_pay14 (F := F) (k1_pay10 (iblk1 V c 3 t) (iblk1 V c 4 t))) (outsAt1 V c (t.val - 1) (Nat.lt_of_le_of_lt (Nat.sub_le _ _) t.isLt)).2.2.2.2) := by
  rw [outsAt1_C V c t h0 h1]
  show out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 = _
  unfold out1_C_6
  rw [View.read_writes_eq_canon _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)]
  exact pieceC_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

end Cert.KernelIdeal.AccValue

end
-- ==== Proof.PayIdealSmall.lean ====
/-
  The scalar-block payloads of the main kernel (the four running totals' stores, the final quotient, the zeroed
  totals) and its two integer masks, read at an index.
-/
import proofs.«115993_j5600637353990_1_alg».proof.Proof.Gen.KernelIdeal.Skeleton
import proofs.«115993_j5600637353990_1_alg».proof.Proof.Spec
import proofs.«115993_j5600637353990_1_alg».proof.Proof.PayIdealBase

noncomputable section

namespace Cert.KernelIdeal.PayValue

open Cert.KernelIdeal Cert.KernelIdeal.Gen Idealize.ShloMosaic Idealize.ShloMosaic.ValueIdx

theorem pay1 (v74 : FVec Ideal S1x1 .f32) (y : S1x1.Idx) : k1_pay1 (F := Ideal) v74 y = v74 y := by
  unfold k1_pay1
  exact congrFun (shapeCast_self v74 _) y

theorem pay2 (v61 : FVec Ideal S1x1 .f32) (v78 : Vec Ideal S1x1 .f32) (y : S1x1.Idx) :
    k1_pay2 (F := Ideal) v61 v78 y = v78 y + v61 y := by
  unfold k1_pay2
  exact congrFun (shapeCast_self _ _) y

theorem pay3 (v67 : FVec Ideal S1x1 .f32) (v83 : Vec Ideal S1x1 .f32) (y : S1x1.Idx) :
    k1_pay3 (F := Ideal) v67 v83 y = v83 y + v67 y := by
  unfold k1_pay3
  exact congrFun (shapeCast_self _ _) y

theorem pay4 (v91 v92 v94 v95 : Vec Ideal S1x1 .f32) (y : S1x1.Idx) :
    k1_pay4 (F := Ideal) v91 v92 v94 v95 y = Ideal.div (v91 y) (v92 y) + Ideal.div (v94 y) (v95 y) := rfl

theorem pay5 (y : S1x1.Idx) : k1_pay5 (F := Ideal) y = 0 := by
  unfold k1_pay5
  refine (congrFun (shapeCast_self _ _) y).trans ?_
  exact Ideal.ofBits_zero_f32

theorem pay6 (y : S1x1.Idx) : k1_pay6 (F := Ideal) y = 0 := by
  unfold k1_pay6
  refine (congrFun (shapeCast_self _ _) y).trans ?_
  exact Ideal.ofBits_zero_f32

theorem pay7 (y : S1x1.Idx) : k1_pay7 (F := Ideal) y = 0 := by
  unfold k1_pay7
  refine (congrFun (shapeCast_self _ _) y).trans ?_
  exact Ideal.ofBits_zero_f32

theorem pay8 (y : S1x1.Idx) : k1_pay8 (F := Ideal) y = 0 := by
  unfold k1_pay8
  refine (congrFun (shapeCast_self _ _) y).trans ?_
  exact Ideal.ofBits_zero_f32

/-- An integer equality test as a one-bit word. -/
theorem cmpi_eq_word (x y : BitVec 32) : IntOp.cmpi .eq x y = if x = y then 1#1 else 0#1 := by
  unfold IntOp.cmpi
  by_cases h : x = y
  · rw [if_pos h]; subst h; simp
  · rw [if_neg h, show (x == y) = false from beq_eq_false_iff_ne.mpr h]; rfl

/-- The match mask: row `i`'s identity against center `g`'s. -/
theorem pay10 (p22 : Vec Ideal S1x512 .i32) (p24 : Vec Ideal S512x1 .i32) (i g : Fin 512) :
    k1_pay10 (F := Ideal) p22 p24 (ix2 i g) = if p24 (ix2 i 0) = p22 (ix2 0 g) then 1#1 else 0#1 := by
  unfold k1_pay10
  show IntOp.cmpi .eq (broadcastTo S512x512 (shapeCast S512x1 p24 _) _ (ix2 i g))
      (broadcastTo S512x512 (shapeCast S1x512 p22 _) _ (ix2 i g)) = _
  rw [shapeCast_self, shapeCast_self]
  rw [broadcastTo_a1_ab_apply (a := 512) (b := 512) p24 _ i g, broadcastTo_1b_ab_apply (a := 512) (b := 512) p22 _ i g]
  exact cmpi_eq_word _ _

/-- "Center `g` lies in the second half" as the 32-bit word the kernel compares the row's half flag with. -/
theorem sge_word (g : Fin 512) :
    (IntOp.cmpi .sge (BitVec.ofNat 32 g.val) 256#32).setWidth 32 = if 256 ≤ g.val then 1#32 else 0#32 := by
  have hg := g.isLt
  have h1 : (BitVec.ofNat 32 g.val).toInt = (g.val : Int) := by
    rw [BitVec.toInt_eq_toNat_of_lt (by rw [BitVec.toNat_ofNat]; omega), BitVec.toNat_ofNat]; omega
  have h2 : (256#32 : BitVec 32).toInt = 256 := by decide
  show (BitVec.ofBool ((256#32 : BitVec 32).sle (BitVec.ofNat 32 g.val))).setWidth 32 = _
  unfold BitVec.sle
  rw [h1, h2]
  by_cases h : 256 ≤ g.val
  · rw [if_pos h, decide_eq_true (by omega)]; rfl
  · rw [if_neg h, decide_eq_false (by omega)]; rfl

/-- The conjunction of two one-bit tests. -/
theorem andi_ite (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]

/-- The selection mask: a match whose row's half flag equals "center in the second half". -/
theorem pay11 (p22 : Vec Ideal S1x512 .i32) (p24 r33 : Vec Ideal S512x1 .i32) (i g : Fin 512) :
    k1_pay11 (F := Ideal) p22 p24 r33 (ix2 i g)
      = if p24 (ix2 i 0) = p22 (ix2 0 g) ∧ r33 (ix2 i 0) = (if 256 ≤ g.val then 1#32 else 0#32) then 1#1 else 0#1 := by
  unfold k1_pay11
  show IntOp.andi (k1_pay10 (F := Ideal) p22 p24 (ix2 i g))
      (IntOp.cmpi .eq (broadcastTo S512x512 (shapeCast S512x1 r33 _) _ (ix2 i g))
        (broadcastTo S512x512 (extui 32 (cmpi .sge (iota .tc S1x512 32 [1] _) (broadcast S1x512 256#32)) _) _ (ix2 i g))) = _
  rw [pay10, shapeCast_self, broadcastTo_a1_ab_apply (a := 512) (b := 512) r33 _ i g,
    broadcastTo_1b_ab_apply (a := 512) (b := 512) _ _ i g]
  show IntOp.andi _ (IntOp.cmpi .eq (r33 (ix2 i 0))
      ((IntOp.cmpi .sge (iota .tc S1x512 32 [1] _ (ix2 (0 : Fin 1) g)) 256#32).setWidth 32)) = _
  rw [iota_single_apply]
  show IntOp.andi _ (IntOp.cmpi .eq (r33 (ix2 i 0)) ((IntOp.cmpi .sge (BitVec.ofNat 32 g.val) 256#32).setWidth 32)) = _
  rw [sge_word, cmpi_eq_word]
  exact andi_ite _ _

end Cert.KernelIdeal.PayValue

end
-- ==== Proof.PayIdealSums.lean ====
/-
  The four totals of the main kernel read at their one index: each is a two-stage sum of a 512 × 512 array (lane sums,
  then the sum of the column of lane sums), hence the double sum over the pairs of the array's element — a distance
  or a hinge under a mask's select, or a mask bit converted to a float.
-/
import proofs.«115993_j5600637353990_1_alg».proof.Proof.Gen.KernelIdeal.Skeleton
import proofs.«115993_j5600637353990_1_alg».proof.Proof.Spec
import proofs.«115993_j5600637353990_1_alg».proof.Proof.PayIdealBase

noncomputable section

namespace Cert.KernelIdeal.PayValue

open Cert.KernelIdeal Cert.KernelIdeal.Gen Idealize.ShloMosaic Idealize.ShloMosaic.ValueIdx

/-- A select on the complement of a bit takes the second operand where the bit is set. -/
theorem select_xori_one {α : Type} (b : BitVec 1) (x y : α) :
    Scalar.select (IntOp.xori b 1#1) x y = if b = 1#1 then y else x := by
  rcases BitVec.eq_zero_or_eq_one b with h | h <;> subst h <;> rfl

/-- The complement of a bit, zero-extended and converted: `0` where the bit is set, `1` where it is not. -/
theorem sitofp_extui_xori_one (b : BitVec 1) :
    (FloatOps.sitofp (F := Ideal) .f32 ((IntOp.xori b 1#1).setWidth 32) : EReal) = if b = 1#1 then 0 else 1 := by
  rw [sitofp_extui_bit]
  rcases BitVec.eq_zero_or_eq_one b with h | h <;> subst h <;> rfl

/-- The hinge total: over the pairs that are no match, the hinge of the distance. -/
theorem pay13 (v21 : FVec Ideal S512x512 .f32) (v28 : IVec S512x512 1) (y : S1x1.Idx) :
    k1_pay13 (F := Ideal) v21 v28 y
      = ∑ i : Fin 512, ∑ g : Fin 512, if v28 (ix2 i g) = 1#1 then 0 else Cert.Spec.hingeOf (v21 (ix2 i g)) := by
  unfold k1_pay13
  refine (two_stage_sum (a := 512) (b := 512) _ _ _ _ _ _ _ _ _ y).trans ?_
  refine Finset.sum_congr rfl fun i _ => Finset.sum_congr rfl fun g _ => ?_
  show Scalar.select (IntOp.xori (v28 (ix2 i g)) 1#1)
      (max (Ideal.ofBits .f32 0x3F19999A#32 - v21 (ix2 i g)) (Ideal.ofBits .f32 0x00000000#32))
      (Ideal.ofBits .f32 0x00000000#32) = _
  rw [select_xori_one, Ideal.ofBits_zero_f32]
  rfl

/-- The count of the pairs that are no match. -/
theorem pay14 (v28 : IVec S512x512 1) (y : S1x1.Idx) :
    k1_pay14 (F := Ideal) v28 y = ∑ i : Fin 512, ∑ g : Fin 512, if v28 (ix2 i g) = 1#1 then (0 : EReal) else 1 := by
  unfold k1_pay14
  refine (two_stage_sum (a := 512) (b := 512) _ _ _ _ _ _ _ _ _ y).trans ?_
  refine Finset.sum_congr rfl fun i _ => Finset.sum_congr rfl fun g _ => ?_
  exact sitofp_extui_xori_one (v28 (ix2 i g))

/-- The running total of the selected pairs' distances, after this block. -/
theorem pay15 (v21 : FVec Ideal S512x512 .f32) (v38 : IVec S512x512 1) (v68 : Vec Ideal S1x1 .f32) (y : S1x1.Idx) :
    k1_pay15 (F := Ideal) v21 v38 v68 y
      = v68 y + ∑ i : Fin 512, ∑ g : Fin 512, if v38 (ix2 i g) = 1#1 then v21 (ix2 i g) else 0 := by
  unfold k1_pay15
  refine (congrFun (shapeCast_self _ _) y).trans ?_
  refine congrArg (v68 y + ·) ?_
  refine (two_stage_sum (a := 512) (b := 512) _ _ _ _ _ _ _ _ _ y).trans ?_
  refine Finset.sum_congr rfl fun i _ => Finset.sum_congr rfl fun g _ => ?_
  show (if v38 (ix2 i g) = 1#1 then v21 (ix2 i g) else Ideal.ofBits .f32 0x00000000#32) = _
  rw [Ideal.ofBits_zero_f32]

/-- The running count of the selected pairs, after this block. -/
theorem pay16 (v38 : IVec S512x512 1) (v73 : Vec Ideal S1x1 .f32) (y : S1x1.Idx) :
    k1_pay16 (F := Ideal) v38 v73 y
      = v73 y + ∑ i : Fin 512, ∑ g : Fin 512, if v38 (ix2 i g) = 1#1 then (1 : EReal) else 0 := by
  unfold k1_pay16
  refine congrArg (v73 y + ·) ?_
  refine (two_stage_sum (a := 512) (b := 512) _ _ _ _ _ _ _ _ _ y).trans ?_
  refine Finset.sum_congr rfl fun i _ => Finset.sum_congr rfl fun g _ => ?_
  exact sitofp_extui_bit (v38 (ix2 i g))

end Cert.KernelIdeal.PayValue

end
-- ==== Proof.PayIdealDist.lean ====
/-
  The main kernel's distance payload read at an index: the row's squared norm (a lane sum of squares, kept as a
  column and broadcast along the centers), plus the center's squared norm (a row broadcast along the rows), minus
  twice the inner product (the matrix product contracting the feature axis of both operands, into a zero
  accumulator), floored at ε, under the root.
-/
import proofs.«115993_j5600637353990_1_alg».proof.Proof.Gen.KernelIdeal.Skeleton
import proofs.«115993_j5600637353990_1_alg».proof.Proof.Spec
import proofs.«115993_j5600637353990_1_alg».proof.Proof.PayIdealBase

noncomputable section

namespace Cert.KernelIdeal.PayValue

open Cert.KernelIdeal Cert.KernelIdeal.Gen Idealize.ShloMosaic Idealize.ShloMosaic.ValueIdx

/-! ## The operand indices of the product that contracts the last axis of both operands -/

theorem dist_lhs_0 (j : S512x512.Idx) (q : dot_S512x4096_S512x4096_S512x512_1_1_0_0_n_n.contr.Idx) :
    (dot_S512x4096_S512x4096_S512x512_1_1_0_0_n_n.lhsIdx j q 0).val = (j 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl

theorem dist_lhs_1 (j : S512x512.Idx) (q : dot_S512x4096_S512x4096_S512x512_1_1_0_0_n_n.contr.Idx) :
    (dot_S512x4096_S512x4096_S512x512_1_1_0_0_n_n.lhsIdx j q 1).val = (q ⟨0, by decide⟩).val :=
  dot_S512x4096_S512x4096_S512x512_1_1_0_0_n_n.lhsIdx_val_of_single rfl j q

theorem dist_rhs_0 (j : S512x512.Idx) (q : dot_S512x4096_S512x4096_S512x512_1_1_0_0_n_n.contr.Idx) :
    (dot_S512x4096_S512x4096_S512x512_1_1_0_0_n_n.rhsIdx j q 0).val = (j 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl

theorem dist_rhs_1 (j : S512x512.Idx) (q : dot_S512x4096_S512x4096_S512x512_1_1_0_0_n_n.contr.Idx) :
    (dot_S512x4096_S512x4096_S512x512_1_1_0_0_n_n.rhsIdx j q 1).val = (q ⟨0, by decide⟩).val :=
  dot_S512x4096_S512x4096_S512x512_1_1_0_0_n_n.rhsIdx_val_of_single rfl j q

/-- The product into the zero accumulator, at `(i, g)`: the sum over the features of row `i` of the left operand
    times row `g` of the right. -/
theorem matmul_read (L R : FVec Ideal S512x4096 .bf16) (i g : Fin 512) :
    matmul dot_S512x4096_S512x4096_S512x512_1_1_0_0_n_n none L R (constant S512x512 .f32 0x00000000#32) (ix2 i g)
      = ∑ k : Fin 4096, L (ix2 i k) * R (ix2 g k) := by
  show FloatOps.matmul dot_S512x4096_S512x4096_S512x512_1_1_0_0_n_n none L R (constant S512x512 .f32 0x00000000#32) (ix2 i g) = _
  rw [Ideal.matmul_constant_zero_apply, ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 i g) ((contrEquiv1 dot_S512x4096_S512x4096_S512x512_1_1_0_0_n_n 4096 rfl rfl).symm k) = ix2 i k :=
    funext fun a => Fin.ext (by
      match a with
      | ⟨0, _⟩ => exact dist_lhs_0 _ _
      | ⟨1, _⟩ => exact (dist_lhs_1 _ _).trans hk)
  have er : dot_S512x4096_S512x4096_S512x512_1_1_0_0_n_n.rhsIdx (ix2 i g) ((contrEquiv1 dot_S512x4096_S512x4096_S512x512_1_1_0_0_n_n 4096 rfl rfl).symm k) = ix2 g k :=
    funext fun a => Fin.ext (by
      match a with
      | ⟨0, _⟩ => exact dist_rhs_0 _ _
      | ⟨1, _⟩ => exact (dist_rhs_1 _ _).trans hk)
  rw [el, er]

/-- The distance of row `i` of the block to center `g`. -/
theorem pay9 (x3 : Vec Ideal S512x4096 .f32) (h8 : Vec Ideal S512x4096 .bf16) (n11 : Vec Ideal S1x512 .f32) (i g : Fin 512) :
    k1_pay9 (F := Ideal) x3 h8 n11 (ix2 i g)
      = Cert.Spec.distOf (∑ k : Fin 4096, x3 (ix2 i k) * x3 (ix2 i k)) (n11 (ix2 0 g))
          (∑ k : Fin 4096, x3 (ix2 i k) * h8 (ix2 g k)) := by
  unfold k1_pay9
  show Cert.Spec.distOf
      (broadcastTo S512x512 (shapeCast S512x1
        (multiReduction (F := Ideal) (φ := .f32) .add [1] S512 (mulf x3 x3) 0x00000000#32 _ _ _) _) _ (ix2 i g))
      (broadcastTo S512x512 (shapeCast S1x512 n11 _) _ (ix2 i g))
      (matmul dot_S512x4096_S512x4096_S512x512_1_1_0_0_n_n none (truncf (F := Ideal) .bf16 x3 _) (shapeCast S512x4096 h8 _)
        (constant S512x512 .f32 0x00000000#32) (ix2 i g)) = _
  have hA : broadcastTo S512x512 (shapeCast S512x1
        (multiReduction (F := Ideal) (φ := .f32) .add [1] S512 (mulf x3 x3) 0x00000000#32
          reduces_S512x4096_S512 (.inl rfl) rfl) shapeCasts_S512_S512x1) broadcasts_S512x1_S512x512 (ix2 i g)
      = ∑ k : Fin 4096, x3 (ix2 i k) * x3 (ix2 i k) := by
    refine (broadcastTo_a1_ab_apply (a := 512) (b := 512) _ _ i g).trans ?_
    refine (shapeCast_a_a1_apply (a := 512) _ _ i 0).trans ?_
    exact sum_lanes (a := 512) (b := 4096) (mulf x3 x3) _ _ _ i
  have hB : broadcastTo S512x512 (shapeCast S1x512 n11 shapeCasts_S1x512_S1x512) broadcasts_S1x512_S512x512 (ix2 i g)
      = n11 (ix2 0 g) := by
    rw [shapeCast_self]
    exact broadcastTo_1b_ab_apply (a := 512) (b := 512) n11 _ i g
  have hC : matmul (F := Ideal) (φ₁ := .bf16) (φ₂ := .bf16) dot_S512x4096_S512x4096_S512x512_1_1_0_0_n_n none (truncf (F := Ideal) .bf16 x3 bitsLt_bf16_f32)
        (shapeCast S512x4096 (h8 : FVec Ideal S512x4096 .bf16) shapeCasts_S512x4096_S512x4096) (constant S512x512 .f32 0x00000000#32) (ix2 i g)
      = ∑ k : Fin 4096, x3 (ix2 i k) * h8 (ix2 g k) := by
    rw [shapeCast_self]
    exact matmul_read _ _ i g
  rw [hA, hB, hC]

end Cert.KernelIdeal.PayValue

end
-- ==== Proof.PayIdeal.lean ====
/-
  The idealized kernel's payloads, each read at an index as a formula on the extended reals: the center kernel's
  mean of sixteen rows, and the main kernel's distance, its two integer masks, its four totals and its scalar
  stores.
-/
import proofs.«115993_j5600637353990_1_alg».proof.Proof.PayIdealBase
import proofs.«115993_j5600637353990_1_alg».proof.Proof.PayIdealSmall
import proofs.«115993_j5600637353990_1_alg».proof.Proof.PayIdealCenter
import proofs.«115993_j5600637353990_1_alg».proof.Proof.PayIdealSums
import proofs.«115993_j5600637353990_1_alg».proof.Proof.PayIdealDist
-- ==== Proof.KI.AccPoint.lean ====
/-
  One block of 512 rows: its four partial totals as functions of the rows, the centers, the centers' squared norms
  and the three integer columns — the selected pairs' distances and their count, the non-matching pairs' hinges and
  their count — and what the body's arithmetic makes of an accumulator's earlier value: that value plus the block's
  partial total.
-/
import proofs.«115993_j5600637353990_1_alg».proof.Proof.PayIdeal

noncomputable section

namespace Cert.KernelIdeal.AccValue

open Cert.KernelIdeal Cert.KernelIdeal.Gen Idealize.ShloMosaic Idealize.ShloMosaic.ValueIdx
open Cert.KernelIdeal.PayValue

/-- The distance of row `i` of a block to center `g`. -/
def bDist (A0 A1 : Fin 512 → Fin 4096 → EReal) (A2 : Fin 512 → EReal) (i g : Fin 512) : EReal :=
  Cert.Spec.distOf (∑ k : Fin 4096, A0 i k * A0 i k) (A2 g) (∑ k : Fin 4096, A0 i k * A1 g k)

/-- A block's total of the selected pairs' distances. -/
def tot0 (A0 A1 : Fin 512 → Fin 4096 → EReal) (A2 : Fin 512 → EReal) (I3 I4 I5 : Fin 512 → BitVec 32) : EReal :=
  ∑ i : Fin 512, ∑ g : Fin 512,
    if I4 i = I3 g ∧ I5 i = (if 256 ≤ g.val then 1#32 else 0#32) then bDist A0 A1 A2 i g else 0

/-- A block's count of the selected pairs. -/
def tot1 (I3 I4 I5 : Fin 512 → BitVec 32) : EReal :=
  ∑ i : Fin 512, ∑ g : Fin 512,
    if I4 i = I3 g ∧ I5 i = (if 256 ≤ g.val then 1#32 else 0#32) then (1 : EReal) else 0

/-- A block's total of the hinges over the pairs that are no match. -/
def tot2 (A0 A1 : Fin 512 → Fin 4096 → EReal) (A2 : Fin 512 → EReal) (I3 I4 : Fin 512 → BitVec 32) : EReal :=
  ∑ i : Fin 512, ∑ g : Fin 512, if I4 i = I3 g then 0 else Cert.Spec.hingeOf (bDist A0 A1 A2 i g)

/-- A block's count of the pairs that are no match. -/
def tot3 (I3 I4 : Fin 512 → BitVec 32) : EReal :=
  ∑ i : Fin 512, ∑ g : Fin 512, if I4 i = I3 g then (0 : EReal) else 1

/-- A choice on a decided bit is the choice on what decides it. -/
theorem ite_bit {α : Type} (P : Prop) [Decidable P] (a b : α) :
    (if (if P then 1#1 else 0#1 : BitVec 1) = 1#1 then a else b) = if P then a else b := by
  by_cases h : P <;> simp [h]

section
variable (x0 : Vec Ideal S512x4096 .f32) (x1 : Vec Ideal S512x4096 .bf16) (x2 : Vec Ideal S1x512 .f32)
    (x3 : Vec Ideal S1x512 .i32) (x4 x5 : Vec Ideal S512x1 .i32)
    (A0 A1 : Fin 512 → Fin 4096 → EReal) (A2 : Fin 512 → EReal) (I3 I4 I5 : Fin 512 → BitVec 32)
    (h0 : ∀ i k, x0 (ix2 i k) = A0 i k) (h1 : ∀ g k, x1 (ix2 g k) = A1 g k) (h2 : ∀ g, x2 (ix2 0 g) = A2 g)
    (h3 : ∀ g, x3 (ix2 0 g) = I3 g) (h4 : ∀ i, x4 (ix2 i 0) = I4 i) (h5 : ∀ i, x5 (ix2 i 0) = I5 i)
include h0 h1 h2 h3 h4 h5

theorem dist_at (i g : Fin 512) : k1_pay9 (F := Ideal) x0 x1 x2 (ix2 i g) = bDist A0 A1 A2 i g := by
  rw [pay9]
  unfold bDist
  simp only [h0, h1, h2]

theorem match_at (i g : Fin 512) :
    k1_pay10 (F := Ideal) x3 x4 (ix2 i g) = if I4 i = I3 g then 1#1 else 0#1 := by
  rw [pay10, h4, h3]

theorem sel_at (i g : Fin 512) :
    k1_pay11 (F := Ideal) x3 x4 x5 (ix2 i g)
      = if I4 i = I3 g ∧ I5 i = (if 256 ≤ g.val then 1#32 else 0#32) then 1#1 else 0#1 := by
  rw [pay11, h4, h3, h5]

/-- The total of the selected distances grows by the block's. -/
theorem new0 (old : Vec Ideal S1x1 .f32) (y : S1x1.Idx) :
    k1_pay15 (F := Ideal) (k1_pay9 x0 x1 x2) (k1_pay11 x3 x4 x5) old y = old y + tot0 A0 A1 A2 I3 I4 I5 := by
  rw [pay15]
  unfold tot0
  refine congrArg (old y + ·) (Finset.sum_congr rfl fun i _ => Finset.sum_congr rfl fun g _ => ?_)
  rw [sel_at x0 x1 x2 x3 x4 x5 A0 A1 A2 I3 I4 I5 h0 h1 h2 h3 h4 h5 i g,
    dist_at x0 x1 x2 x3 x4 x5 A0 A1 A2 I3 I4 I5 h0 h1 h2 h3 h4 h5 i g, ite_bit]

/-- The count of the selected pairs grows by the block's. -/
theorem new1 (old : Vec Ideal S1x1 .f32) (y : S1x1.Idx) :
    k1_pay1 (F := Ideal) (k1_pay16 (k1_pay11 x3 x4 x5) old) y = old y + tot1 I3 I4 I5 := by
  rw [pay1, pay16]
  unfold tot1
  refine congrArg (old y + ·) (Finset.sum_congr rfl fun i _ => Finset.sum_congr rfl fun g _ => ?_)
  rw [sel_at x0 x1 x2 x3 x4 x5 A0 A1 A2 I3 I4 I5 h0 h1 h2 h3 h4 h5 i g, ite_bit]

/-- The total of the hinges grows by the block's. -/
theorem new2 (old : Vec Ideal S1x1 .f32) (y : S1x1.Idx) :
    k1_pay2 (F := Ideal) (k1_pay13 (k1_pay9 x0 x1 x2) (k1_pay10 x3 x4)) old y = old y + tot2 A0 A1 A2 I3 I4 := by
  rw [pay2, pay13]
  unfold tot2
  refine congrArg (old y + ·) (Finset.sum_congr rfl fun i _ => Finset.sum_congr rfl fun g _ => ?_)
  rw [match_at x0 x1 x2 x3 x4 x5 A0 A1 A2 I3 I4 I5 h0 h1 h2 h3 h4 h5 i g,
    dist_at x0 x1 x2 x3 x4 x5 A0 A1 A2 I3 I4 I5 h0 h1 h2 h3 h4 h5 i g, ite_bit]

/-- The count of the pairs that are no match grows by the block's. -/
theorem new3 (old : Vec Ideal S1x1 .f32) (y : S1x1.Idx) :
    k1_pay3 (F := Ideal) (k1_pay14 (k1_pay10 x3 x4)) old y = old y + tot3 I3 I4 := by
  rw [pay3, pay14]
  unfold tot3
  refine congrArg (old y + ·) (Finset.sum_congr rfl fun i _ => Finset.sum_congr rfl fun g _ => ?_)
  rw [match_at x0 x1 x2 x3 x4 x5 A0 A1 A2 I3 I4 I5 h0 h1 h2 h3 h4 h5 i g, ite_bit]

end

end Cert.KernelIdeal.AccValue

end
-- ==== Proof.KI.AccBlocks.lean ====
/-
  Each input block of the loss accumulation read at an index: block `t` of the rows and of the two per-row integer
  columns is rows `512·t … 512·t + 511` of its array; the centers, their squared norms and their identities are read
  whole at every block.
-/
import proofs.«115993_j5600637353990_1_alg».proof.Proof.KI.R1Defs
import proofs.«115993_j5600637353990_1_alg».proof.Proof.Spec
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.AccValue
open Cert.KernelIdeal Cert.KernelIdeal.Gen Cert.KernelIdeal.Hand
open Idealize.ShloMosaic Idealize.ShloMosaic.TcCoe Idealize.ShloMosaic.Tactic
open Idealize.SL.Sem
variable {F : FTy → Type} [FloatOps F]

open Idealize.ShloMosaic.ValueIdx

variable (V : (c : Dev nD) → (b : Ref sig .tc) → Buf (Elt F) ((c : Thread nD τ).loc b))

/-- The grid of the loss accumulation has sixteen points. -/
theorem hN1 : cfg1.N = 16 := N_1

theorem idx1_0 : ∀ t : Fin cfg1.N, win1_0.index t 0 = t.val ∧ win1_0.index t 1 = 0 :=
  (by decide +kernel : ∀ t : Fin grid1.N, win1_0.index t 0 = t.val ∧ win1_0.index t 1 = 0)

theorem blk0 (c : Dev nD) (t : Fin cfg1.N) (i : Fin 512) (k : Fin 4096) :
    (iblk1 V c 0 t : Vec F S512x4096 .f32) (ix2 i k)
      = (V c main_arg0 : Vec F S8192x4096 .f32) (ix2 (Cert.Spec.tileRow (t.cast hN1) i) k) := by
  unfold iblk1
  rw [View.read_apply]
  show V c main_arg0 _ = V c main_arg0 _
  refine congrArg (V c main_arg0) (funext fun a => Fin.ext ?_)
  match a with
  | ⟨0, _⟩ =>
    show win1_0.index t 0 * 512 + 1 * i.val = 512 * t.val + i.val
    rw [(idx1_0 t).1]; omega
  | ⟨1, _⟩ =>
    show win1_0.index t 1 * 4096 + 1 * k.val = k.val
    rw [(idx1_0 t).2]; omega

theorem idx1_1 : ∀ t : Fin cfg1.N, win1_1.index t 0 = 0 ∧ win1_1.index t 1 = 0 :=
  (by decide +kernel : ∀ t : Fin grid1.N, win1_1.index t 0 = 0 ∧ win1_1.index t 1 = 0)

theorem blk1 (c : Dev nD) (t : Fin cfg1.N) (g : Fin 512) (k : Fin 4096) :
    (iblk1 V c 1 t : Vec F S512x4096 .bf16) (ix2 g k)
      = (V c main_v2 : Vec F S512x4096 .bf16) (ix2 g k) := by
  unfold iblk1
  rw [View.read_apply]
  show V c main_v2 _ = V c main_v2 _
  refine congrArg (V c main_v2) (funext fun a => Fin.ext ?_)
  match a with
  | ⟨0, _⟩ =>
    show win1_1.index t 0 * 512 + 1 * g.val = g.val
    rw [(idx1_1 t).1]; omega
  | ⟨1, _⟩ =>
    show win1_1.index t 1 * 4096 + 1 * k.val = k.val
    rw [(idx1_1 t).2]; omega

theorem idx1_2 : ∀ t : Fin cfg1.N, win1_2.index t 0 = 0 ∧ win1_2.index t 1 = 0 :=
  (by decide +kernel : ∀ t : Fin grid1.N, win1_2.index t 0 = 0 ∧ win1_2.index t 1 = 0)

theorem blk2 (c : Dev nD) (t : Fin cfg1.N) (u : Fin 1) (g : Fin 512) :
    (iblk1 V c 2 t : Vec F S1x512 .f32) (ix2 u g)
      = (V c main_v6 : Vec F S1x512 .f32) (ix2 u g) := by
  unfold iblk1
  rw [View.read_apply]
  show V c main_v6 _ = V c main_v6 _
  refine congrArg (V c main_v6) (funext fun a => Fin.ext ?_)
  match a with
  | ⟨0, _⟩ =>
    show win1_2.index t 0 * 1 + 1 * u.val = u.val
    rw [(idx1_2 t).1]; omega
  | ⟨1, _⟩ =>
    show win1_2.index t 1 * 512 + 1 * g.val = g.val
    rw [(idx1_2 t).2]; omega

theorem idx1_3 : ∀ t : Fin cfg1.N, win1_3.index t 0 = 0 ∧ win1_3.index t 1 = 0 :=
  (by decide +kernel : ∀ t : Fin grid1.N, win1_3.index t 0 = 0 ∧ win1_3.index t 1 = 0)

theorem blk3 (c : Dev nD) (t : Fin cfg1.N) (u : Fin 1) (g : Fin 512) :
    (iblk1 V c 3 t : Vec F S1x512 .i32) (ix2 u g)
      = (V c main_v10 : Vec F S1x512 .i32) (ix2 u g) := by
  unfold iblk1
  rw [View.read_apply]
  show V c main_v10 _ = V c main_v10 _
  refine congrArg (V c main_v10) (funext fun a => Fin.ext ?_)
  match a with
  | ⟨0, _⟩ =>
    show win1_3.index t 0 * 1 + 1 * u.val = u.val
    rw [(idx1_3 t).1]; omega
  | ⟨1, _⟩ =>
    show win1_3.index t 1 * 512 + 1 * g.val = g.val
    rw [(idx1_3 t).2]; omega

theorem idx1_4 : ∀ t : Fin cfg1.N, win1_4.index t 0 = t.val ∧ win1_4.index t 1 = 0 :=
  (by decide +kernel : ∀ t : Fin grid1.N, win1_4.index t 0 = t.val ∧ win1_4.index t 1 = 0)

theorem blk4 (c : Dev nD) (t : Fin cfg1.N) (i : Fin 512) (u : Fin 1) :
    (iblk1 V c 4 t : Vec F S512x1 .i32) (ix2 i u)
      = (V c main_v11 : Vec F S8192x1 .i32) (ix2 (Cert.Spec.tileRow (t.cast hN1) i) u) := by
  unfold iblk1
  rw [View.read_apply]
  show V c main_v11 _ = V c main_v11 _
  refine congrArg (V c main_v11) (funext fun a => Fin.ext ?_)
  match a with
  | ⟨0, _⟩ =>
    show win1_4.index t 0 * 512 + 1 * i.val = 512 * t.val + i.val
    rw [(idx1_4 t).1]; omega
  | ⟨1, _⟩ =>
    show win1_4.index t 1 * 1 + 1 * u.val = u.val
    rw [(idx1_4 t).2]; omega

theorem idx1_5 : ∀ t : Fin cfg1.N, win1_5.index t 0 = t.val ∧ win1_5.index t 1 = 0 :=
  (by decide +kernel : ∀ t : Fin grid1.N, win1_5.index t 0 = t.val ∧ win1_5.index t 1 = 0)

theorem blk5 (c : Dev nD) (t : Fin cfg1.N) (i : Fin 512) (u : Fin 1) :
    (iblk1 V c 5 t : Vec F S512x1 .i32) (ix2 i u)
      = (V c main_v16 : Vec F S8192x1 .i32) (ix2 (Cert.Spec.tileRow (t.cast hN1) i) u) := by
  unfold iblk1
  rw [View.read_apply]
  show V c main_v16 _ = V c main_v16 _
  refine congrArg (V c main_v16) (funext fun a => Fin.ext ?_)
  match a with
  | ⟨0, _⟩ =>
    show win1_5.index t 0 * 512 + 1 * i.val = 512 * t.val + i.val
    rw [(idx1_5 t).1]; omega
  | ⟨1, _⟩ =>
    show win1_5.index t 1 * 1 + 1 * u.val = u.val
    rw [(idx1_5 t).2]; omega

end Cert.KernelIdeal.AccValue

end
-- ==== Proof.KI.AccValue.lean ====
/-
  The loss accumulation over the sixteen blocks of rows, at the ideal values: after block `n` each of the four
  accumulators holds the sum, over the blocks up to `n`, of that block's partial total (addition on the extended
  reals is commutative and associative, so no finiteness is used), and after the last block the output holds the
  quotient of the selected pairs' total distance by their count plus the quotient of the hinge total over the pairs
  that are no match by their count — every total a sum over all sixteen blocks, all rows of a block and all centers.
-/
import proofs.«115993_j5600637353990_1_alg».proof.Proof.KI.AccStep
import proofs.«115993_j5600637353990_1_alg».proof.Proof.KI.AccPoint
import proofs.«115993_j5600637353990_1_alg».proof.Proof.KI.AccBlocks
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.AccValue
open Cert.KernelIdeal Cert.KernelIdeal.Gen Cert.KernelIdeal.Hand Cert.KernelIdeal.PayValue
open Idealize.ShloMosaic Idealize.ShloMosaic.TcCoe Idealize.ShloMosaic.Tactic Idealize.ShloMosaic.ValueIdx
open Idealize.SL.Sem

variable (V : (c : Dev nD) → (b : Ref sig .tc) → Buf (Elt Ideal) ((c : Thread nD τ).loc b)) (c : Dev nD)

/-! ## The arrays as the region finds them, by rows, centers and columns -/

/-- Feature `k` of row `512·t + i`. -/
def rowsA (t : Fin 16) (i : Fin 512) (k : Fin 4096) : EReal :=
  (V c main_arg0 : Vec Ideal S8192x4096 .f32) (ix2 (Cert.Spec.tileRow t i) k)
/-- Feature `k` of center `g`. -/
def cenA (g : Fin 512) (k : Fin 4096) : EReal := (V c main_v2 : Vec Ideal S512x4096 .bf16) (ix2 g k)
/-- The squared norm of center `g`. -/
def ncA (g : Fin 512) : EReal := (V c main_v6 : Vec Ideal S1x512 .f32) (ix2 0 g)
/-- The identity of center `g`. -/
def cidA (g : Fin 512) : BitVec 32 := (V c main_v10 : Vec Ideal S1x512 .i32) (ix2 0 g)
/-- The identity of row `512·t + i`. -/
def ridA (t : Fin 16) (i : Fin 512) : BitVec 32 := (V c main_v11 : Vec Ideal S8192x1 .i32) (ix2 (Cert.Spec.tileRow t i) 0)
/-- The half flag of row `512·t + i`. -/
def halfA (t : Fin 16) (i : Fin 512) : BitVec 32 := (V c main_v16 : Vec Ideal S8192x1 .i32) (ix2 (Cert.Spec.tileRow t i) 0)

/-- The distance of row `512·t + i` to center `g`. -/
def D (t : Fin 16) (i g : Fin 512) : EReal := bDist (rowsA V c t) (cenA V c) (ncA V c) i g
/-- Row `512·t + i` and center `g` carry the same identity. -/
abbrev M (t : Fin 16) (i g : Fin 512) : Prop := ridA V c t i = cidA V c g
/-- The row's half flag says "center in the second half". -/
abbrev Rf (t : Fin 16) (i g : Fin 512) : Prop := halfA V c t i = (if 256 ≤ g.val then 1#32 else 0#32)

/-- The distance written out over the rows, the centers and the centers' squared norms. -/
theorem D_eq (t : Fin 16) (i g : Fin 512) :
    D V c t i g = Cert.Spec.distOf (∑ k : Fin 4096, rowsA V c t i k * rowsA V c t i k) (ncA V c g)
      (∑ k : Fin 4096, rowsA V c t i k * cenA V c g k) := rfl

/-! ## A block's partial totals, indexed by the position of the block -/

def T0 (m : ℕ) : EReal := if h : m < 16 then tot0 (rowsA V c ⟨m, h⟩) (cenA V c) (ncA V c) (cidA V c) (ridA V c ⟨m, h⟩) (halfA V c ⟨m, h⟩) else 0

def T1 (m : ℕ) : EReal := if h : m < 16 then tot1 (cidA V c) (ridA V c ⟨m, h⟩) (halfA V c ⟨m, h⟩) else 0

def T2 (m : ℕ) : EReal := if h : m < 16 then tot2 (rowsA V c ⟨m, h⟩) (cenA V c) (ncA V c) (cidA V c) (ridA V c ⟨m, h⟩) else 0

def T3 (m : ℕ) : EReal := if h : m < 16 then tot3 (cidA V c) (ridA V c ⟨m, h⟩) else 0

/-! ## One point: each accumulator grows by the block's partial total -/

theorem step0 (t : Fin cfg1.N) (old : Vec Ideal S1x1 .f32) (y : S1x1.Idx) :
    k1_pay15 (F := Ideal) (k1_pay9 (iblk1 V c 0 t) (iblk1 V c 1 t) (iblk1 V c 2 t)) (k1_pay11 (iblk1 V c 3 t) (iblk1 V c 4 t) (iblk1 V c 5 t)) old y = old y + T0 V c t.val := by
  have ht : t.val < 16 := lt_of_lt_of_eq t.isLt hN1
  unfold T0
  rw [dif_pos ht]
  exact new0 (iblk1 V c 0 t) (iblk1 V c 1 t) (iblk1 V c 2 t) (iblk1 V c 3 t) (iblk1 V c 4 t) (iblk1 V c 5 t) (rowsA V c ⟨t.val, ht⟩) (cenA V c) (ncA V c) (cidA V c) (ridA V c ⟨t.val, ht⟩) (halfA V c ⟨t.val, ht⟩) (fun i k => blk0 V c t i k) (fun g k => blk1 V c t g k) (fun g => blk2 V c t 0 g) (fun g => blk3 V c t 0 g) (fun i => blk4 V c t i 0) (fun i => blk5 V c t i 0) old y

theorem step1 (t : Fin cfg1.N) (old : Vec Ideal S1x1 .f32) (y : S1x1.Idx) :
    k1_pay1 (F := Ideal) (k1_pay16 (k1_pay11 (iblk1 V c 3 t) (iblk1 V c 4 t) (iblk1 V c 5 t)) old) y = old y + T1 V c t.val := by
  have ht : t.val < 16 := lt_of_lt_of_eq t.isLt hN1
  unfold T1
  rw [dif_pos ht]
  exact new1 (iblk1 V c 0 t) (iblk1 V c 1 t) (iblk1 V c 2 t) (iblk1 V c 3 t) (iblk1 V c 4 t) (iblk1 V c 5 t) (rowsA V c ⟨t.val, ht⟩) (cenA V c) (ncA V c) (cidA V c) (ridA V c ⟨t.val, ht⟩) (halfA V c ⟨t.val, ht⟩) (fun i k => blk0 V c t i k) (fun g k => blk1 V c t g k) (fun g => blk2 V c t 0 g) (fun g => blk3 V c t 0 g) (fun i => blk4 V c t i 0) (fun i => blk5 V c t i 0) old y

theorem step2 (t : Fin cfg1.N) (old : Vec Ideal S1x1 .f32) (y : S1x1.Idx) :
    k1_pay2 (F := Ideal) (k1_pay13 (k1_pay9 (iblk1 V c 0 t) (iblk1 V c 1 t) (iblk1 V c 2 t)) (k1_pay10 (iblk1 V c 3 t) (iblk1 V c 4 t))) old y = old y + T2 V c t.val := by
  have ht : t.val < 16 := lt_of_lt_of_eq t.isLt hN1
  unfold T2
  rw [dif_pos ht]
  exact new2 (iblk1 V c 0 t) (iblk1 V c 1 t) (iblk1 V c 2 t) (iblk1 V c 3 t) (iblk1 V c 4 t) (iblk1 V c 5 t) (rowsA V c ⟨t.val, ht⟩) (cenA V c) (ncA V c) (cidA V c) (ridA V c ⟨t.val, ht⟩) (halfA V c ⟨t.val, ht⟩) (fun i k => blk0 V c t i k) (fun g k => blk1 V c t g k) (fun g => blk2 V c t 0 g) (fun g => blk3 V c t 0 g) (fun i => blk4 V c t i 0) (fun i => blk5 V c t i 0) old y

theorem step3 (t : Fin cfg1.N) (old : Vec Ideal S1x1 .f32) (y : S1x1.Idx) :
    k1_pay3 (F := Ideal) (k1_pay14 (k1_pay10 (iblk1 V c 3 t) (iblk1 V c 4 t))) old y = old y + T3 V c t.val := by
  have ht : t.val < 16 := lt_of_lt_of_eq t.isLt hN1
  unfold T3
  rw [dif_pos ht]
  exact new3 (iblk1 V c 0 t) (iblk1 V c 1 t) (iblk1 V c 2 t) (iblk1 V c 3 t) (iblk1 V c 4 t) (iblk1 V c 5 t) (rowsA V c ⟨t.val, ht⟩) (cenA V c) (ncA V c) (cidA V c) (ridA V c ⟨t.val, ht⟩) (halfA V c ⟨t.val, ht⟩) (fun i k => blk0 V c t i k) (fun g k => blk1 V c t g k) (fun g => blk2 V c t 0 g) (fun g => blk3 V c t 0 g) (fun i => blk4 V c t i 0) (fun i => blk5 V c t i 0) old y

/-! ## The invariant: after block `n`, the sums over the blocks up to `n` -/

theorem accs : ∀ (n : ℕ) (hn : n < cfg1.N) (y : S1x1.Idx),
    (outsAt1 V c n hn).2.1 y = ∑ m ∈ Finset.range (n + 1), T0 V c m
    ∧ (outsAt1 V c n hn).2.2.1 y = ∑ m ∈ Finset.range (n + 1), T1 V c m
    ∧ (outsAt1 V c n hn).2.2.2.1 y = ∑ m ∈ Finset.range (n + 1), T2 V c m
    ∧ (outsAt1 V c n hn).2.2.2.2 y = ∑ m ∈ Finset.range (n + 1), T3 V c m
  | 0, hn, y => by
    have hA0 : (⟨0, hn⟩ : Fin cfg1.N).val % 16 = 0 := rfl
    have hA1 : ¬(⟨0, hn⟩ : Fin cfg1.N).val % 16 = 15 := by dsimp only; omega
    refine ⟨?_, ?_, ?_, ?_⟩
    · refine (congrFun (accA_0 V c ⟨0, hn⟩ hA0 hA1) y).trans ?_
      refine (step0 V c ⟨0, hn⟩ _ y).trans ?_
      rw [pay5, zero_add]
      exact (Finset.sum_range_one _).symm
    · refine (congrFun (accA_1 V c ⟨0, hn⟩ hA0 hA1) y).trans ?_
      refine (step1 V c ⟨0, hn⟩ _ y).trans ?_
      rw [pay6, zero_add]
      exact (Finset.sum_range_one _).symm
    · refine (congrFun (accA_2 V c ⟨0, hn⟩ hA0 hA1) y).trans ?_
      refine (step2 V c ⟨0, hn⟩ _ y).trans ?_
      rw [pay7, zero_add]
      exact (Finset.sum_range_one _).symm
    · refine (congrFun (accA_3 V c ⟨0, hn⟩ hA0 hA1) y).trans ?_
      refine (step3 V c ⟨0, hn⟩ _ y).trans ?_
      rw [pay8, zero_add]
      exact (Finset.sum_range_one _).symm
  | n + 1, hn, y => by
    have hN : n + 1 < 16 := lt_of_lt_of_eq hn hN1
    obtain ⟨i0, i1, i2, i3⟩ := accs n (Nat.lt_of_succ_lt hn) y
    have hB0 : ¬(⟨n + 1, hn⟩ : Fin cfg1.N).val % 16 = 0 := by dsimp only; omega
    by_cases h15 : (⟨n + 1, hn⟩ : Fin cfg1.N).val % 16 = 15
    · refine ⟨?_, ?_, ?_, ?_⟩
      · refine (congrFun (accC_0 V c ⟨n + 1, hn⟩ hB0 h15) y).trans ?_
        refine (step0 V c ⟨n + 1, hn⟩ _ y).trans ?_
        rw [Finset.sum_range_succ]
        exact congrArg (· + T0 V c (n + 1)) i0
      · refine (congrFun (accC_1 V c ⟨n + 1, hn⟩ hB0 h15) y).trans ?_
        refine (step1 V c ⟨n + 1, hn⟩ _ y).trans ?_
        rw [Finset.sum_range_succ]
        exact congrArg (· + T1 V c (n + 1)) i1
      · refine (congrFun (accC_2 V c ⟨n + 1, hn⟩ hB0 h15) y).trans ?_
        refine (step2 V c ⟨n + 1, hn⟩ _ y).trans ?_
        rw [Finset.sum_range_succ]
        exact congrArg (· + T2 V c (n + 1)) i2
      · refine (congrFun (accC_3 V c ⟨n + 1, hn⟩ hB0 h15) y).trans ?_
        refine (step3 V c ⟨n + 1, hn⟩ _ y).trans ?_
        rw [Finset.sum_range_succ]
        exact congrArg (· + T3 V c (n + 1)) i3
    · refine ⟨?_, ?_, ?_, ?_⟩
      · refine (congrFun (accB_0 V c ⟨n + 1, hn⟩ hB0 h15) y).trans ?_
        refine (step0 V c ⟨n + 1, hn⟩ _ y).trans ?_
        rw [Finset.sum_range_succ]
        exact congrArg (· + T0 V c (n + 1)) i0
      · refine (congrFun (accB_1 V c ⟨n + 1, hn⟩ hB0 h15) y).trans ?_
        refine (step1 V c ⟨n + 1, hn⟩ _ y).trans ?_
        rw [Finset.sum_range_succ]
        exact congrArg (· + T1 V c (n + 1)) i1
      · refine (congrFun (accB_2 V c ⟨n + 1, hn⟩ hB0 h15) y).trans ?_
        refine (step2 V c ⟨n + 1, hn⟩ _ y).trans ?_
        rw [Finset.sum_range_succ]
        exact congrArg (· + T2 V c (n + 1)) i2
      · refine (congrFun (accB_3 V c ⟨n + 1, hn⟩ hB0 h15) y).trans ?_
        refine (step3 V c ⟨n + 1, hn⟩ _ y).trans ?_
        rw [Finset.sum_range_succ]
        exact congrArg (· + T3 V c (n + 1)) i3

/-- A sum over the first sixteen positions is the sum over the sixteen blocks. -/
theorem sum_blocks (T : ℕ → EReal) (f : Fin 16 → EReal) (h : ∀ t : Fin 16, T t.val = f t) :
    ∑ m ∈ Finset.range (15 + 1), T m = ∑ t : Fin 16, f t :=
  (Fin.sum_univ_eq_sum_range T 16).symm.trans (Finset.sum_congr rfl fun t _ => h t)

/-! ## After the last block -/

/-- The last block's position is inside the grid. -/
theorem h15 : 15 < cfg1.N := by rw [hN1]; decide

/-- What the output holds after the last block: the mean distance over the selected pairs plus the mean hinge
    over the pairs that are no match, each mean a quotient of a sum over all blocks by a count. -/
theorem loss_last :
    (outsAt1 V c 15 h15).1 (ix2 0 0)
      = Ideal.div (∑ t : Fin 16, ∑ i : Fin 512, ∑ g : Fin 512, if M V c t i g ∧ Rf V c t i g then D V c t i g else 0)
                  (∑ t : Fin 16, ∑ i : Fin 512, ∑ g : Fin 512, if M V c t i g ∧ Rf V c t i g then (1 : EReal) else 0)
        + Ideal.div (∑ t : Fin 16, ∑ i : Fin 512, ∑ g : Fin 512, if M V c t i g then 0 else Cert.Spec.hingeOf (D V c t i g))
                    (∑ t : Fin 16, ∑ i : Fin 512, ∑ g : Fin 512, if M V c t i g then (0 : EReal) else 1) := by
  have hC0 : ¬(⟨15, h15⟩ : Fin cfg1.N).val % 16 = 0 := by decide
  have hC1 : (⟨15, h15⟩ : Fin cfg1.N).val % 16 = 15 := rfl
  obtain ⟨a0, a1, a2, a3⟩ := accs V c 15 h15 (ix2 0 0)
  have e0 := ((congrFun (accC_0 V c ⟨15, h15⟩ hC0 hC1) (ix2 0 0)).symm.trans a0).trans
    (sum_blocks (T0 V c) (fun t => ∑ i : Fin 512, ∑ g : Fin 512, if M V c t i g ∧ Rf V c t i g then D V c t i g else 0)
      fun t => dif_pos t.isLt)
  have e1 := ((congrFun (accC_1 V c ⟨15, h15⟩ hC0 hC1) (ix2 0 0)).symm.trans a1).trans
    (sum_blocks (T1 V c) (fun t => ∑ i : Fin 512, ∑ g : Fin 512, if M V c t i g ∧ Rf V c t i g then (1 : EReal) else 0)
      fun t => dif_pos t.isLt)
  have e2 := ((congrFun (accC_2 V c ⟨15, h15⟩ hC0 hC1) (ix2 0 0)).symm.trans a2).trans
    (sum_blocks (T2 V c) (fun t => ∑ i : Fin 512, ∑ g : Fin 512, if M V c t i g then 0 else Cert.Spec.hingeOf (D V c t i g))
      fun t => dif_pos t.isLt)
  have e3 := ((congrFun (accC_3 V c ⟨15, h15⟩ hC0 hC1) (ix2 0 0)).symm.trans a3).trans
    (sum_blocks (T3 V c) (fun t => ∑ i : Fin 512, ∑ g : Fin 512, if M V c t i g then (0 : EReal) else 1)
      fun t => dif_pos t.isLt)
  refine (congrFun (outC_6 V c ⟨15, h15⟩ hC0 hC1) (ix2 0 0)).trans ?_
  refine (pay4 _ _ _ _ (ix2 0 0)).trans ?_
  rw [e0, e1, e2, e3]

end Cert.KernelIdeal.AccValue

end
-- ==== Proof.KI.AccArr.lean ====
/-
  The array the second kernel region leaves in its one-element output: the window is written back at the last grid
  point only, its one block is the whole array, so the array ends holding what the last point stored.
-/
import proofs.«115993_j5600637353990_1_alg».proof.Proof.KI.Region1
import Idealize.ShloMosaic.Lib.Pipeline.Value
import Idealize.ShloMosaic.Lib.ValueIdx

noncomputable section

namespace Cert.KernelIdeal.AccArr

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The last grid point is point 15. -/
theorem h15 : 15 < cfg1.N := by rw [show cfg1.N = 16 from N_1]; decide

/-- What the output's staging buffer holds after the last point. -/
abbrev result (c : Dev nD) : Vec Ideal S1x1 .f32 := (outsAt1 (F := Ideal) V c 15 h15).1

/-- The one write-back, at the last point, writes `result`: block (0, 0) of the one-element array read through zero
    offsets is the array. -/
theorem flushed_eq (c : Dev nD) (t : Fin cfg1.N) (hf : (cfg1.win 6).flush t = true) :
    (dat1 (F := Ideal) V c).flushed 6 t = ((cfg1.win 6).blk t).view.read (Elt Ideal) (result V c) := by
  have hN : cfg1.N = 16 := N_1
  have h1 : t.val = 15 := by have := (flush1_6 t).mp hf; have := t.isLt; omega
  obtain rfl : t = t1_15 := Fin.ext h1
  show (cfg1.win 6).cut (grid1.coords t1_15) ((dat1 (F := Ideal) V c).after 6 t1_15) = _
  rw [after1_6]
  have hz' : (fun a => win1_6.index t1_15 a * main_v17.ty.shape.size a) = fun _ => 0 :=
    funext fun a => by fin_cases a <;> decide
  exact (Memref.read_access_unit_zero (Elt Ideal) main_v17 hz' (fun a => by rw [congrFun hz' a]; simp) (result V c)).symm

/-- THE ARRAY the second region leaves in its one-element output: what the last point stored. -/
theorem out_arr (c : Dev nD) :
    ((dat1 (F := Ideal) V c).arrAt 6 cfg1.N : S1x1.Idx → EReal)
      = ((outsAt1 (F := Ideal) V c 15 h15).1 : S1x1.Idx → EReal) :=
  (dat1 (F := Ideal) V c).arrAt_eq_of_cover 6 (result V c) (flushed_eq V c) fun i =>
    ⟨t1_15, (flush1_6 t1_15).mpr rfl, by
      show i ∈ ((View.whole main_v17).slice (win1_6.rect t1_15)).set
      rw [View.set_slice_whole, Rect.mem_set_unit]
      intro a
      have h0 : (i 0 : Nat) < 1 := (i 0).isLt
      have h1 : (i 1 : Nat) < 1 := (i 1).isLt
      match a with
      | ⟨0, _⟩ =>
        show win1_6.index t1_15 0 * win1_6.size 0 ≤ (i 0 : Nat)
          ∧ (i 0 : Nat) < win1_6.index t1_15 0 * win1_6.size 0 + win1_6.xsize (grid1.coords t1_15) 0
        rw [show win1_6.index t1_15 0 * win1_6.size 0 = 0 from by decide +kernel,
          show win1_6.xsize (grid1.coords t1_15) 0 = 1 from by decide +kernel]; omega
      | ⟨1, _⟩ =>
        show win1_6.index t1_15 1 * win1_6.size 1 ≤ (i 1 : Nat)
          ∧ (i 1 : Nat) < win1_6.index t1_15 1 * win1_6.size 1 + win1_6.xsize (grid1.coords t1_15) 1
        rw [show win1_6.index t1_15 1 * win1_6.size 1 = 0 from by decide +kernel,
          show win1_6.xsize (grid1.coords t1_15) 1 = 1 from by decide +kernel]; omega⟩

end Cert.KernelIdeal.AccArr

end
-- ==== Proof.KI.Loss.lean ====
/-
  The kernel program's result is the loss of its arguments. The second region leaves, in its one-element output,
  the two quotients' sum over the four totals taken block by block; read back to the arguments (the entry contents
  of the region), each summand is the specification's at row `512·t + i`, and a sum over the 16 blocks of the sums
  over each block's 512 rows is the sum over all rows.
-/
import proofs.«115993_j5600637353990_1_alg».proof.Proof.KI.Entry
import proofs.«115993_j5600637353990_1_alg».proof.Proof.KI.AccValue
import proofs.«115993_j5600637353990_1_alg».proof.Proof.KI.AccArr

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The distance the kernel forms for row `i` of block `t` and center `g` is the specification's. -/
theorem dist_eq (c : Dev nD) (t : Fin 16) (i g : Fin 512) :
    Cert.KernelIdeal.AccValue.D (Vb3 m ρ) c t i g = Cert.Spec.dist (xs m c) (Cert.Spec.tileRow t i) g := by
  have hr : ∀ k, Cert.KernelIdeal.AccValue.rowsA (Vb3 m ρ) c t i k = xs m c (Cert.Spec.tileRow t i) k :=
    fun k => rows_eq m ρ c _ k
  have hc : ∀ k, Cert.KernelIdeal.AccValue.cenA (Vb3 m ρ) c g k = Cert.Spec.cen (xs m c) g k :=
    fun k => centers_bf_eq m ρ c g k
  have hn : Cert.KernelIdeal.AccValue.ncA (Vb3 m ρ) c g = Cert.Spec.normC (xs m c) g := normC_eq m ρ c g
  rw [Cert.KernelIdeal.AccValue.D_eq]
  simp only [hr, hc, hn]
  rfl

/-- The kernel's identity comparison is the specification's match. -/
theorem match_iff (c : Dev nD) (t : Fin 16) (i g : Fin 512) :
    Cert.KernelIdeal.AccValue.M (Vb3 m ρ) c t i g ↔ Cert.Spec.isMatch (ps m c) (Cert.Spec.tileRow t i) g := by
  have hr : Cert.KernelIdeal.AccValue.ridA (Vb3 m ρ) c t i = ps m c (Cert.Spec.tileRow t i) := rid_eq m ρ c _
  have hc : Cert.KernelIdeal.AccValue.cidA (Vb3 m ρ) c g = ps m c (Cert.Spec.rowOf g 0) := cid_eq m ρ c g
  show Cert.KernelIdeal.AccValue.ridA (Vb3 m ρ) c t i = Cert.KernelIdeal.AccValue.cidA (Vb3 m ρ) c g ↔ _
  rw [hr, hc]
  rfl

/-- The kernel's comparison of the row's half-flag with the center's is "first half of the rows iff second half of
    the centers". -/
theorem half_iff (c : Dev nD) (t : Fin 16) (i g : Fin 512) :
    Cert.KernelIdeal.AccValue.Rf (Vb3 m ρ) c t i g ↔ ((Cert.Spec.tileRow t i).val < 4096 ↔ 256 ≤ g.val) := by
  have hh : Cert.KernelIdeal.AccValue.halfA (Vb3 m ρ) c t i = if (Cert.Spec.tileRow t i).val < 4096 then 1#32 else 0#32 :=
    half_eq m ρ c _
  show Cert.KernelIdeal.AccValue.halfA (Vb3 m ρ) c t i = (if 256 ≤ g.val then 1#32 else 0#32) ↔ _
  rw [hh]
  by_cases h1 : (Cert.Spec.tileRow t i).val < 4096 <;> by_cases h2 : 256 ≤ g.val <;> simp [h1, h2]

/-- The one-element array the second region leaves holds the loss. -/
theorem kernel_loss (c : Dev nD) :
    (W4 m ρ c (Proc.devRef .tc main_v17) : S1x1.Idx → EReal) (ix2 0 0) = Cert.Spec.loss (xs m c) (ps m c) := by
  have h6 : W4 m ρ c (Proc.devRef .tc main_v17) = (dat1 (Vb3 m ρ) c).arrAt 6 cfg1.N := W4_arr m ρ c 6
  rw [h6, Cert.KernelIdeal.AccArr.out_arr (Vb3 m ρ) c]
  refine (Cert.KernelIdeal.AccValue.loss_last (Vb3 m ρ) c).trans ?_
  unfold Cert.Spec.loss Cert.Spec.selSum Cert.Spec.selCnt Cert.Spec.negSum Cert.Spec.negCnt
  rw [Cert.Spec.sum_rows_tiles, Cert.Spec.sum_rows_tiles, Cert.Spec.sum_rows_tiles, Cert.Spec.sum_rows_tiles]
  refine congrArg₂ (· + ·) (congrArg₂ Ideal.div ?_ ?_) (congrArg₂ Ideal.div ?_ ?_)
  · refine Finset.sum_congr rfl fun t _ => Finset.sum_congr rfl fun i _ => Finset.sum_congr rfl fun g _ => ?_
    exact if_congr (and_congr (match_iff m ρ c t i g) (half_iff m ρ c t i g)) (dist_eq m ρ c t i g) rfl
  · refine Finset.sum_congr rfl fun t _ => Finset.sum_congr rfl fun i _ => Finset.sum_congr rfl fun g _ => ?_
    exact if_congr (and_congr (match_iff m ρ c t i g) (half_iff m ρ c t i g)) rfl rfl
  · refine Finset.sum_congr rfl fun t _ => Finset.sum_congr rfl fun i _ => Finset.sum_congr rfl fun g _ => ?_
    exact if_congr (match_iff m ρ c t i g) rfl (congrArg Cert.Spec.hingeOf (dist_eq m ρ c t i g))
  · refine Finset.sum_congr rfl fun t _ => Finset.sum_congr rfl fun i _ => Finset.sum_congr rfl fun g _ => ?_
    exact if_congr (match_iff m ρ c t i g) rfl rfl

/-- THE KERNEL PROGRAM'S RUN: every weakly fair execution terminates with the result at the loss of the arguments
    and the arguments as launched. -/
theorem kernel_run : θ_run (defs (F := Ideal)) (onTc (τ := τ) (main (F := Ideal))) ⟨m, fun _ => 0, ρ⟩ (fun r => ∀ c : Dev nD,
      r.2.mem ((c.tc : Thread nD τ).loc main_v18) = (fun _ => Cert.Spec.loss (xs m c) (ps m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v18 (by decide))).trans (funext fun i =>
        (Cert.KernelIdeal.HostValue.host2_v18 (W4 m ρ c) i).trans (kernel_loss m ρ c)),
     (h c _ (mem_uc main_arg0 (by decide))).trans (W5_main_arg0 m ρ c),
     (h c _ (mem_uc main_arg1 (by decide))).trans (W5_main_arg1 m ρ c)⟩) (run_all m ρ)

end Cert.KernelIdeal.Bridge

end
-- ==== Proof.RefDist.lean ====
/-
  The reference's distance matrix, stage by stage: the centers (means of sixteen consecutive rows), the squared norms
  of the rows and of the centers, the inner products, and the root of the floored squared distance, each read at an
  index and identified with the specification's function of the argument's coordinates.
-/
import proofs.«115993_j5600637353990_1_alg».proof.Proof.Gen.ReferenceIdeal.Read
import proofs.«115993_j5600637353990_1_alg».proof.Proof.Spec

noncomputable section

namespace Cert.RefValue

open Cert.ReferenceIdeal Cert.ReferenceIdeal.Gen Cert.ReferenceIdeal.Read Idealize.ShloMosaic Idealize.ShloMosaic.ValueIdx

/-- The first argument as a function of its two coordinates. -/
abbrev xf (x : (⟨S8192x4096, .f32⟩ : BufTy).Contents (Elt Ideal)) : Fin 8192 → Fin 4096 → EReal := fun r k => x (ix2 r k)

/-! ### The centers: the reshape to [512,16,4096], the sum over the middle axis, the division by sixteen -/

/-- Element (g, j, k) of the reshaped array is element (16·g + j, k) of the argument. -/
theorem idx_cen (g : Fin 512) (k : Fin 4096) (j : Fin 16) :
    idx_main_v3 (idx_main_v4 (ix2 g k) j) = ix2 (Cert.Spec.rowOf g j) k := by
  funext a
  refine Fin.ext ?_
  match a with
  | ⟨0, _⟩ =>
    show ((g.val * 16 + j.val) * 4096 + k.val) / 4096 = 16 * g.val + j.val
    have := k.isLt; omega
  | ⟨1, _⟩ =>
    show ((g.val * 16 + j.val) * 4096 + k.val) % 4096 = k.val
    have := k.isLt; omega

/-- The mean over each group of sixteen rows is the specification's center. -/
theorem v6_eq (x : (⟨S8192x4096, .f32⟩ : BufTy).Contents (Elt Ideal)) (g : Fin 512) (k : Fin 4096) :
    val_main_v6 (F := Ideal) x (ix2 g k) = Cert.Spec.cen (xf x) g k := by
  rw [val_main_v6_apply, val_main_v4_apply, val_main_v5_apply, val_main_cst_0_apply, val_main_cst_apply]
  simp only [val_main_v3_apply, idx_cen, Ideal.hostDivf_def, Ideal.ofBits_def, Ideal.ofBits_zero_f32, zero_add]
  rfl

/-! ### The two squared norms and the inner product -/

theorem idx_v8 (r : Fin 8192) (k : Fin 4096) : idx_main_v8 (ix1 r) k = ix2 r k := by
  funext a; refine Fin.ext ?_
  match a with
  | ⟨0, _⟩ => rfl
  | ⟨1, _⟩ => rfl

/-- The row sums of the squares are the rows' squared norms. -/
theorem v8_eq (x : (⟨S8192x4096, .f32⟩ : BufTy).Contents (Elt Ideal)) (r : Fin 8192) :
    val_main_v8 (F := Ideal) x (ix1 r) = Cert.Spec.normX (xf x) r := by
  rw [val_main_v8_apply, val_main_cst_1_apply]
  simp only [val_main_v7_apply, idx_v8, Ideal.mulf_def, Ideal.ofBits_def, Ideal.ofBits_zero_f32, zero_add]
  rfl

theorem idx_v11 (g : Fin 512) (k : Fin 4096) : idx_main_v11 (ix1 g) k = ix2 g k := by
  funext a; refine Fin.ext ?_
  match a with
  | ⟨0, _⟩ => rfl
  | ⟨1, _⟩ => rfl

/-- The row sums of the squared centers are the centers' squared norms. -/
theorem v11_eq (x : (⟨S8192x4096, .f32⟩ : BufTy).Contents (Elt Ideal)) (g : Fin 512) :
    val_main_v11 (F := Ideal) x (ix1 g) = Cert.Spec.normC (xf x) g := by
  rw [val_main_v11_apply, val_main_cst_2_apply]
  simp only [val_main_v10_apply, idx_v11, v6_eq, Ideal.mulf_def, Ideal.ofBits_def, Ideal.ofBits_zero_f32, zero_add]
  rfl

theorem lidx_v17 (r : Fin 8192) (g : Fin 512) (k : Fin 4096) : lidx_main_v17 (ix2 r g) k = ix2 r k := by
  funext a; refine Fin.ext ?_
  match a with
  | ⟨0, _⟩ => rfl
  | ⟨1, _⟩ => rfl

theorem ridx_v17 (r : Fin 8192) (g : Fin 512) (k : Fin 4096) :
    idx_main_v16 (ridx_main_v17 (ix2 r g) k) = ix2 g k := by
  funext a; refine Fin.ext ?_
  match a with
  | ⟨0, _⟩ => rfl
  | ⟨1, _⟩ => rfl

/-- The product of the rows with the transposed centers is the inner product of a row and a center. -/
theorem v17_eq (x : (⟨S8192x4096, .f32⟩ : BufTy).Contents (Elt Ideal)) (r : Fin 8192) (g : Fin 512) :
    val_main_v17 (F := Ideal) x (ix2 r g) = Cert.Spec.inner (xf x) r g := by
  rw [val_main_v17_apply]
  simp only [val_main_v16_apply, lidx_v17, ridx_v17, v6_eq]
  rfl

/-! ### The distance -/

theorem idx_v13 (r : Fin 8192) (g : Fin 512) : idx_main_v9 (idx_main_v13 (ix2 r g)) = ix1 r := by
  funext a; refine Fin.ext ?_
  match a with
  | ⟨0, _⟩ => rfl

theorem idx_v14 (r : Fin 8192) (g : Fin 512) : idx_main_v12 (idx_main_v14 (ix2 r g)) = ix1 g := by
  funext a; refine Fin.ext ?_
  match a with
  | ⟨0, _⟩ => rfl

/-- The root of the floored squared distance is the specification's distance of row `r` to center `g`. -/
theorem v22_eq (x : (⟨S8192x4096, .f32⟩ : BufTy).Contents (Elt Ideal)) (r : Fin 8192) (g : Fin 512) :
    val_main_v22 (F := Ideal) x (ix2 r g) = Cert.Spec.dist (xf x) r g := by
  rw [val_main_v22_apply, val_main_v21_apply, val_main_call0_v1_apply, val_main_call0_v0_apply, val_main_cst_4_apply,
    val_main_v20_apply, val_main_v15_apply, val_main_v13_apply, val_main_v9_apply, val_main_v14_apply, val_main_v12_apply,
    val_main_v19_apply, val_main_v18_apply, val_main_cst_3_apply, idx_v13, idx_v14, v8_eq, v11_eq, v17_eq]
  simp only [Ideal.hostUnary_sqrt_def, Ideal.maximumf_def, Ideal.subf_def, Ideal.addf_def, Ideal.mulf_def, Ideal.ofBits_def]
  rw [max_comm]
  rfl

end Cert.RefValue

end
-- ==== Proof.RefMask.lean ====
/-
  The reference's two masks, read at an index: the comparison of a row's identity with a center's is set exactly at
  the matches, its conjunction with the comparison of the two half indicators exactly at the selected pairs.
-/
import proofs.«115993_j5600637353990_1_alg».proof.Proof.Gen.ReferenceIdeal.Read
import proofs.«115993_j5600637353990_1_alg».proof.Proof.Spec

noncomputable section

namespace Cert.RefValue

open Cert.ReferenceIdeal Cert.ReferenceIdeal.Gen Cert.ReferenceIdeal.Read Idealize.ShloMosaic Idealize.ShloMosaic.ValueIdx

/-- The second argument as a function of its coordinate. -/
abbrev pf (p : (⟨S8192, .i32⟩ : BufTy).Contents (Elt Ideal)) : Fin 8192 → BitVec 32 := fun r => p (ix1 r)

/-! ### Words -/

/-- Two one-bit words compare equal exactly when one is set iff the other is. -/
theorem cmpi_eq_bit (a b : BitVec 1) : IntOp.cmpi .eq a b = 1#1 ↔ (a = 1#1 ↔ b = 1#1) := by
  revert a b; decide

/-- A number below 2³¹ reads back from its 32-bit word, signed. -/
theorem toInt_ofNat_small (n : Nat) (hn : n < 2 ^ 31) : (BitVec.ofNat 32 n).toInt = (n : Int) := by
  have hN : (BitVec.ofNat 32 n).toNat = n := by rw [BitVec.toNat_ofNat]; omega
  rw [BitVec.toInt_eq_toNat_of_lt (by rw [hN]; omega), hN]

/-- "Row index below 4096", as the signed comparison of the index's word with the literal. -/
theorem slt_4096 (n : Nat) (hn : n < 8192) : IntOp.cmpi .slt (BitVec.ofNat 32 n) 4096#32 = 1#1 ↔ n < 4096 := by
  rw [IntOp.cmpi_slt, toInt_ofNat_small n (by omega), show (4096#32 : BitVec 32).toInt = 4096 from by decide]
  omega

/-- "Center index at least 256", as the signed comparison of the index's word with the literal. -/
theorem sge_256 (n : Nat) (hn : n < 512) : IntOp.cmpi .sge (BitVec.ofNat 32 n) 256#32 = 1#1 ↔ 256 ≤ n := by
  rw [IntOp.cmpi_sge, toInt_ofNat_small n (by omega), show (256#32 : BitVec 32).toInt = 256 from by decide]
  omega

/-! ### The identity mask -/

theorem idx_v25 (r : Fin 8192) (g : Fin 512) : idx_main_v23 (idx_main_v25 (ix2 r g)) = ix1 r := by
  funext a; refine Fin.ext ?_
  match a with
  | ⟨0, _⟩ => rfl

/-- Entry `g` of the centers' identities is the identity of row `16·g`. -/
theorem idx_v26 (r : Fin 8192) (g : Fin 512) :
    idx_main_v0 (idx_main_v1 (idx_main_v2 (idx_main_v24 (idx_main_v26 (ix2 r g))))) = ix1 (Cert.Spec.rowOf g 0) := by
  funext a; refine Fin.ext ?_
  match a with
  | ⟨0, _⟩ =>
    show g.val / 1 * 16 + 0 = 16 * g.val + 0
    omega

/-- The comparison of the two broadcast identities is set exactly at the matches. -/
theorem v27_iff (p : (⟨S8192, .i32⟩ : BufTy).Contents (Elt Ideal)) (r : Fin 8192) (g : Fin 512) :
    val_main_v27 (F := Ideal) p (ix2 r g) = 1#1 ↔ Cert.Spec.isMatch (pf p) r g := by
  rw [val_main_v27_apply, val_main_v25_apply, val_main_v23_apply, val_main_v26_apply, val_main_v24_apply,
    val_main_v2_apply, val_main_v1_apply, val_main_v0_apply, idx_v25, idx_v26, IntOp.cmpi_eq]
  rfl

/-- Its complement is set exactly off the matches. -/
theorem v46_iff (p : (⟨S8192, .i32⟩ : BufTy).Contents (Elt Ideal)) (r : Fin 8192) (g : Fin 512) :
    val_main_v46 (F := Ideal) p (ix2 r g) = 1#1 ↔ ¬ Cert.Spec.isMatch (pf p) r g := by
  rw [val_main_v46_apply, IntOp.not_eq_one, v27_iff]

/-! ### The halves -/

theorem v36_iff (r : Fin 8192) (g : Fin 512) : val_main_v36 (F := Ideal) (ix2 r g) = 1#1 ↔ r.val < 4096 := by
  rw [val_main_v36_apply, val_main_v31_apply, val_main_v30_apply, val_main_v28_apply, val_main_v29_apply, val_main_c_apply]
  exact slt_4096 r.val r.isLt

theorem v37_iff (r : Fin 8192) (g : Fin 512) : val_main_v37 (F := Ideal) (ix2 r g) = 1#1 ↔ 256 ≤ g.val := by
  rw [val_main_v37_apply, val_main_v35_apply, val_main_v34_apply, val_main_v32_apply, val_main_v33_apply, val_main_c_5_apply]
  exact sge_256 g.val g.isLt

/-- The comparison of the two half indicators: the row in the first half exactly when the center is in the second. -/
theorem v38_iff (r : Fin 8192) (g : Fin 512) :
    val_main_v38 (F := Ideal) (ix2 r g) = 1#1 ↔ (r.val < 4096 ↔ 256 ≤ g.val) := by
  rw [val_main_v38_apply, cmpi_eq_bit, v36_iff, v37_iff]

/-- The conjunction is set exactly at the selected pairs. -/
theorem v39_iff (p : (⟨S8192, .i32⟩ : BufTy).Contents (Elt Ideal)) (r : Fin 8192) (g : Fin 512) :
    val_main_v39 (F := Ideal) p (ix2 r g) = 1#1 ↔ Cert.Spec.isSel (pf p) r g := by
  rw [val_main_v39_apply, IntOp.andi_eq_one, v27_iff, v38_iff]
  rfl

end Cert.RefValue

end
-- ==== Proof.RefCount.lean ====
/-
  A count as the reference computes it: the integer sum, over all pairs, of a one-bit mask widened to 32 bits, then
  converted to a float, is the double sum of ones over the pairs at which the mask is set.
-/
import proofs.«115993_j5600637353990_1_alg».proof.Proof.RefMask
import Idealize.ShloMosaic.Lib.IndicatorCount

noncomputable section

namespace Cert.RefValue

open Cert.ReferenceIdeal Cert.ReferenceIdeal.Gen Cert.ReferenceIdeal.Read Idealize.ShloMosaic Idealize.ShloMosaic.ValueIdx

/-! ### A sum of ones is a count -/

/-- The number of elements of a finite set with a property, as an extended real, is the sum of the indicator. -/
theorem card_filter_ereal {ι : Type} [DecidableEq ι] (q : ι → Prop) [DecidablePred q] (S : Finset ι) :
    (((S.filter q).card : ℝ) : EReal) = ∑ i ∈ S, if q i then (1 : EReal) else 0 := by
  induction S using Finset.induction_on with
  | empty => simp
  | insert a S ha ih =>
    rw [Finset.sum_insert ha, ← ih, Finset.filter_insert]
    by_cases h : q a
    · rw [if_pos h, if_pos h, Finset.card_insert_of_notMem (fun hm => ha (Finset.mem_filter.1 hm).1)]
      rw [Nat.cast_add, Nat.cast_one, EReal.coe_add, add_comm]
      rfl
    · rw [if_neg h, if_neg h, zero_add]

/-- The pairs (row, center) number 8192 · 512. -/
theorem card_pairs : Fintype.card S8192x512.Idx = 8192 * 512 := by
  rw [Fintype.card_congr (idxEquiv2 (n0 := 8192) (n1 := 512)), Fintype.card_prod, Fintype.card_fin, Fintype.card_fin]

/-- THE COUNT. The integer sum over all pairs of a one-bit mask widened to 32 bits, from the zero word, converted to a
    float: the number of pairs at which the mask is set (at most 2²² of them, so the 32-bit sum does not wrap and
    reads back signed), which is the double sum of ones over those pairs. -/
theorem count_eq (b : S8192x512.Idx → BitVec 1) (init : S_.Idx → BitVec 32) (hinit : ∀ i, init i = 0#32) (j : S_.Idx) :
    FloatOps.sitofp (F := Ideal) .f32
        (Host.reduce IntOp.addi (fun i => (b i).setWidth 32) init reducesTo_S8192x512_S_d0_1 h_S_ j)
      = ∑ r : Fin 8192, ∑ g : Fin 512, if b (ix2 r g) = 1#1 then (1 : EReal) else 0 := by
  rw [Host.reduce_eq_fold, hinit,
    Finset.filter_true_of_mem (fun i _ => funext fun a => a.elim0),
    IndicatorCount.fold_addi_setWidth_eq_card]
  have hc : (Finset.univ.filter fun k => b k = 1#1).card ≤ 8192 * 512 := by
    rw [← card_pairs]; exact Finset.card_le_univ _
  show (((BitVec.ofNat 32 _).toInt : ℝ) : EReal) = _
  rw [toInt_ofNat_small _ (by omega), Int.cast_natCast, card_filter_ereal, sum_idx2]

end Cert.RefValue

end
-- ==== Proof.RefLoss.lean ====
/-
  The reference computes the specification's loss: the two sums over all pairs (the selected distances, the hinges off
  the matches), the two counts, the two quotients and their sum, read off the reference's stages; then the reference's
  run restated with the loss in place of the composed term.
-/
import proofs.«115993_j5600637353990_1_alg».proof.Proof.RefDist
import proofs.«115993_j5600637353990_1_alg».proof.Proof.RefCount

noncomputable section

namespace Cert.RefValue

open Cert.ReferenceIdeal Cert.ReferenceIdeal.Gen Cert.ReferenceIdeal.Read Idealize.ShloMosaic Idealize.ShloMosaic.ValueIdx

open Idealize.ShloMosaic.TcCoe Idealize.SL.Sem Idealize.ShloMosaic.StableHlo

/-! ### The two sums -/

/-- The selected distances: the distance at a selected pair, zero elsewhere. -/
theorem v40_eq (x : (⟨S8192x4096, .f32⟩ : BufTy).Contents (Elt Ideal)) (p : (⟨S8192, .i32⟩ : BufTy).Contents (Elt Ideal))
    (r : Fin 8192) (g : Fin 512) :
    val_main_v40 (F := Ideal) x p (ix2 r g)
      = if Cert.Spec.isSel (pf p) r g then Cert.Spec.dist (xf x) r g else 0 := by
  rw [val_main_v40_apply, val_main_call1_v1_apply, val_main_call1_v0_apply, val_main_cst_6_apply, v22_eq]
  by_cases h : Cert.Spec.isSel (pf p) r g
  · rw [if_pos h, (v39_iff p r g).mpr h, select_one]
  · rw [if_neg h, eq_zero_of_ne_one (fun hh => h ((v39_iff p r g).mp hh)), select_zero, Ideal.ofBits_def,
      Ideal.ofBits_zero_f32]

/-- Their sum over all pairs. -/
theorem v41_eq (x : (⟨S8192x4096, .f32⟩ : BufTy).Contents (Elt Ideal)) (p : (⟨S8192, .i32⟩ : BufTy).Contents (Elt Ideal))
    (j : S_.Idx) : val_main_v41 (F := Ideal) x p j = Cert.Spec.selSum (xf x) (pf p) := by
  rw [val_main_v41_apply, val_main_cst_7_apply, Ideal.ofBits_def, Ideal.ofBits_zero_f32, zero_add, sum_idx2]
  simp only [v40_eq]
  rfl

/-- The hinges off the matches: zero at a match, the hinge of the distance elsewhere. -/
theorem v51_eq (x : (⟨S8192x4096, .f32⟩ : BufTy).Contents (Elt Ideal)) (p : (⟨S8192, .i32⟩ : BufTy).Contents (Elt Ideal))
    (r : Fin 8192) (g : Fin 512) :
    val_main_v51 (F := Ideal) x p (ix2 r g)
      = if Cert.Spec.isMatch (pf p) r g then 0 else Cert.Spec.hingeOf (Cert.Spec.dist (xf x) r g) := by
  rw [val_main_v51_apply, val_main_call2_v1_apply, val_main_call2_v0_apply, val_main_cst_11_apply, val_main_v50_apply,
    val_main_v48_apply, val_main_v47_apply, val_main_cst_9_apply, val_main_v49_apply, val_main_cst_10_apply, v22_eq]
  simp only [Ideal.maximumf_def, Ideal.subf_def, Ideal.ofBits_def, Ideal.ofBits_zero_f32]
  by_cases h : Cert.Spec.isMatch (pf p) r g
  · rw [if_pos h, eq_zero_of_ne_one (fun hh => ((v46_iff p r g).mp hh) h), select_zero]
  · rw [if_neg h, (v46_iff p r g).mpr h, select_one]
    rfl

/-- Their sum over all pairs. -/
theorem v52_eq (x : (⟨S8192x4096, .f32⟩ : BufTy).Contents (Elt Ideal)) (p : (⟨S8192, .i32⟩ : BufTy).Contents (Elt Ideal))
    (j : S_.Idx) : val_main_v52 (F := Ideal) x p j = Cert.Spec.negSum (xf x) (pf p) := by
  rw [val_main_v52_apply, val_main_cst_12_apply, Ideal.ofBits_def, Ideal.ofBits_zero_f32, zero_add, sum_idx2]
  simp only [v51_eq]
  rfl

/-! ### The two counts -/

/-- The number of selected pairs. -/
theorem v44_eq (p : (⟨S8192, .i32⟩ : BufTy).Contents (Elt Ideal)) (j : S_.Idx) :
    val_main_v44 (F := Ideal) p j = Cert.Spec.selCnt (pf p) := by
  rw [val_main_v44_apply]
  refine (count_eq (val_main_v39 (F := Ideal) p) (val_main_c_8 (F := Ideal)) (fun _ => rfl) j).trans ?_
  exact Finset.sum_congr rfl fun r _ => Finset.sum_congr rfl fun g _ => if_congr (v39_iff p r g) rfl rfl

/-- The number of pairs that are no match. -/
theorem v55_eq (p : (⟨S8192, .i32⟩ : BufTy).Contents (Elt Ideal)) (j : S_.Idx) :
    val_main_v55 (F := Ideal) p j = Cert.Spec.negCnt (pf p) := by
  rw [val_main_v55_apply]
  refine (count_eq (val_main_v46 (F := Ideal) p) (val_main_c_13 (F := Ideal)) (fun _ => rfl) j).trans ?_
  refine Finset.sum_congr rfl fun r _ => Finset.sum_congr rfl fun g _ => ?_
  by_cases h : Cert.Spec.isMatch (pf p) r g
  · rw [if_neg (fun hh => ((v46_iff p r g).mp hh) h), if_pos h]
  · rw [if_pos ((v46_iff p r g).mpr h), if_neg h]

/-! ### The loss -/

/-- THE REFERENCE'S RESULT is the specification's loss of the two arguments read by coordinates. -/
theorem res_eq (x : (⟨S8192x4096, .f32⟩ : BufTy).Contents (Elt Ideal)) (p : (⟨S8192, .i32⟩ : BufTy).Contents (Elt Ideal)) :
    val_main_v57 (F := Ideal) x p = fun _ => Cert.Spec.loss (fun r k => x (ix2 r k)) (fun r => p (ix1 r)) := by
  funext j
  rw [val_main_v57_apply, val_main_v45_apply, val_main_v56_apply, v41_eq, v44_eq, v52_eq, v55_eq]
  rfl

/-- On every device, from any memory with zero counters, every weakly fair execution of the reference terminates with
    its result buffer holding the specification's loss of the two arguments' launch contents, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v57)
            = (fun _ => Cert.Spec.loss
                (fun r k => m ((c.tc : Thread Cert.ReferenceIdeal.nD Cert.ReferenceIdeal.τ).loc Cert.ReferenceIdeal.main_arg0) (ValueIdx.ix2 r k))
                (fun r => m ((c.tc : Thread Cert.ReferenceIdeal.nD Cert.ReferenceIdeal.τ).loc Cert.ReferenceIdeal.main_arg1) (ValueIdx.ix1 r)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run _ _ _).mono
    (fun _ h c => ⟨(h c).1.trans ((Cert.ReferenceIdeal.Read.val_main_v57_eq m c).trans (res_eq _ _)), (h c).2⟩)
    (Cert.ReferenceIdeal.Value.run m ρ)

end Cert.RefValue

end
-- ==== Proof.lean ====
/-
  The certificate's claim, assembled.

  Both programs compute one scalar from a matrix `x` of 8192 rows × 4096 features and a vector of 8192 identity
  words: with center `g` the mean of rows `16·g … 16·g + 15`, the distance of a row to a center is
  `√(max ((‖x r‖² + ‖cen g‖²) − 2·⟨x r, cen g⟩) ε)`; the result is the mean distance over the matching pairs that lie
  across the two halves plus the mean hinge `max (margin − dist) 0` over the non-matching pairs (`Cert.Spec.loss`).

  The kernel program computes the centers block by block in a first region, prepares norms, identities and
  half-flags on the host, and in a second region walks the rows in 16 blocks of 512, adding each block's four partial
  totals (two sums, two counts) into one-element accumulators and dividing at the last block. The reference computes
  the same four totals as whole-array sums, the counts as integer sums converted afterwards. On the extended reals
  the two agree because a sum over all rows is the sum over the blocks of the sums over each block's rows (addition
  is commutative and associative there: no finiteness is needed), and a count of ones is the same number whether
  summed as words or as reals.

  The three frames: each kernel region's body is run symbolically per case of its two branches, the accumulators'
  contents carried from one grid point to the next by the region's invariant; the reference's frame is its run with
  the result dropped. The ideal pass rewrote nothing, so `preserves` is trivial.
-/
import proofs.«115993_j5600637353990_1_alg».proof.Defs
import proofs.«115993_j5600637353990_1_alg».proof.Proof.Gen.Kernel
import proofs.«115993_j5600637353990_1_alg».proof.Proof.Gen.KernelIdeal
import proofs.«115993_j5600637353990_1_alg».proof.Proof.Gen.ReferenceIdeal
import proofs.«115993_j5600637353990_1_alg».proof.Proof.Gen.ReferenceIdeal.Run
import proofs.«115993_j5600637353990_1_alg».proof.Proof.Gen.ReferenceIdeal.Read
import proofs.«115993_j5600637353990_1_alg».proof.Proof.Gen.Pre_finite_inputs
import proofs.«115993_j5600637353990_1_alg».proof.Proof.K.Frame
import proofs.«115993_j5600637353990_1_alg».proof.Proof.KI.Frame
import proofs.«115993_j5600637353990_1_alg».proof.Proof.KI.Loss
import proofs.«115993_j5600637353990_1_alg».proof.Proof.RefLoss
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the loss of the arguments: the kernel program by its run read back to the arguments,
    the reference by its run read one operation at a time; the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => fun _ => Cert.Spec.loss (Cert.KernelIdeal.Bridge.xs m c) (Cert.KernelIdeal.Bridge.ps m c), Cert.KernelIdeal.Bridge.kernel_run m ρ, ?_⟩
  refine (θ_run Cert.ReferenceIdeal.defs _ _).mono (fun _ h c => ⟨(h c).1.trans ?_, (h c).2⟩) (Cert.RefValue.run m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
